-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x300 : Shape := ⟨3, ![16, 1024, 300]⟩
abbrev S1024x300 : Shape := ⟨2, ![1024, 300]⟩
abbrev S_ : Shape := ⟨0, ![]⟩

class Facts : Prop where
  bcast_S_S16x1024x300 : S_.BroadcastsInDim S16x1024x300 (![] : Fin 0 → Fin S16x1024x300.rank)
  reducesTo_S16x1024x300_S_d0_1_2 : S16x1024x300.ReducesTo [0, 1, 2] S_
  h_S_ : 0 < S_.numel
  bcast_S_S1024x300 : S_.BroadcastsInDim S1024x300 (![] : Fin 0 → Fin S1024x300.rank)
  reducesTo_S1024x300_S_d0_1 : S1024x300.ReducesTo [0, 1] S_

variable [Facts]

def fn_part1 {F : FTy → Type} [FloatOps F] (main_arg4 : FVec F S1024x300 .f32) (main_arg5 : FVec F S1024x300 .f32) (main_v13 : IVec S_ 1) (main_v16 : IVec S1024x300 1) : IVec S_ 1 :=
  let main_c_5 : IVec S_ 1 := constantI S_ 1 1#1
  let main_v17 : IVec S_ 1 := (fun x v => Host.reduce IntOp.andi x v reducesTo_S1024x300_S_d0_1 h_S_) main_v16 main_c_5
  let main_v18 : IVec S_ 1 := andi main_v13 main_v17
  let main_v19 : FVec F S1024x300 .f32 := Host.absf main_arg4
  let main_cst_6 : FVec F S_ .f32 := constant S_ .f32 0x7F800000#32
  let main_v20 : FVec F S1024x300 .f32 := broadcastInDim S1024x300 ![] bcast_S_S1024x300 main_cst_6
  let main_v21 : IVec S1024x300 1 := cmpf .olt main_v19 main_v20
  let main_c_7 : IVec S_ 1 := constantI S_ 1 1#1
  let main_v22 : IVec S_ 1 := (fun x v => Host.reduce IntOp.andi x v reducesTo_S1024x300_S_d0_1 h_S_) main_v21 main_c_7
  let main_v23 : IVec S_ 1 := andi main_v18 main_v22
  let main_v24 : FVec F S1024x300 .f32 := Host.absf main_arg5
  let main_cst_8 : FVec F S_ .f32 := constant S_ .f32 0x7F800000#32
  let main_v25 : FVec F S1024x300 .f32 := broadcastInDim S1024x300 ![] bcast_S_S1024x300 main_cst_8
  let main_v26 : IVec S1024x300 1 := cmpf .olt main_v24 main_v25
  let main_c_9 : IVec S_ 1 := constantI S_ 1 1#1
  let main_v27 : IVec S_ 1 := (fun x v => Host.reduce IntOp.andi x v reducesTo_S1024x300_S_d0_1 h_S_) main_v26 main_c_9
  let main_v28 : IVec S_ 1 := andi main_v23 main_v27
  main_v28

def fn {F : FTy → Type} [FloatOps F] (main_arg0 : FVec F S16x1024x300 .f32) (main_arg1 : FVec F S16x1024x300 .f32) (main_arg2 : FVec F S1024x300 .f32) (main_arg3 : FVec F S1024x300 .f32) (main_arg4 : FVec F S1024x300 .f32) (main_arg5 : FVec F S1024x300 .f32) : IVec S_ 1 :=
  let main_v0 : FVec F S16x1024x300 .f32 := Host.absf main_arg0
  let main_cst : FVec F S_ .f32 := constant S_ .f32 0x7F800000#32
  let main_v1 : FVec F S16x1024x300 .f32 := broadcastInDim S16x1024x300 ![] bcast_S_S16x1024x300 main_cst
  let main_v2 : IVec S16x1024x300 1 := cmpf .olt main_v0 main_v1
  let main_c : IVec S_ 1 := constantI S_ 1 1#1
  let main_v3 : IVec S_ 1 := (fun x v => Host.reduce IntOp.andi x v reducesTo_S16x1024x300_S_d0_1_2 h_S_) main_v2 main_c
  let main_v4 : FVec F S16x1024x300 .f32 := Host.absf main_arg1
  let main_cst_0 : FVec F S_ .f32 := constant S_ .f32 0x7F800000#32
  let main_v5 : FVec F S16x1024x300 .f32 := broadcastInDim S16x1024x300 ![] bcast_S_S16x1024x300 main_cst_0
  let main_v6 : IVec S16x1024x300 1 := cmpf .olt main_v4 main_v5
  let main_c_1 : IVec S_ 1 := constantI S_ 1 1#1
  let main_v7 : IVec S_ 1 := (fun x v => Host.reduce IntOp.andi x v reducesTo_S16x1024x300_S_d0_1_2 h_S_) main_v6 main_c_1
  let main_v8 : IVec S_ 1 := andi main_v3 main_v7
  let main_v9 : FVec F S1024x300 .f32 := Host.absf main_arg2
  let main_cst_2 : FVec F S_ .f32 := constant S_ .f32 0x7F800000#32
  let main_v10 : FVec F S1024x300 .f32 := broadcastInDim S1024x300 ![] bcast_S_S1024x300 main_cst_2
  let main_v11 : IVec S1024x300 1 := cmpf .olt main_v9 main_v10
  let main_c_3 : IVec S_ 1 := constantI S_ 1 1#1
  let main_v12 : IVec S_ 1 := (fun x v => Host.reduce IntOp.andi x v reducesTo_S1024x300_S_d0_1 h_S_) main_v11 main_c_3
  let main_v13 : IVec S_ 1 := andi main_v8 main_v12
  let main_v14 : FVec F S1024x300 .f32 := Host.absf main_arg3
  let main_cst_4 : FVec F S_ .f32 := constant S_ .f32 0x7F800000#32
  let main_v15 : FVec F S1024x300 .f32 := broadcastInDim S1024x300 ![] bcast_S_S1024x300 main_cst_4
  let main_v16 : IVec S1024x300 1 := cmpf .olt main_v14 main_v15
  fn_part1 (F := F) main_arg4 main_arg5 main_v13 main_v16
-- ==== Kernel.lean ====
abbrev S16x1024x300 : Shape := ⟨3, ![16, 1024, 300]⟩
abbrev S1024x300 : Shape := ⟨2, ![1024, 300]⟩
abbrev S16x1024x1024 : Shape := ⟨3, ![16, 1024, 1024]⟩
abbrev S1x1024x300 : Shape := ⟨3, ![1, 1024, 300]⟩
abbrev S1x1024x1024 : Shape := ⟨3, ![1, 1024, 1024]⟩
abbrev S300 : Shape := ⟨1, ![300]⟩
abbrev S1x300 : Shape := ⟨2, ![1, 300]⟩
abbrev S1024 : Shape := ⟨1, ![1024]⟩
abbrev S1024x1 : Shape := ⟨2, ![1024, 1]⟩
abbrev S1024x1024 : Shape := ⟨2, ![1024, 1024]⟩
abbrev S1x1024 : Shape := ⟨2, ![1, 1024]⟩

abbrev nBuf : Space → Nat
  | .hbm => 7
  | .vmem => 10
  | .smem => 0
  | _ => 0

abbrev bufTy : (tb : Table) → Fin (tcTables nBuf tb) → BufTy
  | .hbm, ⟨0, _⟩ => ⟨S16x1024x300, .f32⟩
  | .hbm, ⟨1, _⟩ => ⟨S16x1024x300, .f32⟩
  | .hbm, ⟨2, _⟩ => ⟨S1024x300, .f32⟩
  | .hbm, ⟨3, _⟩ => ⟨S1024x300, .f32⟩
  | .hbm, ⟨4, _⟩ => ⟨S1024x300, .f32⟩
  | .hbm, ⟨5, _⟩ => ⟨S1024x300, .f32⟩
  | .hbm, ⟨6, _⟩ => ⟨S16x1024x1024, .f32⟩
  | .local _ .vmem, ⟨0, _⟩ => ⟨S1x1024x300, .f32⟩
  | .local _ .vmem, ⟨1, _⟩ => ⟨S1x1024x300, .f32⟩
  | .local _ .vmem, ⟨2, _⟩ => ⟨S1x1024x300, .f32⟩
  | .local _ .vmem, ⟨3, _⟩ => ⟨S1x1024x300, .f32⟩
  | .local _ .vmem, ⟨4, _⟩ => ⟨S1024x300, .f32⟩
  | .local _ .vmem, ⟨5, _⟩ => ⟨S1024x300, .f32⟩
  | .local _ .vmem, ⟨6, _⟩ => ⟨S1024x300, .f32⟩
  | .local _ .vmem, ⟨7, _⟩ => ⟨S1024x300, .f32⟩
  | .local _ .vmem, ⟨8, _⟩ => ⟨S1x1024x1024, .f32⟩
  | .local _ .vmem, ⟨9, _⟩ => ⟨S1x1024x1024, .f32⟩
  | _, _ => ⟨S16x1024x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c3_i32 : BitVec 32 := 3#32
  let v8 : BitVec 32 := Scalar.addi c0_i32 c3_i32
  let c1_i32 : BitVec 32 := 1#32
  ⟨c0_i32, v8, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x300 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x300 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S1024x300_S1024x300_0_0 : ∀ a, (![0, 0] : Fin 2 → Nat) a + S1024x300.size a ≤ S1024x300.size a
  h_S1024x300 : 0 < S1024x300.numel
  inb_S1x1024x300_S1x1024x300_0_0_0 : ∀ a, (![0, 0, 0] : Fin 3 → Nat) a + S1x1024x300.size a ≤ S1x1024x300.size a
  h_S1x1024x300 : 0 < S1x1024x300.numel
  shapeCasts_S1x1024x300_S1024x300 : S1x1024x300.ShapeCasts S1024x300
  reduces_S1024x300_S300 : S1024x300.Reduces [0] S300
  shapeCasts_S300_S1x300 : S300.ShapeCasts S1x300
  broadcasts_S1x300_S1024x300 : S1x300.Broadcasts S1024x300
  reduces_S1024x300_S1024 : S1024x300.Reduces [1] S1024
  shapeCasts_S1024_S1024x1 : S1024.ShapeCasts S1024x1
  bitsLt_bf16_f32 : FTy.bits .bf16 < FTy.bits .f32
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  transposes_S1024x1024_p1_0_S1024x1024 : S1024x1024.Transposes [1, 0] S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x300_S1024x300_S1024x1024_1_1_0_0_n_n_wf : DotDims.WF S1024x300 S1024x300 S1024x1024 [1] [1] [0] [0] [] []
  dot_S1024x1024_S1024x300_S1024x300_1_0_0_1_n_n_wf : DotDims.WF S1024x1024 S1024x300 S1024x300 [1] [0] [0] [1] [] []
  hrank0 : 0 < grid0.rank
  k0_t1_ok : k0_t1_loop.OK
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x300.size a ≤ S16x1024x300.size a
  hwx0_0 : ∀ i : grid0.Coords, EltTy.bits .f32 = 32 ∨ (Rect.block (s := S16x1024x300) S1x1024x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x300.size a ≤ S16x1024x300.size a
  hwx0_1 : ∀ i : grid0.Coords, EltTy.bits .f32 = 32 ∨ (Rect.block (s := S16x1024x300) S1x1024x300.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x300.size a ≤ S1024x300.size a
  hwx0_2 : ∀ i : grid0.Coords, EltTy.bits .f32 = 32 ∨ (Rect.block (s := S1024x300) S1024x300.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x300.size a ≤ S1024x300.size a
  hwx0_3 : ∀ i : grid0.Coords, EltTy.bits .f32 = 32 ∨ (Rect.block (s := S1024x300) S1024x300.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x300.size a ≤ S1024x300.size a
  hwx0_4 : ∀ i : grid0.Coords, EltTy.bits .f32 = 32 ∨ (Rect.block (s := S1024x300) S1024x300.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x300.size a ≤ S1024x300.size a
  hwx0_5 : ∀ i : grid0.Coords, EltTy.bits .f32 = 32 ∨ (Rect.block (s := S1024x300) S1024x300.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x1024.size a ≤ S16x1024x1024.size a
  hwx0_6 : ∀ i : grid0.Coords, EltTy.bits .f32 = 32 ∨ (Rect.block (s := S16x1024x1024) S1x1024x1024.size (cc0_transform_6 i) (hinb0_6 i)).WholeWords (EltTy.packing .f32)

variable [Facts₀]

def dot_S1024x300_S1024x300_S1024x1024_1_1_0_0_n_n : DotDims S1024x300 S1024x300 S1024x1024 where
  lhsContracting := [1]
  rhsContracting := [1]
  lhsNonContracting := [0]
  rhsNonContracting := [0]
  lhsBatch := []
  rhsBatch := []
  wf := dot_S1024x300_S1024x300_S1024x1024_1_1_0_0_n_n_wf
def dot_S1024x1024_S1024x300_S1024x300_1_0_0_1_n_n : DotDims S1024x1024 S1024x300 S1024x300 where
  lhsContracting := [1]
  rhsContracting := [0]
  lhsNonContracting := [0]
  rhsNonContracting := [1]
  lhsBatch := []
  rhsBatch := []
  wf := dot_S1024x1024_S1024x300_S1024x300_1_0_0_1_n_n_wf

abbrev win0_0 : Pipeline.Window sig grid0 :=
  Pipeline.Window.ofSpec (Memref.whole main_arg0) S1x1024x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x300.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x300.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x1024x300 : Shape := ⟨3, ![16, 1024, 300]⟩
abbrev S1024x300 : Shape := ⟨2, ![1024, 300]⟩
abbrev S_ : Shape := ⟨0, ![]⟩
abbrev S16x1024 : Shape := ⟨2, ![16, 1024]⟩
abbrev S16x1024x1024 : Shape := ⟨3, ![16, 1024, 1024]⟩
abbrev S16x1024x1 : Shape := ⟨3, ![16, 1024, 1]⟩
abbrev S16x1x1024 : Shape := ⟨3, ![16, 1, 1024]⟩
abbrev S1x1024x300 : Shape := ⟨3, ![1, 1024, 300]⟩

abbrev nBuf : Space → Nat
  | .hbm => 197
  | .vmem => 0
  | .smem => 0
  | _ => 0

abbrev hbmTy0_0 (i : Nat) : BufTy := match i % 128 with
  | 0 => ⟨S16x1024x300, .f32⟩
  | 1 => ⟨S16x1024x300, .f32⟩
  | 2 => ⟨S1024x300, .f32⟩
  | 3 => ⟨S1024x300, .f32⟩
  | 4 => ⟨S1024x300, .f32⟩
  | 5 => ⟨S1024x300, .f32⟩
  | 6 => ⟨S16x1024x300, .f32⟩
  | 7 => ⟨S_, .f32⟩
  | 8 => ⟨S16x1024, .f32⟩
  | 9 => ⟨S16x1024x300, .f32⟩
  | 10 => ⟨S_, .f32⟩
  | 11 => ⟨S16x1024, .f32⟩
  | 12 => ⟨S16x1024x1024, .f32⟩
  | 13 => ⟨S16x1024x1, .f32⟩
  | 14 => ⟨S16x1x1024, .f32⟩
  | 15 => ⟨S16x1024x1024, .f32⟩
  | 16 => ⟨S16x1024x1024, .f32⟩
  | 17 => ⟨S16x1024x1024, .f32⟩
  | 18 => ⟨S_, .f32⟩
  | 19 => ⟨S16x1024x1024, .f32⟩
  | 20 => ⟨S16x1024x1024, .f32⟩
  | 21 => ⟨S16x1024x1024, .f32⟩
  | 22 => ⟨S_, .f32⟩
  | 23 => ⟨S16x1024x1024, .f32⟩
  | 24 => ⟨S16x1024x1024, .f32⟩
  | 25 => ⟨S16x1024x1024, .f32⟩
  | 26 => ⟨S16x1024x1024, .f32⟩
  | 27 => ⟨S16x1024x300, .f32⟩
  | 28 => ⟨S16x1024x300, .f32⟩
  | 29 => ⟨S16x1024x300, .f32⟩
  | 30 => ⟨S16x1024x300, .f32⟩
  | 31 => ⟨S16x1024x300, .f32⟩
  | 32 => ⟨S16x1024x300, .f32⟩
  | 33 => ⟨S1x1024x300, .f32⟩
  | 34 => ⟨S16x1024x300, .f32⟩
  | 35 => ⟨S16x1024x300, .f32⟩
  | 36 => ⟨S1x1024x300, .f32⟩
  | 37 => ⟨S16x1024x300, .f32⟩
  | 38 => ⟨S16x1024x300, .f32⟩
  | 39 => ⟨S16x1024x300, .f32⟩
  | 40 => ⟨S_, .f32⟩
  | 41 => ⟨S_, .f32⟩
  | 42 => ⟨S16x1024x300, .f32⟩
  | 43 => ⟨S16x1024x300, .i1⟩
  | 44 => ⟨S_, .f32⟩
  | 45 => ⟨S16x1024x300, .f32⟩
  | 46 => ⟨S16x1024x300, .f32⟩
  | 47 => ⟨S16x1024x300, .f32⟩
  | 48 => ⟨S1x1024x300, .f32⟩
  | 49 => ⟨S16x1024x300, .f32⟩
  | 50 => ⟨S16x1024x300, .f32⟩
  | 51 => ⟨S1x1024x300, .f32⟩
  | 52 => ⟨S16x1024x300, .f32⟩
  | 53 => ⟨S16x1024x300, .f32⟩
  | 54 => ⟨S16x1024x300, .f32⟩
  | 55 => ⟨S_, .f32⟩
  | 56 => ⟨S_, .f32⟩
  | 57 => ⟨S16x1024x300, .f32⟩
  | 58 => ⟨S16x1024x300, .i1⟩
  | 59 => ⟨S_, .f32⟩
  | 60 => ⟨S16x1024x300, .f32⟩
  | 61 => ⟨S16x1024x300, .f32⟩
  | 62 => ⟨S16x1024x300, .f32⟩
  | 63 => ⟨S16x1024x300, .f32⟩
  | 64 => ⟨S_, .f32⟩
  | 65 => ⟨S16x1024, .f32⟩
  | 66 => ⟨S16x1024x300, .f32⟩
  | 67 => ⟨S_, .f32⟩
  | 68 => ⟨S16x1024, .f32⟩
  | 69 => ⟨S16x1024x1024, .f32⟩
  | 70 => ⟨S16x1024x1, .f32⟩
  | 71 => ⟨S16x1x1024, .f32⟩
  | 72 => ⟨S16x1024x1024, .f32⟩
  | 73 => ⟨S16x1024x1024, .f32⟩
  | 74 => ⟨S16x1024x1024, .f32⟩
  | 75 => ⟨S_, .f32⟩
  | 76 => ⟨S16x1024x1024, .f32⟩
  | 77 => ⟨S16x1024x1024, .f32⟩
  | 78 => ⟨S16x1024x1024, .f32⟩
  | 79 => ⟨S_, .f32⟩
  | 80 => ⟨S16x1024x1024, .f32⟩
  | 81 => ⟨S16x1024x1024, .f32⟩
  | 82 => ⟨S16x1024x1024, .f32⟩
  | 83 => ⟨S16x1024x1024, .f32⟩
  | 84 => ⟨S16x1024x300, .f32⟩
  | 85 => ⟨S16x1024x300, .f32⟩
  | 86 => ⟨S16x1024x300, .f32⟩
  | 87 => ⟨S16x1024x300, .f32⟩
  | 88 => ⟨S16x1024x300, .f32⟩
  | 89 => ⟨S16x1024x300, .f32⟩
  | 90 => ⟨S1x1024x300, .f32⟩
  | 91 => ⟨S16x1024x300, .f32⟩
  | 92 => ⟨S16x1024x300, .f32⟩
  | 93 => ⟨S1x1024x300, .f32⟩
  | 94 => ⟨S16x1024x300, .f32⟩
  | 95 => ⟨S16x1024x300, .f32⟩
  | 96 => ⟨S16x1024x300, .f32⟩
  | 97 => ⟨S_, .f32⟩
  | 98 => ⟨S_, .f32⟩
  | 99 => ⟨S16x1024x300, .f32⟩
  | 100 => ⟨S16x1024x300, .i1⟩
  | 101 => ⟨S_, .f32⟩
  | 102 => ⟨S16x1024x300, .f32⟩
  | 103 => ⟨S16x1024x300, .f32⟩
  | 104 => ⟨S16x1024x300, .f32⟩
  | 105 => ⟨S1x1024x300, .f32⟩
  | 106 => ⟨S16x1024x300, .f32⟩
  | 107 => ⟨S16x1024x300, .f32⟩
  | 108 => ⟨S1x1024x300, .f32⟩
  | 109 => ⟨S16x1024x300, .f32⟩
  | 110 => ⟨S16x1024x300, .f32⟩
  | 111 => ⟨S16x1024x300, .f32⟩
  | 112 => ⟨S_, .f32⟩
  | 113 => ⟨S_, .f32⟩
  | 114 => ⟨S16x1024x300, .f32⟩
  | 115 => ⟨S16x1024x300, .i1⟩
  | 116 => ⟨S_, .f32⟩
  | 117 => ⟨S16x1024x300, .f32⟩
  | 118 => ⟨S16x1024x300, .f32⟩
  | 119 => ⟨S16x1024x300, .f32⟩
  | 120 => ⟨S16x1024x300, .f32⟩
  | 121 => ⟨S_, .f32⟩
  | 122 => ⟨S16x1024, .f32⟩
  | 123 => ⟨S16x1024x300, .f32⟩
  | 124 => ⟨S_, .f32⟩
  | 125 => ⟨S16x1024, .f32⟩
  | 126 => ⟨S16x1024x1024, .f32⟩
  | 127 => ⟨S16x1024x1, .f32⟩
  | _ => ⟨S16x1024x300, .f32⟩

abbrev hbmTy0_1 (i : Nat) : BufTy := match i % 128 with
  | 0 => ⟨S16x1x1024, .f32⟩
  | 1 => ⟨S16x1024x1024, .f32⟩
  | 2 => ⟨S16x1024x1024, .f32⟩
  | 3 => ⟨S16x1024x1024, .f32⟩
  | 4 => ⟨S_, .f32⟩
  | 5 => ⟨S16x1024x1024, .f32⟩
  | 6 => ⟨S16x1024x1024, .f32⟩
  | 7 => ⟨S16x1024x1024, .f32⟩
  | 8 => ⟨S_, .f32⟩
  | 9 => ⟨S16x1024x1024, .f32⟩
  | 10 => ⟨S16x1024x1024, .f32⟩
  | 11 => ⟨S16x1024x1024, .f32⟩
  | 12 => ⟨S16x1024x1024, .f32⟩
  | 13 => ⟨S16x1024x300, .f32⟩
  | 14 => ⟨S16x1024x300, .f32⟩
  | 15 => ⟨S16x1024x300, .f32⟩
  | 16 => ⟨S16x1024x300, .f32⟩
  | 17 => ⟨S16x1024x300, .f32⟩
  | 18 => ⟨S16x1024x300, .f32⟩
  | 19 => ⟨S1x1024x300, .f32⟩
  | 20 => ⟨S16x1024x300, .f32⟩
  | 21 => ⟨S16x1024x300, .f32⟩
  | 22 => ⟨S1x1024x300, .f32⟩
  | 23 => ⟨S16x1024x300, .f32⟩
  | 24 => ⟨S16x1024x300, .f32⟩
  | 25 => ⟨S16x1024x300, .f32⟩
  | 26 => ⟨S_, .f32⟩
  | 27 => ⟨S_, .f32⟩
  | 28 => ⟨S16x1024x300, .f32⟩
  | 29 => ⟨S16x1024x300, .i1⟩
  | 30 => ⟨S_, .f32⟩
  | 31 => ⟨S16x1024x300, .f32⟩
  | 32 => ⟨S16x1024x300, .f32⟩
  | 33 => ⟨S16x1024x300, .f32⟩
  | 34 => ⟨S1x1024x300, .f32⟩
  | 35 => ⟨S16x1024x300, .f32⟩
  | 36 => ⟨S16x1024x300, .f32⟩
  | 37 => ⟨S1x1024x300, .f32⟩
  | 38 => ⟨S16x1024x300, .f32⟩
  | 39 => ⟨S16x1024x300, .f32⟩
  | 40 => ⟨S16x1024x300, .f32⟩
  | 41 => ⟨S_, .f32⟩
  | 42 => ⟨S_, .f32⟩
  | 43 => ⟨S16x1024x300, .f32⟩
  | 44 => ⟨S16x1024x300, .i1⟩
  | 45 => ⟨S_, .f32⟩
  | 46 => ⟨S16x1024x300, .f32⟩
  | 47 => ⟨S16x1024x300, .f32⟩
  | 48 => ⟨S16x1024x300, .f32⟩
  | 49 => ⟨S16x1024x300, .f32⟩
  | 50 => ⟨S_, .f32⟩
  | 51 => ⟨S16x1024, .f32⟩
  | 52 => ⟨S16x1024x300, .f32⟩
  | 53 => ⟨S_, .f32⟩
  | 54 => ⟨S16x1024, .f32⟩
  | 55 => ⟨S16x1024x1024, .f32⟩
  | 56 => ⟨S16x1024x1, .f32⟩
  | 57 => ⟨S16x1x1024, .f32⟩
  | 58 => ⟨S16x1024x1024, .f32⟩
  | 59 => ⟨S16x1024x1024, .f32⟩
  | 60 => ⟨S16x1024x1024, .f32⟩
  | 61 => ⟨S_, .f32⟩
  | 62 => ⟨S16x1024x1024, .f32⟩
  | 63 => ⟨S16x1024x1024, .f32⟩
  | 64 => ⟨S16x1024x1024, .f32⟩
  | 65 => ⟨S_, .f32⟩
  | 66 => ⟨S16x1024x1024, .f32⟩
  | 67 => ⟨S16x1024x1024, .f32⟩
  | 68 => ⟨S16x1024x1024, .f32⟩
  | _ => ⟨S16x1024x300, .f32⟩

abbrev hbmTy (i : Nat) : BufTy := match i / 128 with
  | 0 => hbmTy0_0 i
  | 1 => hbmTy0_1 i
  | _ => ⟨S16x1024x300, .f32⟩

abbrev bufTy : (tb : Table) → Fin (tcTables nBuf tb) → BufTy
  | .hbm, ⟨i, _⟩ => hbmTy i
  | _, _ => ⟨S16x1024x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_call1_cst : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v38 : Ref sig .tc := ⟨.hbm, 62, rfl⟩
abbrev main_v39 : Ref sig .tc := ⟨.hbm, 63, rfl⟩
abbrev main_cst_5 : Ref sig .tc := ⟨.hbm, 64, rfl⟩
abbrev main_v40 : Ref sig .tc := ⟨.hbm, 65, rfl⟩
abbrev main_v41 : Ref sig .tc := ⟨.hbm, 66, rfl⟩
abbrev main_cst_6 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_8 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_9 : Ref sig .tc := ⟨.hbm, 97, rfl⟩
abbrev main_call2_cst : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_10 : Ref sig .tc := ⟨.hbm, 112, rfl⟩
abbrev main_call3_cst : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_v77 : Ref sig .tc := ⟨.hbm, 119, rfl⟩
abbrev main_v78 : Ref sig .tc := ⟨.hbm, 120, rfl⟩
abbrev main_cst_11 : Ref sig .tc := ⟨.hbm, 121, rfl⟩
abbrev main_v79 : Ref sig .tc := ⟨.hbm, 122, rfl⟩
abbrev main_v80 : Ref sig .tc := ⟨.hbm, 123, rfl⟩
abbrev main_cst_12 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_cst_13 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_cst_14 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_15 : Ref sig .tc := ⟨.hbm, 154, rfl⟩
abbrev main_call4_cst : Ref sig .tc := ⟨.hbm, 155, rfl⟩
abbrev main_call4_v0 : Ref sig .tc := ⟨.hbm, 156, rfl⟩
abbrev main_call4_v1 : Ref sig .tc := ⟨.hbm, 157, rfl⟩
abbrev main_call4_v2 : Ref sig .tc := ⟨.hbm, 158, rfl⟩
abbrev main_call4_v3 : Ref sig .tc := ⟨.hbm, 159, rfl⟩
abbrev main_call4_v4 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_cst_16 : Ref sig .tc := ⟨.hbm, 169, rfl⟩
abbrev main_call5_cst : Ref sig .tc := ⟨.hbm, 170, rfl⟩
abbrev main_call5_v0 : Ref sig .tc := ⟨.hbm, 171, rfl⟩
abbrev main_call5_v1 : Ref sig .tc := ⟨.hbm, 172, rfl⟩
abbrev main_call5_v2 : Ref sig .tc := ⟨.hbm, 173, rfl⟩
abbrev main_call5_v3 : Ref sig .tc := ⟨.hbm, 174, rfl⟩
abbrev main_call5_v4 : Ref sig .tc := ⟨.hbm, 175, rfl⟩
abbrev main_v116 : Ref sig .tc := ⟨.hbm, 176, rfl⟩
abbrev main_v117 : Ref sig .tc := ⟨.hbm, 177, rfl⟩
abbrev main_cst_17 : Ref sig .tc := ⟨.hbm, 178, rfl⟩
abbrev main_v118 : Ref sig .tc := ⟨.hbm, 179, rfl⟩
abbrev main_v119 : Ref sig .tc := ⟨.hbm, 180, rfl⟩
abbrev main_cst_18 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_cst_19 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_cst_20 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩

abbrev nD : Nat := 1
abbrev τ : Topo := Topo.v7x

variable {F : FTy → Type} [FloatOps F]

class Facts₀ : Prop where
  reducesTo_S16x1024x300_S16x1024_d2 : S16x1024x300.ReducesTo [2] S16x1024
  h_S_ : 0 < S_.numel
  bcast_S16x1024_S16x1024x1_0_1 : S16x1024.BroadcastsInDim S16x1024x1 (![0, 1] : Fin 2 → Fin S16x1024x1.rank)
  bcast_S16x1024_S16x1x1024_0_2 : S16x1024.BroadcastsInDim S16x1x1024 (![0, 2] : Fin 2 → Fin S16x1x1024.rank)
  bcast_S16x1024x1_S16x1024x1024_0_1_2 : S16x1024x1.BroadcastsInDim S16x1024x1024 (![0, 1, 2] : Fin 3 → Fin S16x1024x1024.rank)
  bcast_S16x1x1024_S16x1024x1024_0_1_2 : S16x1x1024.BroadcastsInDim S16x1024x1024 (![0, 1, 2] : Fin 3 → Fin S16x1024x1024.rank)
  bcast_S_S16x1024x1024 : S_.BroadcastsInDim S16x1024x1024 (![] : Fin 0 → Fin S16x1024x1024.rank)
  transposes_S16x1024x1024_S16x1024x1024_0_2_1 : S16x1024x1024.Transposes [0, 2, 1] S16x1024x1024
  bcast_S1024x300_S1x1024x300_1_2 : S1024x300.BroadcastsInDim S1x1024x300 (![1, 2] : Fin 2 → Fin S1x1024x300.rank)
  bcast_S1x1024x300_S16x1024x300_0_1_2 : S1x1024x300.BroadcastsInDim S16x1024x300 (![0, 1, 2] : Fin 3 → Fin S16x1024x300.rank)
  bcast_S_S16x1024x300 : S_.BroadcastsInDim S16x1024x300 (![] : Fin 0 → Fin S16x1024x300.rank)
  dot_S16x1024x300_S16x1024x300_S16x1024x1024_2_2_1_1_0_0_wf : DotDims.WF S16x1024x300 S16x1024x300 S16x1024x1024 [2] [2] [1] [1] [0] [0]
  dot_S16x1024x1024_S16x1024x300_S16x1024x300_2_1_1_2_0_0_wf : DotDims.WF S16x1024x1024 S16x1024x300 S16x1024x300 [2] [1] [1] [2] [0] [0]

variable [Facts₀]

def dot_S16x1024x300_S16x1024x300_S16x1024x1024_2_2_1_1_0_0 : DotDims S16x1024x300 S16x1024x300 S16x1024x1024 where
  lhsContracting := [2]
  rhsContracting := [2]
  lhsNonContracting := [1]
  rhsNonContracting := [1]
  lhsBatch := [0]
  rhsBatch := [0]
  wf := dot_S16x1024x300_S16x1024x300_S16x1024x1024_2_2_1_1_0_0_wf
def dot_S16x1024x1024_S16x1024x300_S16x1024x300_2_1_1_2_0_0 : DotDims S16x1024x1024 S16x1024x300 S16x1024x300 where
  lhsContracting := [2]
  rhsContracting := [1]
  lhsNonContracting := [1]
  rhsNonContracting := [2]
  lhsBatch := [0]
  rhsBatch := [0]
  wf := dot_S16x1024x1024_S16x1024x300_S16x1024x300_2_1_1_2_0_0_wf

class Facts : Prop extends Facts₀ where

variable [Facts]
-- ==== Proof.KBody.lean ====
/-
  The kernel body of `Kernel` without its loop.

  One trip of the body's loop touches no memory: from the carried pair (h, d) it computes the next pair as a
  function `trip` of (h, d) and of the four weight blocks, the same function at every trip.  A counted loop whose
  region only computes is the fold of that function over its trips, so the whole body is: read the six input
  blocks, read the output buffer (unused), write `outBlock` — the final distance stage applied to the fold —
  to the whole output buffer.  `body_eq` states that the printed body is that loop-free program.
-/
import proofs.«103367_j33517924778635_2_alg».proof.Proof.Gen.Kernel.Skeleton
import Idealize.ShloMosaic.Lib.Exec

noncomputable section

namespace Cert.Proof.K

open Cert.Kernel Cert.Kernel.Gen
open Idealize.ShloMosaic Idealize.SL.Sem

variable {F : FTy → Type} [FloatOps F]

/-- One trip: the carried pair (h, d) to the next pair, given the weight blocks W1, W2, B1, B2 (in the order
    the body loads them: `v0 v1 v2 v3`). -/
def trip (v0 v1 v2 v3 : Vec F S1024x300 .f32) :
    Fin k0_t1_loop.trips → FVec F S1024x300 .f32 × FVec F S1024x300 .f32 → FVec F S1024x300 .f32 × FVec F S1024x300 .f32 :=
  fun _ p => (k0_pay10 v2 p.1 (k0_pay7 v0 p.1 p.2), k0_pay11 v1 v3 p.2 (k0_pay6 p.1 p.2))

/-- The pair after all trips, from the two embedding blocks. -/
def carried (v0 v1 v2 v3 : Vec F S1024x300 .f32) (v4 v6 : Vec F S1x1024x300 .f32) :
    FVec F S1024x300 .f32 × FVec F S1024x300 .f32 :=
  Scf.fold (trip v0 v1 v2 v3) (k0_pay8 v4, k0_pay9 v6)

/-- What the body writes to the output block: the distance stage of the pair after all trips. -/
def outBlock (v0 v1 v2 v3 : Vec F S1024x300 .f32) (v4 v6 : Vec F S1x1024x300 .f32) : FVec F S1x1024x1024 .f32 :=
  k0_pay1 (k0_pay15 (carried v0 v1 v2 v3 v4 v6).1 (carried v0 v1 v2 v3 v4 v6).2)
    (k0_pay16 (carried v0 v1 v2 v3 v4 v6).1 (carried v0 v1 v2 v3 v4 v6).2)
    (k0_pay17 (carried v0 v1 v2 v3 v4 v6).1 (carried v0 v1 v2 v3 v4 v6).2)

section
variable [Facts]

/-- The loop, bound into any continuation, is the continuation at the fold of `trip`. -/
theorem loop_eq (i : grid0.Coords) (arg1 : Memref sig .tc .vmem S1x1024x300 .f32) (harg1 : arg1.IsWhole) (arg2 : Memref sig .tc .vmem S1x1024x300 .f32) (harg2 : arg2.IsWhole) (arg3 : Memref sig .tc .vmem S1024x300 .f32) (harg3 : arg3.IsWhole) (arg4 : Memref sig .tc .vmem S1024x300 .f32) (harg4 : arg4.IsWhole) (arg5 : Memref sig .tc .vmem S1024x300 .f32) (harg5 : arg5.IsWhole) (arg6 : Memref sig .tc .vmem S1024x300 .f32) (harg6 : arg6.IsWhole) (arg7 : Memref sig .tc .vmem S1x1024x1024 .f32) (harg7 : arg7.IsWhole)
    (v0 v1 v2 v3 : Vec F S1024x300 .f32) (init : FVec F S1024x300 .f32 × FVec F S1024x300 .f32) {β : Type}
    (k : FVec F S1024x300 .f32 × FVec F S1024x300 .f32 → Prog (TpuEff nD τ sig (Elt F) Λ₀ .tc) β) :
    (Scf.Loop.for k0_t1_loop k0_t1_ok init (k0_t1_body (F := F) i arg1 harg1 arg2 harg2 arg3 harg3 arg4 harg4 arg5 harg5 arg6 harg6 arg7 harg7 v0 v1 v2 v3) >>= k)
      = k (Scf.fold (trip v0 v1 v2 v3) init) :=
  Scf.for_pure_bind _ _ _ _ _ _ (trip v0 v1 v2 v3) (fun _ p => by obtain ⟨a, b⟩ := p; rfl) k

/-- The body's first part without the loop: six loads, then the three values the distance stage reads. -/
noncomputable def part2Flat (i : grid0.Coords) (arg1 : Memref sig .tc .vmem S1x1024x300 .f32) (harg1 : arg1.IsWhole) (arg2 : Memref sig .tc .vmem S1x1024x300 .f32) (harg2 : arg2.IsWhole) (arg3 : Memref sig .tc .vmem S1024x300 .f32) (harg3 : arg3.IsWhole) (arg4 : Memref sig .tc .vmem S1024x300 .f32) (harg4 : arg4.IsWhole) (arg5 : Memref sig .tc .vmem S1024x300 .f32) (harg5 : arg5.IsWhole) (arg6 : Memref sig .tc .vmem S1024x300 .f32) (harg6 : arg6.IsWhole) (arg7 : Memref sig .tc .vmem S1x1024x1024 .f32) (harg7 : arg7.IsWhole) :
    Prog (TpuEff nD τ sig (Elt F) Λ₀ .tc) (Σ' (v27 : FVec F S1024x1 .f32) (v30 : FVec F S1024x1 .f32), FVec F S1024x1024 .f32) := do
  let v0 : Vec F S1024x300 .f32 ← Prog.lift (.load arg3 (Rect.unit (s := S1024x300) ![0, 0] S1024x300.size inb_S1024x300_S1024x300_0_0).toLoadRect (View.loadsAt_vmem h_S1024x300))
  let v1 : Vec F S1024x300 .f32 ← Prog.lift (.load arg4 (Rect.unit (s := S1024x300) ![0, 0] S1024x300.size inb_S1024x300_S1024x300_0_0).toLoadRect (View.loadsAt_vmem h_S1024x300))
  let v2 : Vec F S1024x300 .f32 ← Prog.lift (.load arg5 (Rect.unit (s := S1024x300) ![0, 0] S1024x300.size inb_S1024x300_S1024x300_0_0).toLoadRect (View.loadsAt_vmem h_S1024x300))
  let v3 : Vec F S1024x300 .f32 ← Prog.lift (.load arg6 (Rect.unit (s := S1024x300) ![0, 0] S1024x300.size inb_S1024x300_S1024x300_0_0).toLoadRect (View.loadsAt_vmem h_S1024x300))
  let v4 : Vec F S1x1024x300 .f32 ← Prog.lift (.load arg1 (Rect.unit (s := S1x1024x300) ![0, 0, 0] S1x1024x300.size inb_S1x1024x300_S1x1024x300_0_0_0).toLoadRect (View.loadsAt_vmem h_S1x1024x300))
  let v6 : Vec F S1x1024x300 .f32 ← Prog.lift (.load arg2 (Rect.unit (s := S1x1024x300) ![0, 0, 0] S1x1024x300.size inb_S1x1024x300_S1x1024x300_0_0_0).toLoadRect (View.loadsAt_vmem h_S1x1024x300))
  pure ⟨k0_pay15 (carried v0 v1 v2 v3 v4 v6).1 (carried v0 v1 v2 v3 v4 v6).2,
    k0_pay16 (carried v0 v1 v2 v3 v4 v6).1 (carried v0 v1 v2 v3 v4 v6).2,
    k0_pay17 (carried v0 v1 v2 v3 v4 v6).1 (carried v0 v1 v2 v3 v4 v6).2⟩

set_option maxRecDepth 65536 in
theorem part2_eq (i : grid0.Coords) (arg1 : Memref sig .tc .vmem S1x1024x300 .f32) (harg1 : arg1.IsWhole) (arg2 : Memref sig .tc .vmem S1x1024x300 .f32) (harg2 : arg2.IsWhole) (arg3 : Memref sig .tc .vmem S1024x300 .f32) (harg3 : arg3.IsWhole) (arg4 : Memref sig .tc .vmem S1024x300 .f32) (harg4 : arg4.IsWhole) (arg5 : Memref sig .tc .vmem S1024x300 .f32) (harg5 : arg5.IsWhole) (arg6 : Memref sig .tc .vmem S1024x300 .f32) (harg6 : arg6.IsWhole) (arg7 : Memref sig .tc .vmem S1x1024x1024 .f32) (harg7 : arg7.IsWhole) :
    k0_part2 (F := F) i arg1 harg1 arg2 harg2 arg3 harg3 arg4 harg4 arg5 harg5 arg6 harg6 arg7 harg7
      = part2Flat i arg1 harg1 arg2 harg2 arg3 harg3 arg4 harg4 arg5 harg5 arg6 harg6 arg7 harg7 := by
  rw [k0_part2_eq_skeleton]
  unfold k0_part2_skel part2Flat carried
  simp only [loop_eq]

/-- The loop-free body: six loads, the (unused) load of the output buffer, one store of `outBlock`. -/
noncomputable def flatBody (i : grid0.Coords) (arg1 : Memref sig .tc .vmem S1x1024x300 .f32) (harg1 : arg1.IsWhole) (arg2 : Memref sig .tc .vmem S1x1024x300 .f32) (harg2 : arg2.IsWhole) (arg3 : Memref sig .tc .vmem S1024x300 .f32) (harg3 : arg3.IsWhole) (arg4 : Memref sig .tc .vmem S1024x300 .f32) (harg4 : arg4.IsWhole) (arg5 : Memref sig .tc .vmem S1024x300 .f32) (harg5 : arg5.IsWhole) (arg6 : Memref sig .tc .vmem S1024x300 .f32) (harg6 : arg6.IsWhole) (arg7 : Memref sig .tc .vmem S1x1024x1024 .f32) (harg7 : arg7.IsWhole) :
    Prog (TpuEff nD τ sig (Elt F) Λ₀ .tc) PUnit := do
  let v0 : Vec F S1024x300 .f32 ← Prog.lift (.load arg3 (Rect.unit (s := S1024x300) ![0, 0] S1024x300.size inb_S1024x300_S1024x300_0_0).toLoadRect (View.loadsAt_vmem h_S1024x300))
  let v1 : Vec F S1024x300 .f32 ← Prog.lift (.load arg4 (Rect.unit (s := S1024x300) ![0, 0] S1024x300.size inb_S1024x300_S1024x300_0_0).toLoadRect (View.loadsAt_vmem h_S1024x300))
  let v2 : Vec F S1024x300 .f32 ← Prog.lift (.load arg5 (Rect.unit (s := S1024x300) ![0, 0] S1024x300.size inb_S1024x300_S1024x300_0_0).toLoadRect (View.loadsAt_vmem h_S1024x300))
  let v3 : Vec F S1024x300 .f32 ← Prog.lift (.load arg6 (Rect.unit (s := S1024x300) ![0, 0] S1024x300.size inb_S1024x300_S1024x300_0_0).toLoadRect (View.loadsAt_vmem h_S1024x300))
  let v4 : Vec F S1x1024x300 .f32 ← Prog.lift (.load arg1 (Rect.unit (s := S1x1024x300) ![0, 0, 0] S1x1024x300.size inb_S1x1024x300_S1x1024x300_0_0_0).toLoadRect (View.loadsAt_vmem h_S1x1024x300))
  let v6 : Vec F S1x1024x300 .f32 ← Prog.lift (.load arg2 (Rect.unit (s := S1x1024x300) ![0, 0, 0] S1x1024x300.size inb_S1x1024x300_S1x1024x300_0_0_0).toLoadRect (View.loadsAt_vmem h_S1x1024x300))
  let v44 : Vec F S1x1024x1024 .f32 ← Prog.lift (.load arg7 (Rect.unit (s := S1x1024x1024) ![0, 0, 0] S1x1024x1024.size inb_S1x1024x1024_S1x1024x1024_0_0_0).toLoadRect (View.loadsAt_vmem h_S1x1024x1024))
  Prog.lift (.store arg7 (Rect.unit (s := S1x1024x1024) ![0, 0, 0] S1x1024x1024.size inb_S1x1024x1024_S1x1024x1024_0_0_0) (outBlock v0 v1 v2 v3 v4 v6) Finset.univ (View.stores_vmem_bits_univ h_S1x1024x1024 rfl) (.inl rfl))
  pure ⟨⟩

set_option maxRecDepth 65536 in
/-- The printed body is the loop-free body. -/
theorem body_eq (i : grid0.Coords) (arg1 : Memref sig .tc .vmem S1x1024x300 .f32) (harg1 : arg1.IsWhole) (arg2 : Memref sig .tc .vmem S1x1024x300 .f32) (harg2 : arg2.IsWhole) (arg3 : Memref sig .tc .vmem S1024x300 .f32) (harg3 : arg3.IsWhole) (arg4 : Memref sig .tc .vmem S1024x300 .f32) (harg4 : arg4.IsWhole) (arg5 : Memref sig .tc .vmem S1024x300 .f32) (harg5 : arg5.IsWhole) (arg6 : Memref sig .tc .vmem S1024x300 .f32) (harg6 : arg6.IsWhole) (arg7 : Memref sig .tc .vmem S1x1024x1024 .f32) (harg7 : arg7.IsWhole) :
    cc0__gnn_kernel (F := F) i arg1 harg1 arg2 harg2 arg3 harg3 arg4 harg4 arg5 harg5 arg6 harg6 arg7 harg7
      = flatBody i arg1 harg1 arg2 harg2 arg3 harg3 arg4 harg4 arg5 harg5 arg6 harg6 arg7 harg7 := by
  rw [cc0__gnn_kernel_eq_skeleton]
  unfold cc0__gnn_kernel_skel
  rw [part2_eq]
  rfl

end

end Cert.Proof.K

end
-- ==== Proof.KFrame.lean ====
/-
  The frame of `Kernel`: every weakly fair execution of @main terminates, faults nowhere, and leaves
  the six argument arrays as they were.

  At one grid point the body reads six blocks — the point's slab of each embedding array and the four whole
  weight matrices —, computes, and overwrites the point's whole output block with one value of those blocks
  (`bodyRun`).  So each input window's buffer still holds its block after the body and the output window's
  buffer holds that value (`outsAt`); no buffer carries anything from one point to the next.  The same
  holds at each of the sixteen points, which gives the run of the whole grid.
-/
import proofs.«103367_j33517924778635_2_alg».proof.Proof.Gen.Kernel.Frame
import proofs.«103367_j33517924778635_2_alg».proof.Proof.Gen.Kernel.Skeleton
import proofs.«103367_j33517924778635_2_alg».proof.Proof.KBody
import Idealize.ShloMosaic.Lib.Tactic

noncomputable section

namespace Cert.Proof.K

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

abbrev 𝒱₀ : Variants := Variants.none

variable (m : (ℓ : Loc nD τ sig) → Buf (Elt F) ℓ) (ρ : Dev nD → PrngReg)

/-! ## One grid point -/

/-- On whole buffers holding the blocks `x1 … x6` (and the output buffer holding anything) the body runs, keeps
    the six, and leaves the output buffer at one value `Y` determined by the six blocks. -/
noncomputable def bodyRun (c : Dev nD) (i : grid0.Coords)
    (M1 : Memref sig .tc .vmem S1x1024x300 .f32) (h1 : M1.IsWhole) (M2 : Memref sig .tc .vmem S1x1024x300 .f32) (h2 : M2.IsWhole)
    (M3 : Memref sig .tc .vmem S1024x300 .f32) (h3 : M3.IsWhole) (M4 : Memref sig .tc .vmem S1024x300 .f32) (h4 : M4.IsWhole)
    (M5 : Memref sig .tc .vmem S1024x300 .f32) (h5 : M5.IsWhole) (M6 : Memref sig .tc .vmem S1024x300 .f32) (h6 : M6.IsWhole)
    (M7 : Memref sig .tc .vmem S1x1024x1024 .f32) (h7 : M7.IsWhole)
    (x1 x2 : Vec F S1x1024x300 .f32) (x3 x4 x5 x6 : Vec F S1024x300 .f32) :
    { Y : Vec F S1x1024x1024 .f32 //
      ∀ (E : Set ℕ) (K : PUnit → sProp 𝕄),
        iprop(owns (c : Thread nD τ) M1 fullShare x1 ∗ owns (c : Thread nD τ) M2 fullShare x2
            ∗ owns (c : Thread nD τ) M3 fullShare x3 ∗ owns (c : Thread nD τ) M4 fullShare x4
            ∗ owns (c : Thread nD τ) M5 fullShare x5 ∗ owns (c : Thread nD τ) M6 fullShare x6
            ∗ (∃ d, owns (c : Thread nD τ) M7 fullShare d)
            ∗ (iprop(owns (c : Thread nD τ) M1 fullShare x1 ∗ owns (c : Thread nD τ) M2 fullShare x2
                ∗ owns (c : Thread nD τ) M3 fullShare x3 ∗ owns (c : Thread nD τ) M4 fullShare x4
                ∗ owns (c : Thread nD τ) M5 fullShare x5 ∗ owns (c : Thread nD τ) M6 fullShare x6
                ∗ owns (c : Thread nD τ) M7 fullShare Y) -∗ K ⟨⟩))
          ⊢ wp frame (wpE (defs₀ (F := F)) 𝒱₀ c none) E (cc0__gnn_kernel i M1 h1 M2 h2 M3 h3 M4 h4 M5 h5 M6 h6 M7 h7) K } := by
  refine ⟨?_, fun E K => ?run⟩
  case run =>
    refine exec_prog_eq _ _ _ _ _ _ (body_eq i M1 h1 M2 h2 M3 h3 M4 h4 M5 h5 M6 h6 M7 h7) ?_
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := h1.eq_unread hf1; obtain rfl := h2.eq_unread hf2; obtain rfl := h3.eq_unread hf3
    obtain rfl := h4.eq_unread hf4; obtain rfl := h5.eq_unread hf5; obtain rfl := h6.eq_unread hf6
    sl_unfold [flatBody]
    sl_exec!
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; isplitr; swap; · iexact H7
    ipureintro; rfl

/-! ## The buffers the pipeline hands the body at point `t` -/

abbrev ms1 (t : Fin cfg0.N) : Memref sig .tc .vmem S1x1024x300 .f32 := win0_0.stage (cfg0.slots t 0)
abbrev hs1 (t : Fin cfg0.N) : (ms1 t).IsWhole := hstage0_0 ((cfg0.slots t 0).cast nbuf0_0)
abbrev ms2 (t : Fin cfg0.N) : Memref sig .tc .vmem S1x1024x300 .f32 := win0_1.stage (cfg0.slots t 1)
abbrev hs2 (t : Fin cfg0.N) : (ms2 t).IsWhole := hstage0_1 ((cfg0.slots t 1).cast nbuf0_1)
abbrev ms3 (t : Fin cfg0.N) : Memref sig .tc .vmem S1024x300 .f32 := win0_2.stage (cfg0.slots t 2)
abbrev hs3 (t : Fin cfg0.N) : (ms3 t).IsWhole := hstage0_2 ((cfg0.slots t 2).cast nbuf0_2)
abbrev ms4 (t : Fin cfg0.N) : Memref sig .tc .vmem S1024x300 .f32 := win0_3.stage (cfg0.slots t 3)
abbrev hs4 (t : Fin cfg0.N) : (ms4 t).IsWhole := hstage0_3 ((cfg0.slots t 3).cast nbuf0_3)
abbrev ms5 (t : Fin cfg0.N) : Memref sig .tc .vmem S1024x300 .f32 := win0_4.stage (cfg0.slots t 4)
abbrev hs5 (t : Fin cfg0.N) : (ms5 t).IsWhole := hstage0_4 ((cfg0.slots t 4).cast nbuf0_4)
abbrev ms6 (t : Fin cfg0.N) : Memref sig .tc .vmem S1024x300 .f32 := win0_5.stage (cfg0.slots t 5)
abbrev hs6 (t : Fin cfg0.N) : (ms6 t).IsWhole := hstage0_5 ((cfg0.slots t 5).cast nbuf0_5)
abbrev ms7 (t : Fin cfg0.N) : Memref sig .tc .vmem S1x1024x1024 .f32 := win0_6.stage (cfg0.slots t 6)
abbrev hs7 (t : Fin cfg0.N) : (ms7 t).IsWhole := hstage0_6 ((cfg0.slots t 6).cast nbuf0_6)

/-- What point `t` leaves in the output window's buffer: the body's value at the point's six blocks. -/
def outsAt (c : Dev nD) (t : Fin cfg0.N) : Vec F S1x1024x1024 .f32 :=
  (bodyRun c (grid0.coords t) (ms1 t) (hs1 t) (ms2 t) (hs2 t) (ms3 t) (hs3 t) (ms4 t) (hs4 t) (ms5 t) (hs5 t) (ms6 t) (hs6 t)
    (ms7 t) (hs7 t) (iblk m c 0 t) (iblk m c 1 t) (iblk m c 2 t) (iblk m c 3 t) (iblk m c 4 t) (iblk m c 5 t)).1

/-! ## The proof data -/

/-- The arrays as launched; after the body an input window's buffer holds its block, the output window's
    holds `outsAt`; nothing else is held between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outsAt m c t := by dsimp only [dats]

/-- When the body runs, each input window's buffer holds the window's block at the point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## Every point -/

/-- At every point the body takes the buffers from what they hold before it to what the proof data says they
    hold after it; the invariant and the (empty) debt are not touched. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  unfold outsAt
  iintro ⟨HΦ, Ho, ⟨%d1, H1⟩, ⟨%d2, H2⟩, ⟨%d3, H3⟩, ⟨%d4, H4⟩, ⟨%d5, H5⟩, ⟨%d6, H6⟩, ⟨%d7, H7⟩⟩
  iapply ((bodyRun c _ _ _ _ _ _ _ _ _ _ _ _ _ _ _ (iblk m c 0 t) (iblk m c 1 t) (iblk m c 2 t) (iblk m c 3 t) (iblk m c 4 t) (iblk m c 5 t)).2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H1, H2, H3, H4, H5, H6, H7⟩
  isplitl [HΦ]; · iexact HΦ
  isplitl [Ho]; · iexact Ho
  isplitl [H1]; · iexact H1
  isplitl [H2]; · iexact H2
  isplitl [H3]; · iexact H3
  isplitl [H4]; · iexact H4
  isplitl [H5]; · iexact H5
  isplitl [H6]; · iexact H6
  iexact H7

/-! ## The whole grid -/

set_option backward.isDefEq.respectTransparency.types false in
/-- From any memory with zero counters every weakly fair execution of @main terminates, and every array of the
    pipeline ends at what the proof data determines. -/
theorem run_main : θ_run defs (onTc (τ := τ) (main (F := F))) (s₀ m ρ) (Pipeline.FramePost cfgs (dats m) 0 (V m)) :=
  Pipeline.θ_run_frame cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The argument arrays end as they began. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (fun _ _ => rfl) (run_main m ρ)

end Cert.Proof.K

end
-- ==== Proof.KIBody.lean ====
/-
  The kernel body of `KernelIdeal` without its loop.

  One trip of the body's loop touches no memory: from the carried pair (h, d) it computes the next pair as a
  function `trip` of (h, d) and of the four weight blocks, the same function at every trip.  A counted loop whose
  region only computes is the fold of that function over its trips, so the whole body is: read the six input
  blocks, read the output buffer (unused), write `outBlock` — the final distance stage applied to the fold —
  to the whole output buffer.  `body_eq` states that the printed body is that loop-free program.
-/
import proofs.«103367_j33517924778635_2_alg».proof.Proof.Gen.KernelIdeal.Skeleton
import Idealize.ShloMosaic.Lib.Exec

noncomputable section

namespace Cert.Proof.KI

open Cert.KernelIdeal Cert.KernelIdeal.Gen
open Idealize.ShloMosaic Idealize.SL.Sem

variable {F : FTy → Type} [FloatOps F]

/-- One trip: the carried pair (h, d) to the next pair, given the weight blocks W1, W2, B1, B2 (in the order
    the body loads them: `v0 v1 v2 v3`). -/
def trip (v0 v1 v2 v3 : Vec F S1024x300 .f32) :
    Fin k0_t1_loop.trips → FVec F S1024x300 .f32 × FVec F S1024x300 .f32 → FVec F S1024x300 .f32 × FVec F S1024x300 .f32 :=
  fun _ p => (k0_pay10 v2 p.1 (k0_pay7 v0 p.1 p.2), k0_pay11 v1 v3 p.2 (k0_pay6 p.1 p.2))

/-- The pair after all trips, from the two embedding blocks. -/
def carried (v0 v1 v2 v3 : Vec F S1024x300 .f32) (v4 v6 : Vec F S1x1024x300 .f32) :
    FVec F S1024x300 .f32 × FVec F S1024x300 .f32 :=
  Scf.fold (trip v0 v1 v2 v3) (k0_pay8 v4, k0_pay9 v6)

/-- What the body writes to the output block: the distance stage of the pair after all trips. -/
def outBlock (v0 v1 v2 v3 : Vec F S1024x300 .f32) (v4 v6 : Vec F S1x1024x300 .f32) : FVec F S1x1024x1024 .f32 :=
  k0_pay1 (k0_pay15 (carried v0 v1 v2 v3 v4 v6).1 (carried v0 v1 v2 v3 v4 v6).2)
    (k0_pay16 (carried v0 v1 v2 v3 v4 v6).1 (carried v0 v1 v2 v3 v4 v6).2)
    (k0_pay17 (carried v0 v1 v2 v3 v4 v6).1 (carried v0 v1 v2 v3 v4 v6).2)

section
variable [Facts]

/-- The loop, bound into any continuation, is the continuation at the fold of `trip`. -/
theorem loop_eq (i : grid0.Coords) (arg1 : Memref sig .tc .vmem S1x1024x300 .f32) (harg1 : arg1.IsWhole) (arg2 : Memref sig .tc .vmem S1x1024x300 .f32) (harg2 : arg2.IsWhole) (arg3 : Memref sig .tc .vmem S1024x300 .f32) (harg3 : arg3.IsWhole) (arg4 : Memref sig .tc .vmem S1024x300 .f32) (harg4 : arg4.IsWhole) (arg5 : Memref sig .tc .vmem S1024x300 .f32) (harg5 : arg5.IsWhole) (arg6 : Memref sig .tc .vmem S1024x300 .f32) (harg6 : arg6.IsWhole) (arg7 : Memref sig .tc .vmem S1x1024x1024 .f32) (harg7 : arg7.IsWhole)
    (v0 v1 v2 v3 : Vec F S1024x300 .f32) (init : FVec F S1024x300 .f32 × FVec F S1024x300 .f32) {β : Type}
    (k : FVec F S1024x300 .f32 × FVec F S1024x300 .f32 → Prog (TpuEff nD τ sig (Elt F) Λ₀ .tc) β) :
    (Scf.Loop.for k0_t1_loop k0_t1_ok init (k0_t1_body (F := F) i arg1 harg1 arg2 harg2 arg3 harg3 arg4 harg4 arg5 harg5 arg6 harg6 arg7 harg7 v0 v1 v2 v3) >>= k)
      = k (Scf.fold (trip v0 v1 v2 v3) init) :=
  Scf.for_pure_bind _ _ _ _ _ _ (trip v0 v1 v2 v3) (fun _ p => by obtain ⟨a, b⟩ := p; rfl) k

/-- The body's first part without the loop: six loads, then the three values the distance stage reads. -/
noncomputable def part2Flat (i : grid0.Coords) (arg1 : Memref sig .tc .vmem S1x1024x300 .f32) (harg1 : arg1.IsWhole) (arg2 : Memref sig .tc .vmem S1x1024x300 .f32) (harg2 : arg2.IsWhole) (arg3 : Memref sig .tc .vmem S1024x300 .f32) (harg3 : arg3.IsWhole) (arg4 : Memref sig .tc .vmem S1024x300 .f32) (harg4 : arg4.IsWhole) (arg5 : Memref sig .tc .vmem S1024x300 .f32) (harg5 : arg5.IsWhole) (arg6 : Memref sig .tc .vmem S1024x300 .f32) (harg6 : arg6.IsWhole) (arg7 : Memref sig .tc .vmem S1x1024x1024 .f32) (harg7 : arg7.IsWhole) :
    Prog (TpuEff nD τ sig (Elt F) Λ₀ .tc) (Σ' (v27 : FVec F S1024x1 .f32) (v30 : FVec F S1024x1 .f32), FVec F S1024x1024 .f32) := do
  let v0 : Vec F S1024x300 .f32 ← Prog.lift (.load arg3 (Rect.unit (s := S1024x300) ![0, 0] S1024x300.size inb_S1024x300_S1024x300_0_0).toLoadRect (View.loadsAt_vmem h_S1024x300))
  let v1 : Vec F S1024x300 .f32 ← Prog.lift (.load arg4 (Rect.unit (s := S1024x300) ![0, 0] S1024x300.size inb_S1024x300_S1024x300_0_0).toLoadRect (View.loadsAt_vmem h_S1024x300))
  let v2 : Vec F S1024x300 .f32 ← Prog.lift (.load arg5 (Rect.unit (s := S1024x300) ![0, 0] S1024x300.size inb_S1024x300_S1024x300_0_0).toLoadRect (View.loadsAt_vmem h_S1024x300))
  let v3 : Vec F S1024x300 .f32 ← Prog.lift (.load arg6 (Rect.unit (s := S1024x300) ![0, 0] S1024x300.size inb_S1024x300_S1024x300_0_0).toLoadRect (View.loadsAt_vmem h_S1024x300))
  let v4 : Vec F S1x1024x300 .f32 ← Prog.lift (.load arg1 (Rect.unit (s := S1x1024x300) ![0, 0, 0] S1x1024x300.size inb_S1x1024x300_S1x1024x300_0_0_0).toLoadRect (View.loadsAt_vmem h_S1x1024x300))
  let v6 : Vec F S1x1024x300 .f32 ← Prog.lift (.load arg2 (Rect.unit (s := S1x1024x300) ![0, 0, 0] S1x1024x300.size inb_S1x1024x300_S1x1024x300_0_0_0).toLoadRect (View.loadsAt_vmem h_S1x1024x300))
  pure ⟨k0_pay15 (carried v0 v1 v2 v3 v4 v6).1 (carried v0 v1 v2 v3 v4 v6).2,
    k0_pay16 (carried v0 v1 v2 v3 v4 v6).1 (carried v0 v1 v2 v3 v4 v6).2,
    k0_pay17 (carried v0 v1 v2 v3 v4 v6).1 (carried v0 v1 v2 v3 v4 v6).2⟩

set_option maxRecDepth 65536 in
theorem part2_eq (i : grid0.Coords) (arg1 : Memref sig .tc .vmem S1x1024x300 .f32) (harg1 : arg1.IsWhole) (arg2 : Memref sig .tc .vmem S1x1024x300 .f32) (harg2 : arg2.IsWhole) (arg3 : Memref sig .tc .vmem S1024x300 .f32) (harg3 : arg3.IsWhole) (arg4 : Memref sig .tc .vmem S1024x300 .f32) (harg4 : arg4.IsWhole) (arg5 : Memref sig .tc .vmem S1024x300 .f32) (harg5 : arg5.IsWhole) (arg6 : Memref sig .tc .vmem S1024x300 .f32) (harg6 : arg6.IsWhole) (arg7 : Memref sig .tc .vmem S1x1024x1024 .f32) (harg7 : arg7.IsWhole) :
    k0_part2 (F := F) i arg1 harg1 arg2 harg2 arg3 harg3 arg4 harg4 arg5 harg5 arg6 harg6 arg7 harg7
      = part2Flat i arg1 harg1 arg2 harg2 arg3 harg3 arg4 harg4 arg5 harg5 arg6 harg6 arg7 harg7 := by
  rw [k0_part2_eq_skeleton]
  unfold k0_part2_skel part2Flat carried
  simp only [loop_eq]

/-- The loop-free body: six loads, the (unused) load of the output buffer, one store of `outBlock`. -/
noncomputable def flatBody (i : grid0.Coords) (arg1 : Memref sig .tc .vmem S1x1024x300 .f32) (harg1 : arg1.IsWhole) (arg2 : Memref sig .tc .vmem S1x1024x300 .f32) (harg2 : arg2.IsWhole) (arg3 : Memref sig .tc .vmem S1024x300 .f32) (harg3 : arg3.IsWhole) (arg4 : Memref sig .tc .vmem S1024x300 .f32) (harg4 : arg4.IsWhole) (arg5 : Memref sig .tc .vmem S1024x300 .f32) (harg5 : arg5.IsWhole) (arg6 : Memref sig .tc .vmem S1024x300 .f32) (harg6 : arg6.IsWhole) (arg7 : Memref sig .tc .vmem S1x1024x1024 .f32) (harg7 : arg7.IsWhole) :
    Prog (TpuEff nD τ sig (Elt F) Λ₀ .tc) PUnit := do
  let v0 : Vec F S1024x300 .f32 ← Prog.lift (.load arg3 (Rect.unit (s := S1024x300) ![0, 0] S1024x300.size inb_S1024x300_S1024x300_0_0).toLoadRect (View.loadsAt_vmem h_S1024x300))
  let v1 : Vec F S1024x300 .f32 ← Prog.lift (.load arg4 (Rect.unit (s := S1024x300) ![0, 0] S1024x300.size inb_S1024x300_S1024x300_0_0).toLoadRect (View.loadsAt_vmem h_S1024x300))
  let v2 : Vec F S1024x300 .f32 ← Prog.lift (.load arg5 (Rect.unit (s := S1024x300) ![0, 0] S1024x300.size inb_S1024x300_S1024x300_0_0).toLoadRect (View.loadsAt_vmem h_S1024x300))
  let v3 : Vec F S1024x300 .f32 ← Prog.lift (.load arg6 (Rect.unit (s := S1024x300) ![0, 0] S1024x300.size inb_S1024x300_S1024x300_0_0).toLoadRect (View.loadsAt_vmem h_S1024x300))
  let v4 : Vec F S1x1024x300 .f32 ← Prog.lift (.load arg1 (Rect.unit (s := S1x1024x300) ![0, 0, 0] S1x1024x300.size inb_S1x1024x300_S1x1024x300_0_0_0).toLoadRect (View.loadsAt_vmem h_S1x1024x300))
  let v6 : Vec F S1x1024x300 .f32 ← Prog.lift (.load arg2 (Rect.unit (s := S1x1024x300) ![0, 0, 0] S1x1024x300.size inb_S1x1024x300_S1x1024x300_0_0_0).toLoadRect (View.loadsAt_vmem h_S1x1024x300))
  let v44 : Vec F S1x1024x1024 .f32 ← Prog.lift (.load arg7 (Rect.unit (s := S1x1024x1024) ![0, 0, 0] S1x1024x1024.size inb_S1x1024x1024_S1x1024x1024_0_0_0).toLoadRect (View.loadsAt_vmem h_S1x1024x1024))
  Prog.lift (.store arg7 (Rect.unit (s := S1x1024x1024) ![0, 0, 0] S1x1024x1024.size inb_S1x1024x1024_S1x1024x1024_0_0_0) (outBlock v0 v1 v2 v3 v4 v6) Finset.univ (View.stores_vmem_bits_univ h_S1x1024x1024 rfl) (.inl rfl))
  pure ⟨⟩

set_option maxRecDepth 65536 in
/-- The printed body is the loop-free body. -/
theorem body_eq (i : grid0.Coords) (arg1 : Memref sig .tc .vmem S1x1024x300 .f32) (harg1 : arg1.IsWhole) (arg2 : Memref sig .tc .vmem S1x1024x300 .f32) (harg2 : arg2.IsWhole) (arg3 : Memref sig .tc .vmem S1024x300 .f32) (harg3 : arg3.IsWhole) (arg4 : Memref sig .tc .vmem S1024x300 .f32) (harg4 : arg4.IsWhole) (arg5 : Memref sig .tc .vmem S1024x300 .f32) (harg5 : arg5.IsWhole) (arg6 : Memref sig .tc .vmem S1024x300 .f32) (harg6 : arg6.IsWhole) (arg7 : Memref sig .tc .vmem S1x1024x1024 .f32) (harg7 : arg7.IsWhole) :
    cc0__gnn_kernel (F := F) i arg1 harg1 arg2 harg2 arg3 harg3 arg4 harg4 arg5 harg5 arg6 harg6 arg7 harg7
      = flatBody i arg1 harg1 arg2 harg2 arg3 harg3 arg4 harg4 arg5 harg5 arg6 harg6 arg7 harg7 := by
  rw [cc0__gnn_kernel_eq_skeleton]
  unfold cc0__gnn_kernel_skel
  rw [part2_eq]
  rfl

end

end Cert.Proof.KI

end
-- ==== Proof.KIFrame.lean ====
/-
  The frame of `KernelIdeal`: every weakly fair execution of @main terminates, faults nowhere, and leaves
  the six argument arrays as they were.

  At one grid point the body reads six blocks — the point's slab of each embedding array and the four whole
  weight matrices —, computes, and overwrites the point's whole output block with one value of those blocks
  (`bodyRun`).  So each input window's buffer still holds its block after the body and the output window's
  buffer holds that value (`outsAt`); no buffer carries anything from one point to the next.  The same
  holds at each of the sixteen points, which gives the run of the whole grid.
-/
import proofs.«103367_j33517924778635_2_alg».proof.Proof.Gen.KernelIdeal.Frame
import proofs.«103367_j33517924778635_2_alg».proof.Proof.Gen.KernelIdeal.Skeleton
import proofs.«103367_j33517924778635_2_alg».proof.Proof.KIBody
import Idealize.ShloMosaic.Lib.Tactic

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

abbrev 𝒱₀ : Variants := Variants.none

variable (m : (ℓ : Loc nD τ sig) → Buf (Elt F) ℓ) (ρ : Dev nD → PrngReg)

/-! ## One grid point -/

/-- On whole buffers holding the blocks `x1 … x6` (and the output buffer holding anything) the body runs, keeps
    the six, and leaves the output buffer at one value `Y` determined by the six blocks. -/
noncomputable def bodyRun (c : Dev nD) (i : grid0.Coords)
    (M1 : Memref sig .tc .vmem S1x1024x300 .f32) (h1 : M1.IsWhole) (M2 : Memref sig .tc .vmem S1x1024x300 .f32) (h2 : M2.IsWhole)
    (M3 : Memref sig .tc .vmem S1024x300 .f32) (h3 : M3.IsWhole) (M4 : Memref sig .tc .vmem S1024x300 .f32) (h4 : M4.IsWhole)
    (M5 : Memref sig .tc .vmem S1024x300 .f32) (h5 : M5.IsWhole) (M6 : Memref sig .tc .vmem S1024x300 .f32) (h6 : M6.IsWhole)
    (M7 : Memref sig .tc .vmem S1x1024x1024 .f32) (h7 : M7.IsWhole)
    (x1 x2 : Vec F S1x1024x300 .f32) (x3 x4 x5 x6 : Vec F S1024x300 .f32) :
    { Y : Vec F S1x1024x1024 .f32 //
      ∀ (E : Set ℕ) (K : PUnit → sProp 𝕄),
        iprop(owns (c : Thread nD τ) M1 fullShare x1 ∗ owns (c : Thread nD τ) M2 fullShare x2
            ∗ owns (c : Thread nD τ) M3 fullShare x3 ∗ owns (c : Thread nD τ) M4 fullShare x4
            ∗ owns (c : Thread nD τ) M5 fullShare x5 ∗ owns (c : Thread nD τ) M6 fullShare x6
            ∗ (∃ d, owns (c : Thread nD τ) M7 fullShare d)
            ∗ (iprop(owns (c : Thread nD τ) M1 fullShare x1 ∗ owns (c : Thread nD τ) M2 fullShare x2
                ∗ owns (c : Thread nD τ) M3 fullShare x3 ∗ owns (c : Thread nD τ) M4 fullShare x4
                ∗ owns (c : Thread nD τ) M5 fullShare x5 ∗ owns (c : Thread nD τ) M6 fullShare x6
                ∗ owns (c : Thread nD τ) M7 fullShare Y) -∗ K ⟨⟩))
          ⊢ wp frame (wpE (defs₀ (F := F)) 𝒱₀ c none) E (cc0__gnn_kernel i M1 h1 M2 h2 M3 h3 M4 h4 M5 h5 M6 h6 M7 h7) K } := by
  refine ⟨?_, fun E K => ?run⟩
  case run =>
    refine exec_prog_eq _ _ _ _ _ _ (body_eq i M1 h1 M2 h2 M3 h3 M4 h4 M5 h5 M6 h6 M7 h7) ?_
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := h1.eq_unread hf1; obtain rfl := h2.eq_unread hf2; obtain rfl := h3.eq_unread hf3
    obtain rfl := h4.eq_unread hf4; obtain rfl := h5.eq_unread hf5; obtain rfl := h6.eq_unread hf6
    sl_unfold [flatBody]
    sl_exec!
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; isplitr; swap; · iexact H7
    ipureintro; rfl

/-! ## The buffers the pipeline hands the body at point `t` -/

abbrev ms1 (t : Fin cfg0.N) : Memref sig .tc .vmem S1x1024x300 .f32 := win0_0.stage (cfg0.slots t 0)
abbrev hs1 (t : Fin cfg0.N) : (ms1 t).IsWhole := hstage0_0 ((cfg0.slots t 0).cast nbuf0_0)
abbrev ms2 (t : Fin cfg0.N) : Memref sig .tc .vmem S1x1024x300 .f32 := win0_1.stage (cfg0.slots t 1)
abbrev hs2 (t : Fin cfg0.N) : (ms2 t).IsWhole := hstage0_1 ((cfg0.slots t 1).cast nbuf0_1)
abbrev ms3 (t : Fin cfg0.N) : Memref sig .tc .vmem S1024x300 .f32 := win0_2.stage (cfg0.slots t 2)
abbrev hs3 (t : Fin cfg0.N) : (ms3 t).IsWhole := hstage0_2 ((cfg0.slots t 2).cast nbuf0_2)
abbrev ms4 (t : Fin cfg0.N) : Memref sig .tc .vmem S1024x300 .f32 := win0_3.stage (cfg0.slots t 3)
abbrev hs4 (t : Fin cfg0.N) : (ms4 t).IsWhole := hstage0_3 ((cfg0.slots t 3).cast nbuf0_3)
abbrev ms5 (t : Fin cfg0.N) : Memref sig .tc .vmem S1024x300 .f32 := win0_4.stage (cfg0.slots t 4)
abbrev hs5 (t : Fin cfg0.N) : (ms5 t).IsWhole := hstage0_4 ((cfg0.slots t 4).cast nbuf0_4)
abbrev ms6 (t : Fin cfg0.N) : Memref sig .tc .vmem S1024x300 .f32 := win0_5.stage (cfg0.slots t 5)
abbrev hs6 (t : Fin cfg0.N) : (ms6 t).IsWhole := hstage0_5 ((cfg0.slots t 5).cast nbuf0_5)
abbrev ms7 (t : Fin cfg0.N) : Memref sig .tc .vmem S1x1024x1024 .f32 := win0_6.stage (cfg0.slots t 6)
abbrev hs7 (t : Fin cfg0.N) : (ms7 t).IsWhole := hstage0_6 ((cfg0.slots t 6).cast nbuf0_6)

/-- What point `t` leaves in the output window's buffer: the body's value at the point's six blocks. -/
def outsAt (c : Dev nD) (t : Fin cfg0.N) : Vec F S1x1024x1024 .f32 :=
  (bodyRun c (grid0.coords t) (ms1 t) (hs1 t) (ms2 t) (hs2 t) (ms3 t) (hs3 t) (ms4 t) (hs4 t) (ms5 t) (hs5 t) (ms6 t) (hs6 t)
    (ms7 t) (hs7 t) (iblk m c 0 t) (iblk m c 1 t) (iblk m c 2 t) (iblk m c 3 t) (iblk m c 4 t) (iblk m c 5 t)).1

/-! ## The proof data -/

/-- The arrays as launched; after the body an input window's buffer holds its block, the output window's
    holds `outsAt`; nothing else is held between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outsAt m c t := by dsimp only [dats]

/-- When the body runs, each input window's buffer holds the window's block at the point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## Every point -/

/-- At every point the body takes the buffers from what they hold before it to what the proof data says they
    hold after it; the invariant and the (empty) debt are not touched. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  unfold outsAt
  iintro ⟨HΦ, Ho, ⟨%d1, H1⟩, ⟨%d2, H2⟩, ⟨%d3, H3⟩, ⟨%d4, H4⟩, ⟨%d5, H5⟩, ⟨%d6, H6⟩, ⟨%d7, H7⟩⟩
  iapply ((bodyRun c _ _ _ _ _ _ _ _ _ _ _ _ _ _ _ (iblk m c 0 t) (iblk m c 1 t) (iblk m c 2 t) (iblk m c 3 t) (iblk m c 4 t) (iblk m c 5 t)).2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H1, H2, H3, H4, H5, H6, H7⟩
  isplitl [HΦ]; · iexact HΦ
  isplitl [Ho]; · iexact Ho
  isplitl [H1]; · iexact H1
  isplitl [H2]; · iexact H2
  isplitl [H3]; · iexact H3
  isplitl [H4]; · iexact H4
  isplitl [H5]; · iexact H5
  isplitl [H6]; · iexact H6
  iexact H7

/-! ## The whole grid -/

set_option backward.isDefEq.respectTransparency.types false in
/-- From any memory with zero counters every weakly fair execution of @main terminates, and every array of the
    pipeline ends at what the proof data determines. -/
theorem run_main : θ_run defs (onTc (τ := τ) (main (F := F))) (s₀ m ρ) (Pipeline.FramePost cfgs (dats m) 0 (V m)) :=
  Pipeline.θ_run_frame cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The argument arrays end as they began. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (fun _ _ => rfl) (run_main m ρ)

end Cert.Proof.KI

end
-- ==== Proof.KIValue.lean ====
/-
  The result array of `KernelIdeal` as one function of the six argument arrays.

  Grid point t reads batch t of the two embedding arrays (a [1,1024,300] slab each) and the four weight
  matrices whole, and writes `outBlock` of them to batch t of the result.  So with
  `G a0 … a5 (b, i, j) = outBlock a2 a3 a4 a5 (batch b of a0) (batch b of a1) (0, i, j)`
  every point writes back its own block of `G`, and the sixteen blocks (one per batch) cover the result
  array: after the run the result array is `G` of the arguments.
-/
import proofs.«103367_j33517924778635_2_alg».proof.Proof.KIFrame
import Idealize.ShloMosaic.Lib.Pipeline.Value
import Idealize.ShloMosaic.Lib.Ring
import Idealize.ShloMosaic.Lib.ValueIdx

noncomputable section

namespace Cert.Proof.KI

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The value the body leaves in the output buffer is `outBlock` of the six blocks it read. -/
theorem bodyRun_val (c : Dev nD) (i : grid0.Coords)
    (M1 : Memref sig .tc .vmem S1x1024x300 .f32) (h1 : M1.IsWhole) (M2 : Memref sig .tc .vmem S1x1024x300 .f32) (h2 : M2.IsWhole)
    (M3 : Memref sig .tc .vmem S1024x300 .f32) (h3 : M3.IsWhole) (M4 : Memref sig .tc .vmem S1024x300 .f32) (h4 : M4.IsWhole)
    (M5 : Memref sig .tc .vmem S1024x300 .f32) (h5 : M5.IsWhole) (M6 : Memref sig .tc .vmem S1024x300 .f32) (h6 : M6.IsWhole)
    (M7 : Memref sig .tc .vmem S1x1024x1024 .f32) (h7 : M7.IsWhole)
    (x1 x2 : Vec F S1x1024x300 .f32) (x3 x4 x5 x6 : Vec F S1024x300 .f32) :
    (bodyRun (F := F) c i M1 h1 M2 h2 M3 h3 M4 h4 M5 h5 M6 h6 M7 h7 x1 x2 x3 x4 x5 x6).1 = outBlock x3 x4 x5 x6 x1 x2 := by
  unfold bodyRun
  dsimp only
  rw [View.read_writes_eq_canon _ _ _ (View.cover_of_tiledL _ S1x1024x1024.size (by sl_kernel_rfl))]
  sl_unfold_run_names
  rw [View.canon_unit_zero hz3]
  simp only [View.readAt_eq_ld, h1.read_unread, h2.read_unread, h3.read_unread, h4.read_unread, h5.read_unread, h6.read_unread,
    View.ld_unit_zero (S := S1024x300) hz2, View.ld_unit_zero (S := S1x1024x300) hz3]

theorem outsAt_eq (c : Dev nD) (t : Fin cfg0.N) :
    outsAt m c t = outBlock (iblk m c 2 t) (iblk m c 3 t) (iblk m c 4 t) (iblk m c 5 t) (iblk m c 0 t) (iblk m c 1 t) := by
  unfold outsAt
  exact bodyRun_val c _ _ _ _ _ _ _ _ _ _ _ _ _ _ _ _ _ _ _ _ _

/-! ## Which block each window holds at point t -/

/-- The index maps over the sixteen points: the two embedding windows and the result window move with the point
    along the batch axis; the four weight windows stay at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_6.index t (0 : Fin 3) = t.val ∧ win0_6.index t (1 : Fin 3) = 0 ∧ win0_6.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The batch a grid point works on. -/
def batchOf (t : Fin cfg0.N) : Fin 16 := Fin.cast N_0 t

/-- Batch b of an embedding array, as the [1,1024,300] block the body reads. -/
def slabBlk (A : S16x1024x300.Idx → Elt F .f32) (b : Fin 16) : Vec F S1x1024x300 .f32 :=
  fun y => A (ix3 b ⟨(y 1).val, (y 1).isLt⟩ ⟨(y 2).val, (y 2).isLt⟩)

theorem iblk0_eq (c : Dev nD) (t : Fin cfg0.N) :
    (iblk m c 0 t : Vec F S1x1024x300 .f32) = slabBlk (m ((c : Thread nD τ).loc main_arg0)) (batchOf t) := by
  obtain ⟨e0, e1, e2, -⟩ := idx_facts t
  funext y
  unfold iblk
  rw [View.read_apply]
  show V m c main_arg0 _ = m (c.tc.loc main_arg0) _
  unfold V
  refine congrArg _ ?_
  funext a
  apply Fin.ext
  match a with
  | ⟨0, _⟩ => show win0_0.index t (0 : Fin 3) * 1 + 1 * (y 0).val = t.val; have hy : (y 0).val < 1 := (y 0).isLt; omega
  | ⟨1, _⟩ => show win0_0.index t (1 : Fin 3) * 1024 + 1 * (y 1).val = (y 1).val; omega
  | ⟨2, _⟩ => show win0_0.index t (2 : Fin 3) * 300 + 1 * (y 2).val = (y 2).val; omega

theorem iblk1_eq (c : Dev nD) (t : Fin cfg0.N) :
    (iblk m c 1 t : Vec F S1x1024x300 .f32) = slabBlk (m ((c : Thread nD τ).loc main_arg1)) (batchOf t) := by
  obtain ⟨-, -, -, e0, e1, e2, -⟩ := idx_facts t
  funext y
  unfold iblk
  rw [View.read_apply]
  show V m c main_arg1 _ = m (c.tc.loc main_arg1) _
  unfold V
  refine congrArg _ ?_
  funext a
  apply Fin.ext
  match a with
  | ⟨0, _⟩ => show win0_1.index t (0 : Fin 3) * 1 + 1 * (y 0).val = t.val; have hy : (y 0).val < 1 := (y 0).isLt; omega
  | ⟨1, _⟩ => show win0_1.index t (1 : Fin 3) * 1024 + 1 * (y 1).val = (y 1).val; omega
  | ⟨2, _⟩ => show win0_1.index t (2 : Fin 3) * 300 + 1 * (y 2).val = (y 2).val; omega

theorem iblk2_eq (c : Dev nD) (t : Fin cfg0.N) :
    (iblk m c 2 t : Vec F S1024x300 .f32) = (m ((c : Thread nD τ).loc main_arg2) : S1024x300.Idx → Elt F .f32) := by
  obtain ⟨-, -, -, -, -, -, -, -, -, e0, e1, -⟩ := idx_facts t
  funext y
  unfold iblk
  rw [View.read_apply]
  show V m c main_arg2 _ = m (c.tc.loc main_arg2) _
  unfold V
  refine congrArg _ ?_
  funext a
  apply Fin.ext
  match a with
  | ⟨0, _⟩ => show win0_2.index t (0 : Fin 2) * 1024 + 1 * (y 0).val = (y 0).val; omega
  | ⟨1, _⟩ => show win0_2.index t (1 : Fin 2) * 300 + 1 * (y 1).val = (y 1).val; omega

theorem iblk3_eq (c : Dev nD) (t : Fin cfg0.N) :
    (iblk m c 3 t : Vec F S1024x300 .f32) = (m ((c : Thread nD τ).loc main_arg3) : S1024x300.Idx → Elt F .f32) := by
  obtain ⟨-, -, -, -, -, -, -, -, -, -, -, e0, e1, -⟩ := idx_facts t
  funext y
  unfold iblk
  rw [View.read_apply]
  show V m c main_arg3 _ = m (c.tc.loc main_arg3) _
  unfold V
  refine congrArg _ ?_
  funext a
  apply Fin.ext
  match a with
  | ⟨0, _⟩ => show win0_3.index t (0 : Fin 2) * 1024 + 1 * (y 0).val = (y 0).val; omega
  | ⟨1, _⟩ => show win0_3.index t (1 : Fin 2) * 300 + 1 * (y 1).val = (y 1).val; omega

theorem iblk4_eq (c : Dev nD) (t : Fin cfg0.N) :
    (iblk m c 4 t : Vec F S1024x300 .f32) = (m ((c : Thread nD τ).loc main_arg4) : S1024x300.Idx → Elt F .f32) := by
  obtain ⟨-, -, -, -, -, -, -, -, -, -, -, -, -, e0, e1, -⟩ := idx_facts t
  funext y
  unfold iblk
  rw [View.read_apply]
  show V m c main_arg4 _ = m (c.tc.loc main_arg4) _
  unfold V
  refine congrArg _ ?_
  funext a
  apply Fin.ext
  match a with
  | ⟨0, _⟩ => show win0_4.index t (0 : Fin 2) * 1024 + 1 * (y 0).val = (y 0).val; omega
  | ⟨1, _⟩ => show win0_4.index t (1 : Fin 2) * 300 + 1 * (y 1).val = (y 1).val; omega

theorem iblk5_eq (c : Dev nD) (t : Fin cfg0.N) :
    (iblk m c 5 t : Vec F S1024x300 .f32) = (m ((c : Thread nD τ).loc main_arg5) : S1024x300.Idx → Elt F .f32) := by
  obtain ⟨-, -, -, -, -, -, -, -, -, -, -, -, -, -, -, e0, e1⟩ := idx_facts t
  funext y
  unfold iblk
  rw [View.read_apply]
  show V m c main_arg5 _ = m (c.tc.loc main_arg5) _
  unfold V
  refine congrArg _ ?_
  funext a
  apply Fin.ext
  match a with
  | ⟨0, _⟩ => show win0_5.index t (0 : Fin 2) * 1024 + 1 * (y 0).val = (y 0).val; omega
  | ⟨1, _⟩ => show win0_5.index t (1 : Fin 2) * 300 + 1 * (y 1).val = (y 1).val; omega

/-! ## The whole result array -/

/-- The result array as one function of the arguments: entry (b, i, j) is entry (0, i, j) of `outBlock` at batch b. -/
def G (a0 a1 : S16x1024x300.Idx → Elt F .f32) (a2 a3 a4 a5 : S1024x300.Idx → Elt F .f32) :
    S16x1024x1024.Idx → Elt F .f32 :=
  fun q => outBlock a2 a3 a4 a5 (slabBlk a0 ⟨(q 0).val, (q 0).isLt⟩) (slabBlk a1 ⟨(q 0).val, (q 0).isLt⟩)
    (ix3 (0 : Fin 1) ⟨(q 1).val, (q 1).isLt⟩ ⟨(q 2).val, (q 2).isLt⟩)

/-- What point t writes back is block t of `G` of the argument arrays. -/
theorem flushed_eq (c : Dev nD) (t : Fin cfg0.N) :
    (dats m 0 c).flushed 6 t = ((cfg0.win 6).blk t).view.read (Elt F)
      (G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  show (cfg0.win 6).cut (grid0.coords t) ((dats m 0 c).after 6 t) = _
  rw [after_6, outsAt_eq, iblk0_eq, iblk1_eq, iblk2_eq, iblk3_eq, iblk4_eq, iblk5_eq]
  obtain ⟨-, -, -, -, -, -, e0, e1, e2, -⟩ := idx_facts t
  funext j
  have he : ((cfg0.win 6).blk t).view.emb j = ix3 (batchOf t) ⟨(j 1).val, (j 1).isLt⟩ ⟨(j 2).val, (j 2).isLt⟩ := by
    funext a
    apply Fin.ext
    match a with
    | ⟨0, _⟩ => show win0_6.index t (0 : Fin 3) * 1 + 1 * (j 0).val = t.val; have hj : (j 0).val < 1 := (j 0).isLt; omega
    | ⟨1, _⟩ => show win0_6.index t (1 : Fin 3) * 1024 + 1 * (j 1).val = (j 1).val; omega
    | ⟨2, _⟩ => show win0_6.index t (2 : Fin 3) * 1024 + 1 * (j 2).val = (j 2).val; omega
  have hj : j = ix3 (0 : Fin 1) ⟨(j 1).val, (j 1).isLt⟩ ⟨(j 2).val, (j 2).isLt⟩ := by
    funext a
    apply Fin.ext
    match a with
    | ⟨0, _⟩ => show (j 0).val = 0; have hj : (j 0).val < 1 := (j 0).isLt; omega
    | ⟨1, _⟩ => rfl
    | ⟨2, _⟩ => rfl
  show outBlock _ _ _ _ _ _ j = G _ _ _ _ _ _ (((cfg0.win 6).blk t).view.emb j)
  rw [he]
  exact congrArg _ hj

theorem mem_blk6 (t : Fin cfg0.N) (i : S16x1024x1024.Idx) :
    i ∈ ((cfg0.win 6).blk t).view.set ↔ ∀ a : Fin 3, win0_6.index t a * S1x1024x1024.size a ≤ (i a).val ∧ (i a).val < win0_6.index t a * S1x1024x1024.size a + S1x1024x1024.size a := by
  show i ∈ ((View.whole main_v0).slice (win0_6.rect t)).set ↔ _
  rw [View.set_slice_whole, Rect.mem_set_unit]
  exact Iff.rfl

/-- Every entry of the result array lies in the block of the point of its batch. -/
theorem cover (i : S16x1024x1024.Idx) :
    ∃ t : Fin cfg0.N, (cfg0.win 6).flush t = true ∧ i ∈ ((cfg0.win 6).blk t).view.set := by
  have h0 : (i 0).val < 16 := (i 0).isLt
  have h1 : (i 1).val < 1024 := (i 1).isLt
  have h2 : (i 2).val < 1024 := (i 2).isLt
  refine ⟨Fin.cast N_0.symm ⟨(i 0).val, h0⟩, flush0_6 _, ?_⟩
  obtain ⟨-, -, -, -, -, -, e0, e1, e2, -⟩ := idx_facts (Fin.cast N_0.symm ⟨(i 0).val, h0⟩)
  rw [mem_blk6]
  intro a
  match a with
  | ⟨0, _⟩ => show win0_6.index _ (0 : Fin 3) * 1 ≤ (i 0).val ∧ (i 0).val < win0_6.index _ (0 : Fin 3) * 1 + 1; rw [e0]; show (i 0).val * 1 ≤ (i 0).val ∧ (i 0).val < (i 0).val * 1 + 1; omega
  | ⟨1, _⟩ => show win0_6.index _ (1 : Fin 3) * 1024 ≤ (i 1).val ∧ (i 1).val < win0_6.index _ (1 : Fin 3) * 1024 + 1024; rw [e1]; omega
  | ⟨2, _⟩ => show win0_6.index _ (2 : Fin 3) * 1024 ≤ (i 2).val ∧ (i 2).val < win0_6.index _ (2 : Fin 3) * 1024 + 1024; rw [e2]; omega

/-- After the run the result array is `G` of the argument arrays. -/
theorem final (c : Dev nD) : (dats m 0 c).arrAt 6 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 6 _ (fun t _ => flushed_eq m c t) cover

/-- The run, read: the result array at `G` of the arguments, the arguments unchanged. -/
theorem run : θ_run defs (onTc (τ := τ) (main (F := F))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 6).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.Proof.KI

end
-- ==== Proof.Spec.lean ====
/-
  The mathematics of both programs, on matrices of extended reals indexed by finite types
  (ι the rows — tokens —, κ the columns — features).

  * `sqdist h d i j` = ‖hᵢ‖² + ‖dⱼ‖² − 2⟨hᵢ, dⱼ⟩, and `dist` = √(max(sqdist, 0)): the Euclidean distance
    between row i of h and row j of d, through the expansion of the square.
  * `shift c h` subtracts the vector c from every row.  Distances do not change when both families are
    shifted by the same vector; one program shifts by `centre` (half the sum of the two column means)
    before every distance, the other does not.
  * `lrelu a x` = x for x ≥ 0, a·x otherwise.
  * `step`: from a matrix s of pair weights,  h' = lrelu(W1 ⊙ (s·h + sᵀ·d) + B1 ⊙ h),
    d' = lrelu(W2 ⊙ (sᵀ·h + s·d) + B2 ⊙ d).
  * `layer` is `step` with s the distances; `layerC` the same with the distances taken after centring.
  * `out` / `outC`: three layers, then distances once more.
-/
import Idealize.ShloMosaic.PureOps.Ideal

noncomputable section

namespace Cert.Gnn

open Idealize.ShloMosaic

variable {ι κ : Type} [Fintype ι] [Fintype κ]

/-- An extended real that is a real number. -/
def IsReal (x : EReal) : Prop := ∃ r : ℝ, x = (r : EReal)

/-- ‖hᵢ‖² + ‖dⱼ‖² − 2⟨hᵢ, dⱼ⟩. -/
def sqdist (h d : ι → κ → EReal) (i j : ι) : EReal :=
  ((∑ k, h i k * h i k) + ∑ k, d j k * d j k) - 2 * ∑ k, h i k * d j k

/-- The distance between row i of h and row j of d. -/
def dist (h d : ι → κ → EReal) (i j : ι) : EReal :=
  Ideal.sqrt (max (sqdist h d i j) 0)

/-- Every row translated by −c. -/
def shift (c : κ → EReal) (h : ι → κ → EReal) : ι → κ → EReal := fun i k => h i k - c k

/-- half · (colsum h / n + colsum d / n): the midpoint of the two column means when half = ½, n = |ι|. -/
def centre (half n : EReal) (h d : ι → κ → EReal) (k : κ) : EReal :=
  half * (Ideal.div (∑ i, h i k) n + Ideal.div (∑ i, d i k) n)

/-- x for x ≥ 0, a·x otherwise. -/
def lrelu (a x : EReal) : EReal := Scalar.select (Ideal.cmp .oge x 0) x (a * x)

/-- One update of both matrices from a matrix s of pair weights. -/
def step (a : EReal) (W1 W2 B1 B2 : ι → κ → EReal) (s : ι → ι → EReal) (h d : ι → κ → EReal) :
    (ι → κ → EReal) × (ι → κ → EReal) :=
  (fun i k => lrelu a (W1 i k * ((∑ j, s i j * h j k) + ∑ j, s j i * d j k) + B1 i k * h i k),
   fun i k => lrelu a (W2 i k * ((∑ j, s j i * h j k) + ∑ j, s i j * d j k) + B2 i k * d i k))

/-- A layer: the pair weights are the distances. -/
def layer (a : EReal) (W1 W2 B1 B2 : ι → κ → EReal) (p : (ι → κ → EReal) × (ι → κ → EReal)) :
    (ι → κ → EReal) × (ι → κ → EReal) :=
  step a W1 W2 B1 B2 (dist p.1 p.2) p.1 p.2

/-- A layer whose distances are taken after translating both matrices by their centre. -/
def layerC (half n a : EReal) (W1 W2 B1 B2 : ι → κ → EReal) (p : (ι → κ → EReal) × (ι → κ → EReal)) :
    (ι → κ → EReal) × (ι → κ → EReal) :=
  step a W1 W2 B1 B2
    (dist (shift (centre half n p.1 p.2) p.1) (shift (centre half n p.1 p.2) p.2)) p.1 p.2

/-- Three layers, then the distances. -/
def out (a : EReal) (W1 W2 B1 B2 : ι → κ → EReal) (p : (ι → κ → EReal) × (ι → κ → EReal)) : ι → ι → EReal :=
  dist (layer a W1 W2 B1 B2 (layer a W1 W2 B1 B2 (layer a W1 W2 B1 B2 p))).1
       (layer a W1 W2 B1 B2 (layer a W1 W2 B1 B2 (layer a W1 W2 B1 B2 p))).2

/-- Three centred layers, then the centred distances. -/
def outC (half n a : EReal) (W1 W2 B1 B2 : ι → κ → EReal) (p : (ι → κ → EReal) × (ι → κ → EReal)) : ι → ι → EReal :=
  dist
    (shift (centre half n
        (layerC half n a W1 W2 B1 B2 (layerC half n a W1 W2 B1 B2 (layerC half n a W1 W2 B1 B2 p))).1
        (layerC half n a W1 W2 B1 B2 (layerC half n a W1 W2 B1 B2 (layerC half n a W1 W2 B1 B2 p))).2)
      (layerC half n a W1 W2 B1 B2 (layerC half n a W1 W2 B1 B2 (layerC half n a W1 W2 B1 B2 p))).1)
    (shift (centre half n
        (layerC half n a W1 W2 B1 B2 (layerC half n a W1 W2 B1 B2 (layerC half n a W1 W2 B1 B2 p))).1
        (layerC half n a W1 W2 B1 B2 (layerC half n a W1 W2 B1 B2 (layerC half n a W1 W2 B1 B2 p))).2)
      (layerC half n a W1 W2 B1 B2 (layerC half n a W1 W2 B1 B2 (layerC half n a W1 W2 B1 B2 p))).2)

end Cert.Gnn

end
-- ==== Proof.Arr.lean ====
/-
  Arrays as matrices: a [1024,300] array as the matrix of its entries, and batch b of a [16,1024,300] array as
  the matrix of that batch's entries.
-/
import Idealize.ShloMosaic.Lib.ValueIdx

noncomputable section

namespace Cert.Gnn

open Idealize.ShloMosaic Idealize.ShloMosaic.ValueIdx

/-- The entries of a [1024,300] array. -/
def mat (W : (⟨2, ![1024, 300]⟩ : Shape).Idx → EReal) : Fin 1024 → Fin 300 → EReal := fun i k => W (ix2 i k)

/-- The entries of batch b of a [16,1024,300] array. -/
def slab (A : (⟨3, ![16, 1024, 300]⟩ : Shape).Idx → EReal) (b : Fin 16) : Fin 1024 → Fin 300 → EReal :=
  fun i k => A (ix3 b i k)

end Cert.Gnn

end
-- ==== Proof.Consts.lean ====
/-
  The five float words the two programs spell, as the extended reals their patterns denote:
  +0.0, 2.0, 0.5, the slope 0.01 (the nearest binary32 value, 10737418 · 2⁻³⁰), and 1024.0.
  For the last three only what is used later is stated: that each is a real number, and that 1024.0
  is a nonzero one.
-/
import proofs.«103367_j33517924778635_2_alg».proof.Proof.Spec

noncomputable section

namespace Cert.Gnn

open Idealize.ShloMosaic

/-- The pattern of +0.0 denotes 0. -/
theorem ofBits_zero : Ideal.ofBits .f32 0x00000000#32 = 0 := by
  simp [Ideal.ofBits, Ideal.ieee]

/-- The pattern of 2.0 denotes 2. -/
theorem ofBits_two : Ideal.ofBits .f32 0x40000000#32 = 2 := by
  have h : Ideal.ofBits .f32 0x40000000#32 = ((2 : ℝ) : EReal) := by
    simp [Ideal.ofBits, Ideal.ieee, -EReal.coe_mul]; norm_num
  rw [h]; rfl

/-- The pattern of 0.5 denotes a real number (2²³ · 2⁻²⁴). -/
theorem ofBits_half_real : IsReal (Ideal.ofBits .f32 0x3F000000#32) := by
  simp only [IsReal]
  simp [Ideal.ofBits, Ideal.ieee, -EReal.coe_mul]

/-- The pattern of the slope denotes a real number (10737418 · 2⁻³⁰). -/
theorem ofBits_slope_real : IsReal (Ideal.ofBits .f32 0x3C23D70A#32) := by
  simp only [IsReal]
  simp [Ideal.ofBits, Ideal.ieee, -EReal.coe_mul]

/-- The pattern of 1024.0 denotes the nonzero real 1024. -/
theorem ofBits_1024 : ∃ r : ℝ, r ≠ 0 ∧ Ideal.ofBits .f32 0x44800000#32 = (r : EReal) := by
  refine ⟨1024, by norm_num, ?_⟩
  simp [Ideal.ofBits, Ideal.ieee, -EReal.coe_mul]; norm_num

end Cert.Gnn

end
-- ==== Proof.LibSplit.lean ====
/-
  Small facts on the extended reals, stated for any extents.

  * A sum over K = a + b + c consecutive indices is the sum over the first a, plus the sum over the next b, plus the
    sum over the last c.  Only associativity of addition is used, so it holds with infinite terms too.
  * Multiplying by the reciprocal 1 / d of a divisor d ≠ 0 is dividing by d, for every extended real numerator:
    off zero the quotient x / d is x · d⁻¹, and 1 / d is 1 · d⁻¹ = d⁻¹.
  * The larger of anything and 1 is not zero.
  * The product of an M×K by a K×N matrix, accumulated into a zero splat or not, has at entry (r, c) the sum over k of
    X(r,k) · W(k,c).
-/
import Idealize.ShloMosaic.Lib.StackMember
import Idealize.ShloMosaic.Lib.KernelVsHost
import Idealize.ShloMosaic.Lib.ValueIdx
import Idealize.ShloMosaic.PureOps.Ideal.Laws

noncomputable section

namespace Cert.Bridge.Split

open Idealize.ShloMosaic Idealize.ShloMosaic.ValueIdx
open scoped BigOperators

/-- A sum over a + b + c indices, taken in three consecutive runs. -/
theorem sum_three {M : Type*} [AddCommMonoid M] {a b c K : ℕ} (hK : a + b + c = K) (f : Fin K → M) :
    ∑ j : Fin K, f j
      = (∑ j : Fin a, f ⟨j.val, by omega⟩ + ∑ j : Fin b, f ⟨a + j.val, by omega⟩)
        + ∑ j : Fin c, f ⟨a + b + j.val, by omega⟩ := by
  subst hK
  rw [Fin.sum_univ_add, Fin.sum_univ_add]
  rfl

/-- The float word of 1.0 reads the real number one. -/
theorem ofBits_one_f32 : Ideal.ofBits .f32 0x3F800000#32 = 1 := by
  simp [Ideal.ofBits, Ideal.ieee, -EReal.coe_mul]; norm_num

/-- Times the reciprocal of a nonzero divisor is the quotient by it, whatever the numerator. -/
theorem mul_one_div {one d : EReal} (h1 : one = 1) (hd : d ≠ 0) (s : EReal) :
    s * Ideal.div one d = Ideal.div s d := by
  subst h1
  unfold Ideal.div
  rw [if_neg hd, if_neg hd, one_mul]

/-- The larger of anything and one is at least one, so it is not zero. -/
theorem max_one_ne_zero {one : EReal} (h1 : one = 1) (x : EReal) : max x one ≠ 0 := by
  subst h1
  exact ne_of_gt (lt_of_lt_of_le zero_lt_one (le_max_right x 1))

variable {M K N : ℕ}

/-- A kernel's product into the zero splat, with the plain contraction, at entry (r, c). -/
theorem matmul_zero_plain_apply {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (r : Fin M) (c : Fin N) :
    matmul d none X W (constant ⟨2, ![M, N]⟩ .f32 0x00000000#32) (ix2 r c) = ∑ k : Fin K, X (ix2 r k) * W (ix2 k c) := by
  subst hd
  rw [matmul_zero_eq_dotGeneral]
  exact StackMember.dotGeneral_plain_apply none X W r c

/-- A host's product with the plain contraction, at entry (r, c). -/
theorem dotGeneral_plain_apply {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (r : Fin M) (c : Fin N) :
    Host.dotGeneral d none X W (ix2 r c) = ∑ k : Fin K, X (ix2 r k) * W (ix2 k c) := by
  subst hd
  exact StackMember.dotGeneral_plain_apply none X W r c

end Cert.Bridge.Split

end
-- ==== Proof.LibPaddedProduct.lean ====
/-
  Products and padded weights read entry by entry on the extended reals.

  * The product of an M×K matrix by the transpose of an N×K matrix, accumulated into a zero splat, has at entry (r, c)
    the sum over k of X(r,k) · W(c,k).
  * A sum over a + b indices whose last b terms vanish is the sum over the first a.
  * A sum of products with a zero factor in every term is zero; on the extended reals x · 0 = 0 for every x, so no
    finiteness is needed.
  Stated for any extents.
-/
import Idealize.ShloMosaic.Lib.StackMember
import Idealize.ShloMosaic.Lib.KernelVsHost
import Idealize.ShloMosaic.Lib.ValueIdx
import Idealize.ShloMosaic.PureOps.Ideal.Laws

noncomputable section

namespace Cert.BodyMath

open Idealize.ShloMosaic Idealize.ShloMosaic.ValueIdx
open scoped BigOperators

variable {M K N : ℕ}

/-- A kernel's product with the right operand contracted on its last axis, into the zero splat, at entry (r, c). -/
theorem matmul_zero_transposed_apply {φ₁ φ₂ : FTy} (d : DotDims ⟨2, ![M, K]⟩ ⟨2, ![N, K]⟩ ⟨2, ![M, N]⟩)
    (hd : d = DotDims.transposedRhs M K N) (X : FVec Ideal ⟨2, ![M, K]⟩ φ₁) (W : FVec Ideal ⟨2, ![N, K]⟩ φ₂)
    (r : Fin M) (c : Fin N) :
    matmul d none X W (constant ⟨2, ![M, N]⟩ .f32 0x00000000#32) (ix2 r c) = ∑ k : Fin K, X (ix2 r k) * W (ix2 c k) := by
  subst hd
  show FloatOps.matmul _ none X W (constant ⟨2, ![M, N]⟩ .f32 0x00000000#32) (ix2 r c) = _
  rw [Ideal.matmul_constant_zero_apply, ← Equiv.sum_comp (contrEquiv1 (DotDims.transposedRhs M K N) K rfl rfl).symm]
  refine Finset.sum_congr rfl fun k _ => ?_
  have c2 := contrEquiv1_symm_val (DotDims.transposedRhs M K N) K rfl rfl k
  have l2 : (DotDims.transposedRhs M K N).lhsIdx (ix2 r c) ((contrEquiv1 _ K rfl rfl).symm k) = ix2 r k := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs M K N).rhsIdx (ix2 r c) ((contrEquiv1 _ K rfl rfl).symm k) = ix2 c k := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- A sum over a + b indices whose terms from a on vanish is the sum over the first a. -/
theorem sum_first {a b K : ℕ} (hK : a + b = K) (f : Fin K → EReal) (h0 : ∀ j : Fin K, a ≤ j.val → f j = 0) :
    ∑ j : Fin K, f j = ∑ j : Fin a, f ⟨j.val, by omega⟩ := by
  subst hK
  rw [Fin.sum_univ_add]
  have hz : ∑ j : Fin b, f (Fin.natAdd a j) = 0 :=
    Finset.sum_eq_zero fun j _ => h0 _ (by show a ≤ a + j.val; omega)
  rw [hz, add_zero]
  rfl

/-- A sum of products whose right factors all vanish is zero, whatever the left factors. -/
theorem sum_mul_zero {n : ℕ} (f g : Fin n → EReal) (hg : ∀ k, g k = 0) : ∑ k : Fin n, f k * g k = 0 :=
  Finset.sum_eq_zero fun k _ => by rw [hg k, mul_zero]

end Cert.BodyMath

end
-- ==== Proof.LibLayout.lean ====
/-
  Layout operations on a trailing unit axis, read at an index written by coordinates.

  A keep-dims value has a trailing axis of extent one.  Adding that axis by a shape cast, dropping it again, and
  broadcasting along it each read ONE element of the operand: the element with the same leading coordinates (and
  coordinate 0 on the unit axis).  Stated for any extents, at ranks 1–4, over indices built by coordinates.
-/
import Idealize.ShloMosaic.Lib.Pipeline.Value
import Idealize.ShloMosaic.Lib.ValueIdx
import Idealize.ShloMosaic.Lib.ValueLayout

namespace Cert.Bridge.Layout

open Idealize.ShloMosaic Idealize.ShloMosaic.ValueIdx

variable {α : Type}

/-- An `[a, b, 1]` array broadcast to `[a, b, n]` reads, at `(i, j, k)`, the operand at `(i, j, 0)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, b, c, 1]` array broadcast to `[a, b, c, n]` reads, at `(i, j, k, l)`, the operand at `(i, j, k, 0)`. -/
theorem broadcastTo_abc1_abcn_apply {a b c n : ℕ} (v : (⟨4, ![a, b, c, 1]⟩ : Shape).Idx → α)
    (h : (⟨4, ![a, b, c, 1]⟩ : Shape).Broadcasts ⟨4, ![a, b, c, n]⟩) (i : Fin a) (j : Fin b) (k : Fin c) (l : Fin n) :
    broadcastTo ⟨4, ![a, b, c, n]⟩ v h (ix4 i j k l) = v (ix4 i j k (0 : Fin 1)) := by
  refine broadcastTo_apply v h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- An `[a, 1]` column broadcast to `[a, n]` reads, at `(i, j)`, the operand at `(i, 0)`. -/
theorem broadcastTo_a1_an_apply {a n : ℕ} (v : (⟨2, ![a, 1]⟩ : Shape).Idx → α)
    (h : (⟨2, ![a, 1]⟩ : Shape).Broadcasts ⟨2, ![a, n]⟩) (i : Fin a) (j : Fin n) :
    broadcastTo ⟨2, ![a, n]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, c]` array cast to `[a, b, c, 1]` reads, at `(i, j, k, u)`, the operand at `(i, j, k)`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

/-- An `[a, b, c, 1]` array cast to `[a, b, c]` reads, at `(i, j, k)`, the operand at `(i, j, k, 0)`. -/
theorem shapeCast_abc1_abc_apply {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- An `[a]` vector cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Bridge.Layout
-- ==== Proof.LibColReduce.lean ====
/-
  Reductions down the rows of a rank-2 array, read at a column, on the extended reals — for any extents [a, n]:
    * the index over column `i` whose row coordinate is `k` is `(k, i)`;
    * a vector sum down the rows at column `j` is Σ_k v(k, j);
    * a vector minimum down the rows at column `i` is the fold of `min` from the accumulator word's value over v(k, i);
    * the host's one-operand reduce with a minimum body down the rows is the same fold from its initial value;
  and a sum over a rank-1 index set is the sum over its one coordinate.
-/
import Idealize.ShloMosaic.Lib.ValueIdx
import Idealize.ShloMosaic.PureOps.Ideal.Laws
import Idealize.ShloMosaic.PureOps.Reduce

noncomputable section

open Idealize.ShloMosaic Idealize.ShloMosaic.ValueIdx

namespace Cert.Bridge.ColReduce

/-- A rank-1 index is its one coordinate. -/
def idxEquiv1 {n : ℕ} : (⟨1, ![n]⟩ : Shape).Idx ≃ Fin n where
  toFun j := j 0
  invFun a := ix1 a
  left_inv j := (eq_ix1 j).symm
  right_inv _ := rfl

/-- A sum over a rank-1 index set is the sum over its coordinate. -/
theorem sum_idx1 {M : Type*} [AddCommMonoid M] {n : ℕ} (f : (⟨1, ![n]⟩ : Shape).Idx → M) :
    ∑ j, f j = ∑ a : Fin n, f (ix1 a) :=
  (Equiv.sum_comp idxEquiv1.symm f).symm

/-- Over column `i`, the index with row coordinate `k` put back is `(k, i)`. -/
theorem lift_col {a n : ℕ} (h : (⟨2, ![a, n]⟩ : Shape).Reduces [0] ⟨1, ![n]⟩) (i : Fin n) (k : Fin a) :
    h.lift (ix1 i) k = ix2 k i :=
  funext fun ax => Fin.ext (by
    match ax with
    | ⟨0, _⟩ => rfl
    | ⟨1, _⟩ => rfl)

variable {φ : FTy}

/-- The sum down the rows, at column `j`. -/
theorem sumcol_apply {a n : ℕ} (v : FVec Ideal ⟨2, ![a, n]⟩ φ) (acc : BitVec φ.bits)
    (h : (⟨2, ![a, n]⟩ : Shape).Reduces [0] ⟨1, ![n]⟩)
    (hφ : FKind.Formats φ) (hacc : acc = FKind.add.neutral φ hφ) (j : Fin n) :
    multiReduction .add [0] ⟨1, ![n]⟩ v acc h hφ hacc (ix1 j) = ∑ k : Fin a, v (ix2 k j) := by
  refine (Ideal.multiReduction_add_single v acc h hφ hacc (ix1 j)).trans ?_
  exact Finset.sum_congr rfl fun k _ => congrArg v (lift_col h j k)

/-- The least value down the rows, at column `i`: the fold of `min` from the accumulator word's value. -/
theorem mincol_apply {a n : ℕ} (v : FVec Ideal ⟨2, ![a, n]⟩ φ) (acc : BitVec φ.bits)
    (h : (⟨2, ![a, n]⟩ : Shape).Reduces [0] ⟨1, ![n]⟩)
    (hφ : FKind.Formats φ) (hacc : acc = FKind.minimumf.neutral φ hφ) (i : Fin n) :
    multiReduction .minimumf [0] ⟨1, ![n]⟩ v acc h hφ hacc (ix1 i)
      = (Finset.univ : Finset (Fin a)).fold min (Ideal.ofBits φ acc) fun k => v (ix2 k i) := by
  refine (multiReduction_minimumf_eq_fold v acc h hφ hacc (ix1 i)).trans ?_
  refine (h.fold_filter_drop_single _ _ v (ix1 i)).trans ?_
  exact congrArg (fun f => (Finset.univ : Finset (Fin a)).fold min (Ideal.ofBits φ acc) f)
    (funext fun k => congrArg v (lift_col h i k))

/-- The host's reduce with a minimum body down the rows, at column `i`: the same fold from its initial value. -/
theorem hostMincol_apply {a n : ℕ} {u : Shape} (x : (⟨2, ![a, n]⟩ : Shape).Idx → Ideal φ) (init : u.Idx → Ideal φ)
    (h' : (⟨2, ![a, n]⟩ : Shape).ReducesTo [0] ⟨1, ![n]⟩) (h : (⟨2, ![a, n]⟩ : Shape).Reduces [0] ⟨1, ![n]⟩)
    (hu : 0 < u.numel) (i : Fin n) :
    Host.reduce (FloatOps.minimumf (F := Ideal) (φ := φ)) x init h' hu (ix1 i)
      = (Finset.univ : Finset (Fin a)).fold min (init (Shape.Idx.first hu)) fun k => x (ix2 k i) := by
  refine (Host.reduce_eq_fold_single FloatOps.minimumf x init h' h hu (ix1 i)).trans ?_
  exact congrArg (fun f => (Finset.univ : Finset (Fin a)).fold min (init (Shape.Idx.first hu)) f)
    (funext fun k => congrArg x (lift_col h i k))

end Cert.Bridge.ColReduce

end
-- ==== Proof.KIRead.lean ====
/-
  The kernel's value read entry by entry, at the extended reals.

  With h, d two [1024,300] matrices (the pair a trip carries) and the four weight matrices:
  * the centre row is half·(colsum h / n + colsum d / n) (`centreRow_apply`);
  * the matrix of pair weights is the distance matrix of the two matrices after subtracting the centre row from
    every row (`weights_apply`): row sums of squares placed along the rows and along the columns, minus twice the
    matrix of inner products, clamped at zero, square root;
  * one trip is one centred layer of the specification (`trip_fst`, `trip_snd`): the two products against the
    weights and the two against their transpose, combined with the weight matrices, then the leaky rectifier;
  * the loop runs three trips (`carried_eq`), and the output block is the centred distance matrix of what they
    leave (`outBlock_apply`);
  so entry (b, i, j) of the result array is `Cert.Gnn.outC` of batch b of the arguments (`G_apply`).
-/
import proofs.«103367_j33517924778635_2_alg».proof.Proof.KIValue
import proofs.«103367_j33517924778635_2_alg».proof.Proof.Spec
import proofs.«103367_j33517924778635_2_alg».proof.Proof.Arr
import proofs.«103367_j33517924778635_2_alg».proof.Proof.Consts
import proofs.«103367_j33517924778635_2_alg».proof.Proof.LibSplit
import proofs.«103367_j33517924778635_2_alg».proof.Proof.LibPaddedProduct
import proofs.«103367_j33517924778635_2_alg».proof.Proof.LibLayout
import proofs.«103367_j33517924778635_2_alg».proof.Proof.LibColReduce
import Idealize.ShloMosaic.Lib.ValueLayout
import Idealize.ShloMosaic.PureOps.Ideal.Laws

noncomputable section

namespace Cert.Proof.KI

open Cert.KernelIdeal Cert.KernelIdeal.Gen
open Idealize.ShloMosaic Idealize.ShloMosaic.ValueIdx
open Cert.Gnn (mat slab)
open scoped BigOperators

/-! ## Sums along one axis -/

theorem lift_row {a n : ℕ} (h : (⟨2, ![a, n]⟩ : Shape).Reduces [1] ⟨1, ![a]⟩) (i : Fin a) (k : Fin n) :
    h.lift (ix1 i) k = ix2 i k :=
  funext fun ax => Fin.ext (by
    match ax with
    | ⟨0, _⟩ => rfl
    | ⟨1, _⟩ => rfl)

/-- The sum along a row, at row i. -/
theorem sumrow_apply {φ : FTy} {a n : ℕ} (v : FVec Ideal ⟨2, ![a, n]⟩ φ) (acc : BitVec φ.bits)
    (h : (⟨2, ![a, n]⟩ : Shape).Reduces [1] ⟨1, ![a]⟩)
    (hφ : FKind.Formats φ) (hacc : acc = FKind.add.neutral φ hφ) (i : Fin a) :
    multiReduction .add [1] ⟨1, ![a]⟩ v acc h hφ hacc (ix1 i) = ∑ k : Fin n, v (ix2 i k) := by
  refine (Ideal.multiReduction_add_single v acc h hφ hacc (ix1 i)).trans ?_
  exact Finset.sum_congr rfl fun k _ => congrArg v (lift_row h i k)

/-! ## The centre row -/

/-- half · (column sums of h / n + column sums of d / n), as a [1,300] row. -/
def centreRow (h d : FVec Ideal S1024x300 .f32) : FVec Ideal S1x300 .f32 :=
  mulf (broadcast S1x300 (Scalar.ofBits .f32 0x3F000000#32))
    (addf
      (divf (shapeCast S1x300 (multiReduction .add [0] S300 h 0x00000000#32 reduces_S1024x300_S300 (.inl rfl) rfl) shapeCasts_S300_S1x300)
        (broadcast S1x300 (Scalar.ofBits .f32 0x44800000#32)))
      (divf (shapeCast S1x300 (multiReduction .add [0] S300 d 0x00000000#32 reduces_S1024x300_S300 (.inl rfl) rfl) shapeCasts_S300_S1x300)
        (broadcast S1x300 (Scalar.ofBits .f32 0x44800000#32))))

theorem pay12_eq (h d : FVec Ideal S1024x300 .f32) : k0_pay12 h d = centreRow h d := rfl

theorem colsum_apply (h : FVec Ideal S1024x300 .f32) (k : Fin 300) :
    shapeCast S1x300 (multiReduction .add [0] S300 h 0x00000000#32 reduces_S1024x300_S300 (.inl rfl) rfl) shapeCasts_S300_S1x300 (ix2 (0 : Fin 1) k)
      = ∑ i : Fin 1024, h (ix2 i k) :=
  (shapeCast_a_1a_apply _ _ (0 : Fin 1) k).trans (Cert.Bridge.ColReduce.sumcol_apply h _ _ _ _ k)

theorem centreRow_apply (h d : FVec Ideal S1024x300 .f32) (k : Fin 300) :
    centreRow h d (ix2 (0 : Fin 1) k)
      = Cert.Gnn.centre (Ideal.ofBits .f32 0x3F000000#32) (Ideal.ofBits .f32 0x44800000#32) (mat h) (mat d) k := by
  show Ideal.ofBits .f32 0x3F000000#32 * (Ideal.div (shapeCast S1x300 _ _ (ix2 (0 : Fin 1) k)) (Ideal.ofBits .f32 0x44800000#32)
      + Ideal.div (shapeCast S1x300 _ _ (ix2 (0 : Fin 1) k)) (Ideal.ofBits .f32 0x44800000#32)) = _
  rw [colsum_apply, colsum_apply]
  rfl

/-- A matrix with the centre row of (h, d) subtracted from every row. -/
def centred (c : FVec Ideal S1x300 .f32) (x : FVec Ideal S1024x300 .f32) : FVec Ideal S1024x300 .f32 :=
  subf x (broadcastTo S1024x300 c broadcasts_S1x300_S1024x300)

theorem centred_apply (c : FVec Ideal S1x300 .f32) (x : FVec Ideal S1024x300 .f32) (i : Fin 1024) (k : Fin 300) :
    centred c x (ix2 i k) = x (ix2 i k) - c (ix2 (0 : Fin 1) k) := by
  show x (ix2 i k) - broadcastTo S1024x300 c broadcasts_S1x300_S1024x300 (ix2 i k) = _
  rw [broadcastTo_1b_ab_apply]

theorem mat_centred (c : FVec Ideal S1x300 .f32) (x : FVec Ideal S1024x300 .f32) :
    mat (centred c x) = Cert.Gnn.shift (fun k => c (ix2 (0 : Fin 1) k)) (mat x) :=
  funext fun i => funext fun k => centred_apply c x i k

/-! ## The distance matrix of two matrices -/

/-- Row sums of squares, as a [1024,1] column. -/
def sqn (x : FVec Ideal S1024x300 .f32) : FVec Ideal S1024x1 .f32 :=
  shapeCast S1024x1 (multiReduction .add [1] S1024 (mulf x x) 0x00000000#32 reduces_S1024x300_S1024 (.inl rfl) rfl) shapeCasts_S1024_S1024x1

theorem sqn_apply (x : FVec Ideal S1024x300 .f32) (i : Fin 1024) :
    sqn x (ix2 i (0 : Fin 1)) = ∑ k : Fin 300, x (ix2 i k) * x (ix2 i k) :=
  (Cert.Bridge.Layout.shapeCast_a_a1_apply _ _ i (0 : Fin 1)).trans (sumrow_apply (mulf x x) _ _ _ _ i)

/-- The matrix of inner products of the rows. -/
def cross (hc dc : FVec Ideal S1024x300 .f32) : FVec Ideal S1024x1024 .f32 :=
  matmul dot_S1024x300_S1024x300_S1024x1024_1_1_0_0_n_n none (truncf .bf16 hc bitsLt_bf16_f32) (truncf .bf16 dc bitsLt_bf16_f32)
    (constant S1024x1024 .f32 0x00000000#32)

theorem cross_apply (hc dc : FVec Ideal S1024x300 .f32) (i j : Fin 1024) :
    cross hc dc (ix2 i j) = ∑ k : Fin 300, hc (ix2 i k) * dc (ix2 j k) :=
  Cert.BodyMath.matmul_zero_transposed_apply _ rfl (truncf .bf16 hc bitsLt_bf16_f32) (truncf .bf16 dc bitsLt_bf16_f32) i j

/-- √(max(‖hᵢ‖² + ‖dⱼ‖² − 2⟨hᵢ,dⱼ⟩, 0)) as a [1024,1024] matrix, in the body's arrangement. -/
def distMat (hc dc : FVec Ideal S1024x300 .f32) : FVec Ideal S1024x1024 .f32 :=
  sqrt (maximumf
    (subf
      (addf (broadcastTo S1024x1024 (sqn hc) broadcasts_S1024x1_S1024x1024)
        (broadcastTo S1024x1024 (transpose S1x1024 [1, 0] (sqn dc) transposes_S1024x1_p1_0_S1x1024) broadcasts_S1x1024_S1024x1024))
      (mulf (broadcast S1024x1024 (Scalar.ofBits .f32 0x40000000#32)) (cross hc dc)))
    (broadcast S1024x1024 (Scalar.ofBits .f32 0x00000000#32)))

theorem distMat_apply (hc dc : FVec Ideal S1024x300 .f32) (i j : Fin 1024) :
    distMat hc dc (ix2 i j) = Cert.Gnn.dist (mat hc) (mat dc) i j := by
  show Ideal.sqrt (max ((broadcastTo S1024x1024 (sqn hc) broadcasts_S1024x1_S1024x1024 (ix2 i j)
        + broadcastTo S1024x1024 (transpose S1x1024 [1, 0] (sqn dc) transposes_S1024x1_p1_0_S1x1024) broadcasts_S1x1024_S1024x1024 (ix2 i j))
      - Ideal.ofBits .f32 0x40000000#32 * cross hc dc (ix2 i j)) (Ideal.ofBits .f32 0x00000000#32)) = _
  rw [Cert.Bridge.Layout.broadcastTo_a1_an_apply, broadcastTo_1b_ab_apply, transpose_ix2_apply, sqn_apply, sqn_apply, cross_apply,
    Cert.Gnn.ofBits_two, Cert.Gnn.ofBits_zero]
  rfl

/-! ## The pair weights inside a trip -/

theorem pay2_eq (h d : FVec Ideal S1024x300 .f32) :
    k0_pay2 h d = truncf .bf16 (distMat (centred (centreRow h d) h) (centred (centreRow h d) d)) bitsLt_bf16_f32 := rfl

theorem centre_fun (h d : FVec Ideal S1024x300 .f32) :
    (fun k => centreRow h d (ix2 (0 : Fin 1) k))
      = Cert.Gnn.centre (Ideal.ofBits .f32 0x3F000000#32) (Ideal.ofBits .f32 0x44800000#32) (mat h) (mat d) :=
  funext (centreRow_apply h d)

/-- The distance matrix of the two matrices after centring, entry (i, j). -/
theorem centredDist_apply (h d : FVec Ideal S1024x300 .f32) (i j : Fin 1024) :
    distMat (centred (centreRow h d) h) (centred (centreRow h d) d) (ix2 i j)
      = Cert.Gnn.dist
          (Cert.Gnn.shift (Cert.Gnn.centre (Ideal.ofBits .f32 0x3F000000#32) (Ideal.ofBits .f32 0x44800000#32) (mat h) (mat d)) (mat h))
          (Cert.Gnn.shift (Cert.Gnn.centre (Ideal.ofBits .f32 0x3F000000#32) (Ideal.ofBits .f32 0x44800000#32) (mat h) (mat d)) (mat d)) i j := by
  rw [distMat_apply, mat_centred, mat_centred, centre_fun]

theorem weights_apply (h d : FVec Ideal S1024x300 .f32) (i j : Fin 1024) :
    k0_pay2 h d (ix2 i j)
      = Cert.Gnn.dist
          (Cert.Gnn.shift (Cert.Gnn.centre (Ideal.ofBits .f32 0x3F000000#32) (Ideal.ofBits .f32 0x44800000#32) (mat h) (mat d)) (mat h))
          (Cert.Gnn.shift (Cert.Gnn.centre (Ideal.ofBits .f32 0x3F000000#32) (Ideal.ofBits .f32 0x44800000#32) (mat h) (mat d)) (mat d)) i j := by
  rw [pay2_eq]
  exact centredDist_apply h d i j

theorem weightsT_apply (h d : FVec Ideal S1024x300 .f32) (i j : Fin 1024) :
    k0_pay3 h d (ix2 i j) = k0_pay2 h d (ix2 j i) :=
  transpose_ix2_apply (k0_pay2 h d) transposes_S1024x1024_p1_0_S1024x1024 i j

theorem pay4_apply (h : FVec Ideal S1024x300 .f32) (x : S1024x300.Idx) : k0_pay4 h x = h x := rfl
theorem pay5_apply (d : FVec Ideal S1024x300 .f32) (x : S1024x300.Idx) : k0_pay5 d x = d x := rfl

/-! ## One trip -/

/-- The update of the second matrix before the weights: sᵀ·h + s·d. -/
theorem pay6_apply (h d : FVec Ideal S1024x300 .f32) (i : Fin 1024) (k : Fin 300) :
    k0_pay6 h d (ix2 i k)
      = (∑ j : Fin 1024, k0_pay2 h d (ix2 j i) * h (ix2 j k)) + ∑ j : Fin 1024, k0_pay2 h d (ix2 i j) * d (ix2 j k) := by
  show matmul dot_S1024x1024_S1024x300_S1024x300_1_0_0_1_n_n none (k0_pay3 h d) (k0_pay4 h) (constant S1024x300 .f32 0x00000000#32) (ix2 i k)
      + matmul dot_S1024x1024_S1024x300_S1024x300_1_0_0_1_n_n none (k0_pay2 h d) (k0_pay5 d) (constant S1024x300 .f32 0x00000000#32) (ix2 i k) = _
  rw [Cert.Bridge.Split.matmul_zero_plain_apply dot_S1024x1024_S1024x300_S1024x300_1_0_0_1_n_n rfl,
    Cert.Bridge.Split.matmul_zero_plain_apply dot_S1024x1024_S1024x300_S1024x300_1_0_0_1_n_n rfl]
  simp only [weightsT_apply, pay4_apply, pay5_apply]

/-- The update of the first matrix times its weight: W1 ⊙ (s·h + sᵀ·d). -/
theorem pay7_apply (v0 : Vec Ideal S1024x300 .f32) (h d : FVec Ideal S1024x300 .f32) (i : Fin 1024) (k : Fin 300) :
    k0_pay7 v0 h d (ix2 i k)
      = v0 (ix2 i k) * ((∑ j : Fin 1024, k0_pay2 h d (ix2 i j) * h (ix2 j k)) + ∑ j : Fin 1024, k0_pay2 h d (ix2 j i) * d (ix2 j k)) := by
  show v0 (ix2 i k) * (matmul dot_S1024x1024_S1024x300_S1024x300_1_0_0_1_n_n none (k0_pay2 h d) (k0_pay4 h) (constant S1024x300 .f32 0x00000000#32) (ix2 i k)
      + matmul dot_S1024x1024_S1024x300_S1024x300_1_0_0_1_n_n none (k0_pay3 h d) (k0_pay5 d) (constant S1024x300 .f32 0x00000000#32) (ix2 i k)) = _
  rw [Cert.Bridge.Split.matmul_zero_plain_apply dot_S1024x1024_S1024x300_S1024x300_1_0_0_1_n_n rfl,
    Cert.Bridge.Split.matmul_zero_plain_apply dot_S1024x1024_S1024x300_S1024x300_1_0_0_1_n_n rfl]
  simp only [weightsT_apply, pay4_apply, pay5_apply]

/-- The leaky rectifier of (update + bias ⊙ matrix), entry by entry. -/
theorem pay10_apply (v2 : Vec Ideal S1024x300 .f32) (h v91 : FVec Ideal S1024x300 .f32) (x : S1024x300.Idx) :
    k0_pay10 v2 h v91 x = Cert.Gnn.lrelu (Ideal.ofBits .f32 0x3C23D70A#32) (v91 x + v2 x * h x) := by
  show Scalar.select (Ideal.cmp .oge (v91 x + v2 x * h x) (Ideal.ofBits .f32 0x00000000#32)) (v91 x + v2 x * h x)
      (Ideal.ofBits .f32 0x3C23D70A#32 * (v91 x + v2 x * h x)) = _
  rw [Cert.Gnn.ofBits_zero]
  rfl

theorem pay11_apply (v1 v3 : Vec Ideal S1024x300 .f32) (d v90 : FVec Ideal S1024x300 .f32) (x : S1024x300.Idx) :
    k0_pay11 v1 v3 d v90 x = Cert.Gnn.lrelu (Ideal.ofBits .f32 0x3C23D70A#32) (v1 x * v90 x + v3 x * d x) := by
  show Scalar.select (Ideal.cmp .oge (v1 x * v90 x + v3 x * d x) (Ideal.ofBits .f32 0x00000000#32)) (v1 x * v90 x + v3 x * d x)
      (Ideal.ofBits .f32 0x3C23D70A#32 * (v1 x * v90 x + v3 x * d x)) = _
  rw [Cert.Gnn.ofBits_zero]
  rfl

/-- One trip is one centred layer: the first matrix. -/
theorem trip_fst (v0 v1 v2 v3 : Vec Ideal S1024x300 .f32) (h d : FVec Ideal S1024x300 .f32) (t : Fin k0_t1_loop.trips) :
    mat (trip v0 v1 v2 v3 t (h, d)).1
      = (Cert.Gnn.layerC (Ideal.ofBits .f32 0x3F000000#32) (Ideal.ofBits .f32 0x44800000#32) (Ideal.ofBits .f32 0x3C23D70A#32)
          (mat v0) (mat v1) (mat v2) (mat v3) (mat h, mat d)).1 := by
  funext i k
  show k0_pay10 v2 h (k0_pay7 v0 h d) (ix2 i k) = _
  rw [pay10_apply, pay7_apply]
  simp only [weights_apply]
  rfl

/-- One trip is one centred layer: the second matrix. -/
theorem trip_snd (v0 v1 v2 v3 : Vec Ideal S1024x300 .f32) (h d : FVec Ideal S1024x300 .f32) (t : Fin k0_t1_loop.trips) :
    mat (trip v0 v1 v2 v3 t (h, d)).2
      = (Cert.Gnn.layerC (Ideal.ofBits .f32 0x3F000000#32) (Ideal.ofBits .f32 0x44800000#32) (Ideal.ofBits .f32 0x3C23D70A#32)
          (mat v0) (mat v1) (mat v2) (mat v3) (mat h, mat d)).2 := by
  funext i k
  show k0_pay11 v1 v3 d (k0_pay6 h d) (ix2 i k) = _
  rw [pay11_apply, pay6_apply]
  simp only [weights_apply]
  rfl

/-! ## The three trips -/

/-- A pair of matrices as a pair of entry functions. -/
def mats (p : FVec Ideal S1024x300 .f32 × FVec Ideal S1024x300 .f32) :
    (Fin 1024 → Fin 300 → EReal) × (Fin 1024 → Fin 300 → EReal) := (mat p.1, mat p.2)

theorem mats_trip (v0 v1 v2 v3 : Vec Ideal S1024x300 .f32) (t : Fin k0_t1_loop.trips)
    (p : FVec Ideal S1024x300 .f32 × FVec Ideal S1024x300 .f32) :
    mats (trip v0 v1 v2 v3 t p)
      = Cert.Gnn.layerC (Ideal.ofBits .f32 0x3F000000#32) (Ideal.ofBits .f32 0x44800000#32) (Ideal.ofBits .f32 0x3C23D70A#32)
          (mat v0) (mat v1) (mat v2) (mat v3) (mats p) := by
  obtain ⟨h, d⟩ := p
  exact Prod.ext (trip_fst v0 v1 v2 v3 h d t) (trip_snd v0 v1 v2 v3 h d t)

theorem mats_foldl (v0 v1 v2 v3 : Vec Ideal S1024x300 .f32) (l : List (Fin k0_t1_loop.trips))
    (p : FVec Ideal S1024x300 .f32 × FVec Ideal S1024x300 .f32) :
    mats (l.foldl (fun acc k => trip v0 v1 v2 v3 k acc) p)
      = (Cert.Gnn.layerC (Ideal.ofBits .f32 0x3F000000#32) (Ideal.ofBits .f32 0x44800000#32) (Ideal.ofBits .f32 0x3C23D70A#32)
          (mat v0) (mat v1) (mat v2) (mat v3))^[l.length] (mats p) := by
  induction l generalizing p with
  | nil => rfl
  | cons k l ih => rw [List.foldl_cons, ih, mats_trip, List.length_cons, Function.iterate_succ_apply]

/-- The loop has three trips. -/
theorem trips_eq : k0_t1_loop.trips = 3 := by decide

/-- A [1,1024,300] block as the matrix of its entries. -/
def blockMat (v : Vec Ideal S1x1024x300 .f32) : Fin 1024 → Fin 300 → EReal := fun i k => v (ix3 (0 : Fin 1) i k)

theorem mat_pay8 (v4 : Vec Ideal S1x1024x300 .f32) : mat (k0_pay8 v4) = blockMat v4 :=
  funext fun i => funext fun k => shapeCast_1ab_ab_apply v4 shapeCasts_S1x1024x300_S1024x300 i k

theorem mat_pay9 (v6 : Vec Ideal S1x1024x300 .f32) : mat (k0_pay9 v6) = blockMat v6 :=
  funext fun i => funext fun k => shapeCast_1ab_ab_apply v6 shapeCasts_S1x1024x300_S1024x300 i k

/-- What the loop leaves is three centred layers of the two embedding blocks. -/
theorem mats_carried (v0 v1 v2 v3 : Vec Ideal S1024x300 .f32) (v4 v6 : Vec Ideal S1x1024x300 .f32) :
    mats (carried v0 v1 v2 v3 v4 v6)
      = Cert.Gnn.layerC (Ideal.ofBits .f32 0x3F000000#32) (Ideal.ofBits .f32 0x44800000#32) (Ideal.ofBits .f32 0x3C23D70A#32) (mat v0) (mat v1) (mat v2) (mat v3)
          (Cert.Gnn.layerC (Ideal.ofBits .f32 0x3F000000#32) (Ideal.ofBits .f32 0x44800000#32) (Ideal.ofBits .f32 0x3C23D70A#32) (mat v0) (mat v1) (mat v2) (mat v3)
            (Cert.Gnn.layerC (Ideal.ofBits .f32 0x3F000000#32) (Ideal.ofBits .f32 0x44800000#32) (Ideal.ofBits .f32 0x3C23D70A#32) (mat v0) (mat v1) (mat v2) (mat v3)
              (blockMat v4, blockMat v6))) := by
  unfold carried
  rw [Scf.fold_eq, mats_foldl, List.length_finRange, trips_eq]
  show Cert.Gnn.layerC _ _ _ _ _ _ _ (Cert.Gnn.layerC _ _ _ _ _ _ _ (Cert.Gnn.layerC _ _ _ _ _ _ _ (mat (k0_pay8 v4), mat (k0_pay9 v6)))) = _
  rw [mat_pay8, mat_pay9]

/-! ## The output block and the result array -/

theorem outBlock_eq (v0 v1 v2 v3 : Vec Ideal S1024x300 .f32) (v4 v6 : Vec Ideal S1x1024x300 .f32) :
    outBlock v0 v1 v2 v3 v4 v6
      = shapeCast S1x1024x1024
          (distMat (centred (centreRow (carried v0 v1 v2 v3 v4 v6).1 (carried v0 v1 v2 v3 v4 v6).2) (carried v0 v1 v2 v3 v4 v6).1)
            (centred (centreRow (carried v0 v1 v2 v3 v4 v6).1 (carried v0 v1 v2 v3 v4 v6).2) (carried v0 v1 v2 v3 v4 v6).2))
          shapeCasts_S1024x1024_S1x1024x1024 := rfl

/-- Entry (0, i, j) of the output block: the centred distance after three centred layers. -/
theorem outBlock_apply (v0 v1 v2 v3 : Vec Ideal S1024x300 .f32) (v4 v6 : Vec Ideal S1x1024x300 .f32) (i j : Fin 1024) :
    outBlock v0 v1 v2 v3 v4 v6 (ix3 (0 : Fin 1) i j)
      = Cert.Gnn.outC (Ideal.ofBits .f32 0x3F000000#32) (Ideal.ofBits .f32 0x44800000#32) (Ideal.ofBits .f32 0x3C23D70A#32)
          (mat v0) (mat v1) (mat v2) (mat v3) (blockMat v4, blockMat v6) i j := by
  rw [outBlock_eq, shapeCast_ab_1ab_apply, centredDist_apply]
  have e := mats_carried v0 v1 v2 v3 v4 v6
  have e1 : mat (carried v0 v1 v2 v3 v4 v6).1 = _ := congrArg Prod.fst e
  have e2 : mat (carried v0 v1 v2 v3 v4 v6).2 = _ := congrArg Prod.snd e
  rw [e1, e2]
  rfl

theorem blockMat_slabBlk (A : FVec Ideal S16x1024x300 .f32) (b : Fin 16) : blockMat (slabBlk A b) = slab A b := rfl

theorem G_unfold (a0 a1 : FVec Ideal S16x1024x300 .f32) (a2 a3 a4 a5 : FVec Ideal S1024x300 .f32) (q : S16x1024x1024.Idx) :
    G (F := Ideal) a0 a1 a2 a3 a4 a5 q
      = outBlock (F := Ideal) a2 a3 a4 a5 (slabBlk (F := Ideal) a0 ⟨(q 0).val, (q 0).isLt⟩) (slabBlk (F := Ideal) a1 ⟨(q 0).val, (q 0).isLt⟩)
          (ix3 (0 : Fin 1) ⟨(q 1).val, (q 1).isLt⟩ ⟨(q 2).val, (q 2).isLt⟩) := rfl

/-- Entry q = (b, i, j) of the result array: three centred layers and the centred distances of batch b. -/
theorem G_apply (a0 a1 : FVec Ideal S16x1024x300 .f32) (a2 a3 a4 a5 : FVec Ideal S1024x300 .f32) (q : S16x1024x1024.Idx) :
    G (F := Ideal) a0 a1 a2 a3 a4 a5 q
      = Cert.Gnn.outC (Ideal.ofBits .f32 0x3F000000#32) (Ideal.ofBits .f32 0x44800000#32) (Ideal.ofBits .f32 0x3C23D70A#32)
          (mat a2) (mat a3) (mat a4) (mat a5)
          (slab a0 (⟨(q 0).val, (q 0).isLt⟩ : Fin 16), slab a1 (⟨(q 0).val, (q 0).isLt⟩ : Fin 16))
          (⟨(q 1).val, (q 1).isLt⟩ : Fin 1024) (⟨(q 2).val, (q 2).isLt⟩ : Fin 1024) := by
  rw [G_unfold, outBlock_apply, blockMat_slabBlk, blockMat_slabBlk]

end Cert.Proof.KI

end
-- ==== Proof.RefRunOps.lean ====
/-
  The reference program as one straight line of array operations.

  @main computes, three times over, a matrix of pairwise row distances and from it two affine
  updates, each passed through a leaky rectifier; then it computes the distances once more.  The two
  helper functions it calls only name sub-steps of the rectifier (the comparison with zero, the
  product with the slope, the choice between the two), so their bodies are written here at the place
  of each call, over the buffers that call owns: 149 operations of @main and 6 × 7 of the helpers.

  The line is cut where the program text is cut (after its 60th and 120th statement) and where a
  layer ends, which gives six consecutive pieces:

      layer 1 | head of layer 2 ‖ rest of layer 2 | head of layer 3 ‖ rest of layer 3 | last distances

  (‖ the cuts of the text, | the ends of layers).  Each third of the text is the concatenation of two
  pieces by unfolding, and sequencing distributes over concatenation, so @main is the whole line.
-/
import proofs.«103367_j33517924778635_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 1, whole: distances of the two inputs, the four batched products, the two affine updates, each rectified. -/
abbrev opsA : List (HloOp τ sig (Elt F)) :=
  [ binary main_arg0 main_arg0 main_v0 (mulf : (⟨S16x1024x300, .f32⟩ : BufTy).Contents (Elt F) → (⟨S16x1024x300, .f32⟩ : BufTy).Contents (Elt F) → (⟨S16x1024x300, .f32⟩ : BufTy).Contents (Elt F)),
    nullary main_cst (constant S_ .f32 0x00000000#32),
    binary main_v0 main_cst main_v1 ((fun x v => Host.reduceAdd x v reducesTo_S16x1024x300_S16x1024_d2 h_S_) : (⟨S16x1024x300, .f32⟩ : BufTy).Contents (Elt F) → (⟨S_, .f32⟩ : BufTy).Contents (Elt F) → (⟨S16x1024, .f32⟩ : BufTy).Contents (Elt F)),
    binary main_arg1 main_arg1 main_v2 (mulf : (⟨S16x1024x300, .f32⟩ : BufTy).Contents (Elt F) → (⟨S16x1024x300, .f32⟩ : BufTy).Contents (Elt F) → (⟨S16x1024x300, .f32⟩ : BufTy).Contents (Elt F)),
    nullary main_cst_0 (constant S_ .f32 0x00000000#32),
    binary main_v2 main_cst_0 main_v3 ((fun x v => Host.reduceAdd x v reducesTo_S16x1024x300_S16x1024_d2 h_S_) : (⟨S16x1024x300, .f32⟩ : BufTy).Contents (Elt F) → (⟨S_, .f32⟩ : BufTy).Contents (Elt F) → (⟨S16x1024, .f32⟩ : BufTy).Contents (Elt F)),
    binary main_arg0 main_arg1 main_v4 ((fun l r => Host.dotGeneral dot_S16x1024x300_S16x1024x300_S16x1024x1024_2_2_1_1_0_0 none l r) : (⟨S16x1024x300, .f32⟩ : BufTy).Contents (Elt F) → (⟨S16x1024x300, .f32⟩ : BufTy).Contents (Elt F) → (⟨S16x1024x1024, .f32⟩ : BufTy).Contents (Elt F)),
    unary main_v1 main_v5 (broadcastInDim S16x1024x1 ![0, 1] bcast_S16x1024_S16x1024x1_0_1 : (⟨S16x1024, .f32⟩ : BufTy).Contents (Elt F) → (⟨S16x1024x1, .f32⟩ : BufTy).Contents (Elt F)),
    unary main_v3 main_v6 (broadcastInDim S16x1x1024 ![0, 2] bcast_S16x1024_S16x1x1024_0_2 : (⟨S16x1024, .f32⟩ : BufTy).Contents (Elt F) → (⟨S16x1x1024, .f32⟩ : BufTy).Contents (Elt F)),
    unary main_v5 main_v7 (broadcastInDim S16x1024x1024 ![0, 1, 2] bcast_S16x1024x1_S16x1024x1024_0_1_2 : (⟨S16x1024x1, .f32⟩ : BufTy).Contents (Elt F) → (⟨S16x1024x1024, .f32⟩ : BufTy).Contents (Elt F)),
    unary main_v6 main_v8 (broadcastInDim S16x1024x1024 ![0, 1, 2] bcast_S16x1x1024_S16x1024x1024_0_1_2 : (⟨S16x1x1024, .f32⟩ : BufTy).Contents (Elt F) → (⟨S16x1024x1024, .f32⟩ : BufTy).Contents (Elt F)),
    binary main_v7 main_v8 main_v9 (addf : (⟨S16x1024x1024, .f32⟩ : BufTy).Contents (Elt F) → (⟨S16x1024x1024, .f32⟩ : BufTy).Contents (Elt F) → (⟨S16x1024x1024, .f32⟩ : BufTy).Contents (Elt F)),
    nullary main_cst_1 (constant S_ .f32 0x40000000#32),
    unary main_cst_1 main_v10 (broadcastInDim S16x1024x1024 ![] bcast_S_S16x1024x1024 : (⟨S_, .f32⟩ : BufTy).Contents (Elt F) → (⟨S16x1024x1024, .f32⟩ : BufTy).Contents (Elt F)),
    binary main_v10 main_v4 main_v11 (mulf : (⟨S16x1024x1024, .f32⟩ : BufTy).Contents (Elt F) → (⟨S16x1024x1024, .f32⟩ : BufTy).Contents (Elt F) → (⟨S16x1024x1024, .f32⟩ : BufTy).Contents (Elt F)),
    binary main_v9 main_v11 main_v12 (subf : (⟨S16x1024x1024, .f32⟩ : BufTy).Contents (Elt F) → (⟨S16x1024x1024, .f32⟩ : BufTy).Contents (Elt F) → (⟨S16x1024x1024, .f32⟩ : BufTy).Contents (Elt F)),
    nullary main_cst_2 (constant S_ .f32 0x00000000#32),
    unary main_cst_2 main_v13 (broadcastInDim S16x1024x1024 ![] bcast_S_S16x1024x1024 : (⟨S_, .f32⟩ : BufTy).Contents (Elt F) → (⟨S16x1024x1024, .f32⟩ : BufTy).Contents (Elt F)),
    binary main_v12 main_v13 main_v14 (maximumf : (⟨S16x1024x1024, .f32⟩ : BufTy).Contents (Elt F) → (⟨S16x1024x1024, .f32⟩ : BufTy).Contents (Elt F) → (⟨S16x1024x1024, .f32⟩ : BufTy).Contents (Elt F)),
    unary main_v14 main_v15 (Host.sqrt : (⟨S16x1024x1024, .f32⟩ : BufTy).Contents (Elt F) → (⟨S16x1024x1024, .f32⟩ : BufTy).Contents (Elt F)),
    unary main_v15 main_v16 ((transpose S16x1024x1024 [0, 2, 1] · transposes_S16x1024x1024_S16x1024x1024_0_2_1) : (⟨S16x1024x1024, .f32⟩ : BufTy).Contents (Elt F) → (⟨S16x1024x1024, .f32⟩ : BufTy).Contents (Elt F)),
    binary main_v15 main_arg0 main_v17 ((fun l r => Host.dotGeneral dot_S16x1024x1024_S16x1024x300_S16x1024x300_2_1_1_2_0_0 none l r) : (⟨S16x1024x1024, .f32⟩ : BufTy).Contents (Elt F) → (⟨S16x1024x300, .f32⟩ : BufTy).Contents (Elt F) → (⟨S16x1024x300, .f32⟩ : BufTy).Contents (Elt F)),
    binary main_v16 main_arg1 main_v18 ((fun l r => Host.dotGeneral dot_S16x1024x1024_S16x1024x300_S16x1024x300_2_1_1_2_0_0 none l r) : (⟨S16x1024x1024, .f32⟩ : BufTy).Contents (Elt F) → (⟨S16x1024x300, .f32⟩ : BufTy).Contents (Elt F) → (⟨S16x1024x300, .f32⟩ : BufTy).Contents (Elt F)),
    binary main_v17 main_v18 main_v19 (addf : (⟨S16x1024x300, .f32⟩ : BufTy).Contents (Elt F) → (⟨S16x1024x300, .f32⟩ : BufTy).Contents (Elt F) → (⟨S16x1024x300, .f32⟩ : BufTy).Contents (Elt F)),
    binary main_v16 main_arg0 main_v20 ((fun l r => Host.dotGeneral dot_S16x1024x1024_S16x1024x300_S16x1024x300_2_1_1_2_0_0 none l r) : (⟨S16x1024x1024, .f32⟩ : BufTy).Contents (Elt F) → (⟨S16x1024x300, .f32⟩ : BufTy).Contents (Elt F) → (⟨S16x1024x300, .f32⟩ : BufTy).Contents (Elt F)),
    binary main_v15 main_arg1 main_v21 ((fun l r => Host.dotGeneral dot_S16x1024x1024_S16x1024x300_S16x1024x300_2_1_1_2_0_0 none l r) : (⟨S16x1024x1024, .f32⟩ : BufTy).Contents (Elt F) → (⟨S16x1024x300, .f32⟩ : BufTy).Contents (Elt F) → (⟨S16x1024x300, .f32⟩ : BufTy).Contents (Elt F)),
    binary main_v20 main_v21 main_v22 (addf : (⟨S16x1024x300, .f32⟩ : BufTy).Contents (Elt F) → (⟨S16x1024x300, .f32⟩ : BufTy).Contents (Elt F) → (⟨S16x1024x300, .f32⟩ : BufTy).Contents (Elt F)),
    unary main_arg2 main_v23 (broadcastInDim S1x1024x300 ![1, 2] bcast_S1024x300_S1x1024x300_1_2 : (⟨S1024x300, .f32⟩ : BufTy).Contents (Elt F) → (⟨S1x1024x300, .f32⟩ : BufTy).Contents (Elt F)),
    unary main_v23 main_v24 (broadcastInDim S16x1024x300 ![0, 1, 2] bcast_S1x1024x300_S16x1024x300_0_1_2 : (⟨S1x1024x300, .f32⟩ : BufTy).Contents (Elt F) → (⟨S16x1024x300, .f32⟩ : BufTy).Contents (Elt F)),
    binary main_v24 main_v19 main_v25 (mulf : (⟨S16x1024x300, .f32⟩ : BufTy).Contents (Elt F) → (⟨S16x1024x300, .f32⟩ : BufTy).Contents (Elt F) → (⟨S16x1024x300, .f32⟩ : BufTy).Contents (Elt F)),
    unary main_arg4 main_v26 (broadcastInDim S1x1024x300 ![1, 2] bcast_S1024x300_S1x1024x300_1_2 : (⟨S1024x300, .f32⟩ : BufTy).Contents (Elt F) → (⟨S1x1024x300, .f32⟩ : BufTy).Contents (Elt F)),
    unary main_v26 main_v27 (broadcastInDim S16x1024x300 ![0, 1, 2] bcast_S1x1024x300_S16x1024x300_0_1_2 : (⟨S1x1024x300, .f32⟩ : BufTy).Contents (Elt F) → (⟨S16x1024x300, .f32⟩ : BufTy).Contents (Elt F)),
    binary main_v27 main_arg0 main_v28 (mulf : (⟨S16x1024x300, .f32⟩ : BufTy).Contents (Elt F) → (⟨S16x1024x300, .f32⟩ : BufTy).Contents (Elt F) → (⟨S16x1024x300, .f32⟩ : BufTy).Contents (Elt F)),
    binary main_v25 main_v28 main_v29 (addf : (⟨S16x1024x300, .f32⟩ : BufTy).Contents (Elt F) → (⟨S16x1024x300, .f32⟩ : BufTy).Contents (Elt F) → (⟨S16x1024x300, .f32⟩ : BufTy).Contents (Elt F)),
    nullary main_cst_3 (constant S_ .f32 0x3C23D70A#32),
    TRef.nullary main_call0.cst (constant S_ .f32 0x00000000#32),
    TRef.unary main_call0.cst main_call0.v0 (broadcastInDim S16x1024x300 ![] bcast_S_S16x1024x300),
    TRef.binary (.of main_v29 : TRef sig ⟨S16x1024x300, .f32⟩) main_call0.v0 main_call0.v1 (cmpf .oge),
    TRef.unary (.of main_cst_3 : TRef sig ⟨S_, .f32⟩) main_call0.v2 id,
    TRef.unary main_call0.v2 main_call0.v3 (broadcastInDim S16x1024x300 ![] bcast_S_S16x1024x300),
    TRef.binary main_call0.v3 (.of main_v29 : TRef sig ⟨S16x1024x300, .f32⟩) main_call0.v4 mulf,
    TRef.ternary main_call0.v1 (.of main_v29 : TRef sig ⟨S16x1024x300, .f32⟩) main_call0.v4 main_call0.call0.v0 select,
    unary main_arg3 main_v31 (broadcastInDim S1x1024x300 ![1, 2] bcast_S1024x300_S1x1024x300_1_2 : (⟨S1024x300, .f32⟩ : BufTy).Contents (Elt F) → (⟨S1x1024x300, .f32⟩ : BufTy).Contents (Elt F)),
    unary main_v31 main_v32 (broadcastInDim S16x1024x300 ![0, 1, 2] bcast_S1x1024x300_S16x1024x300_0_1_2 : (⟨S1x1024x300, .f32⟩ : BufTy).Contents (Elt F) → (⟨S16x1024x300, .f32⟩ : BufTy).Contents (Elt F)),
    binary main_v32 main_v22 main_v33 (mulf : (⟨S16x1024x300, .f32⟩ : BufTy).Contents (Elt F) → (⟨S16x1024x300, .f32⟩ : BufTy).Contents (Elt F) → (⟨S16x1024x300, .f32⟩ : BufTy).Contents (Elt F)),
    unary main_arg5 main_v34 (broadcastInDim S1x1024x300 ![1, 2] bcast_S1024x300_S1x1024x300_1_2 : (⟨S1024x300, .f32⟩ : BufTy).Contents (Elt F) → (⟨S1x1024x300, .f32⟩ : BufTy).Contents (Elt F)),
    unary main_v34 main_v35 (broadcastInDim S16x1024x300 ![0, 1, 2] bcast_S1x1024x300_S16x1024x300_0_1_2 : (⟨S1x1024x300, .f32⟩ : BufTy).Contents (Elt F) → (⟨S16x1024x300, .f32⟩ : BufTy).Contents (Elt F)),
    binary main_v35 main_arg1 main_v36 (mulf : (⟨S16x1024x300, .f32⟩ : BufTy).Contents (Elt F) → (⟨S16x1024x300, .f32⟩ : BufTy).Contents (Elt F) → (⟨S16x1024x300, .f32⟩ : BufTy).Contents (Elt F)),
    binary main_v33 main_v36 main_v37 (addf : (⟨S16x1024x300, .f32⟩ : BufTy).Contents (Elt F) → (⟨S16x1024x300, .f32⟩ : BufTy).Contents (Elt F) → (⟨S16x1024x300, .f32⟩ : BufTy).Contents (Elt F)),
    nullary main_cst_4 (constant S_ .f32 0x3C23D70A#32),
    TRef.nullary main_call1.cst (constant S_ .f32 0x00000000#32),
    TRef.unary main_call1.cst main_call1.v0 (broadcastInDim S16x1024x300 ![] bcast_S_S16x1024x300),
    TRef.binary (.of main_v37 : TRef sig ⟨S16x1024x300, .f32⟩) main_call1.v0 main_call1.v1 (cmpf .oge),
    TRef.unary (.of main_cst_4 : TRef sig ⟨S_, .f32⟩) main_call1.v2 id,
    TRef.unary main_call1.v2 main_call1.v3 (broadcastInDim S16x1024x300 ![] bcast_S_S16x1024x300),
    TRef.binary main_call1.v3 (.of main_v37 : TRef sig ⟨S16x1024x300, .f32⟩) main_call1.v4 mulf,
    TRef.ternary main_call1.v1 (.of main_v37 : TRef sig ⟨S16x1024x300, .f32⟩) main_call1.v4 main_call1.call0.v0 select ]

/-- Layer 2, first piece: squared norms and the inner products of layer 1's results, up to the doubled product. -/
abbrev opsB : List (HloOp τ sig (Elt F)) :=
  [ binary main_v30 main_v30 main_v39 (mulf : (⟨S16x1024x300, .f32⟩ : BufTy).Contents (Elt F) → (⟨S16x1024x300, .f32⟩ : BufTy).Contents (Elt F) → (⟨S16x1024x300, .f32⟩ : BufTy).Contents (Elt F)),
    nullary main_cst_5 (constant S_ .f32 0x00000000#32),
    binary main_v39 main_cst_5 main_v40 ((fun x v => Host.reduceAdd x v reducesTo_S16x1024x300_S16x1024_d2 h_S_) : (⟨S16x1024x300, .f32⟩ : BufTy).Contents (Elt F) → (⟨S_, .f32⟩ : BufTy).Contents (Elt F) → (⟨S16x1024, .f32⟩ : BufTy).Contents (Elt F)),
    binary main_v38 main_v38 main_v41 (mulf : (⟨S16x1024x300, .f32⟩ : BufTy).Contents (Elt F) → (⟨S16x1024x300, .f32⟩ : BufTy).Contents (Elt F) → (⟨S16x1024x300, .f32⟩ : BufTy).Contents (Elt F)),
    nullary main_cst_6 (constant S_ .f32 0x00000000#32),
    binary main_v41 main_cst_6 main_v42 ((fun x v => Host.reduceAdd x v reducesTo_S16x1024x300_S16x1024_d2 h_S_) : (⟨S16x1024x300, .f32⟩ : BufTy).Contents (Elt F) → (⟨S_, .f32⟩ : BufTy).Contents (Elt F) → (⟨S16x1024, .f32⟩ : BufTy).Contents (Elt F)),
    binary main_v30 main_v38 main_v43 ((fun l r => Host.dotGeneral dot_S16x1024x300_S16x1024x300_S16x1024x1024_2_2_1_1_0_0 none l r) : (⟨S16x1024x300, .f32⟩ : BufTy).Contents (Elt F) → (⟨S16x1024x300, .f32⟩ : BufTy).Contents (Elt F) → (⟨S16x1024x1024, .f32⟩ : BufTy).Contents (Elt F)),
    unary main_v40 main_v44 (broadcastInDim S16x1024x1 ![0, 1] bcast_S16x1024_S16x1024x1_0_1 : (⟨S16x1024, .f32⟩ : BufTy).Contents (Elt F) → (⟨S16x1024x1, .f32⟩ : BufTy).Contents (Elt F)),
    unary main_v42 main_v45 (broadcastInDim S16x1x1024 ![0, 2] bcast_S16x1024_S16x1x1024_0_2 : (⟨S16x1024, .f32⟩ : BufTy).Contents (Elt F) → (⟨S16x1x1024, .f32⟩ : BufTy).Contents (Elt F)),
    unary main_v44 main_v46 (broadcastInDim S16x1024x1024 ![0, 1, 2] bcast_S16x1024x1_S16x1024x1024_0_1_2 : (⟨S16x1024x1, .f32⟩ : BufTy).Contents (Elt F) → (⟨S16x1024x1024, .f32⟩ : BufTy).Contents (Elt F)),
    unary main_v45 main_v47 (broadcastInDim S16x1024x1024 ![0, 1, 2] bcast_S16x1x1024_S16x1024x1024_0_1_2 : (⟨S16x1x1024, .f32⟩ : BufTy).Contents (Elt F) → (⟨S16x1024x1024, .f32⟩ : BufTy).Contents (Elt F)),
    binary main_v46 main_v47 main_v48 (addf : (⟨S16x1024x1024, .f32⟩ : BufTy).Contents (Elt F) → (⟨S16x1024x1024, .f32⟩ : BufTy).Contents (Elt F) → (⟨S16x1024x1024, .f32⟩ : BufTy).Contents (Elt F)),
    nullary main_cst_7 (constant S_ .f32 0x40000000#32),
    unary main_cst_7 main_v49 (broadcastInDim S16x1024x1024 ![] bcast_S_S16x1024x1024 : (⟨S_, .f32⟩ : BufTy).Contents (Elt F) → (⟨S16x1024x1024, .f32⟩ : BufTy).Contents (Elt F)),
    binary main_v49 main_v43 main_v50 (mulf : (⟨S16x1024x1024, .f32⟩ : BufTy).Contents (Elt F) → (⟨S16x1024x1024, .f32⟩ : BufTy).Contents (Elt F) → (⟨S16x1024x1024, .f32⟩ : BufTy).Contents (Elt F)) ]

/-- Layer 2, the rest: the distances, the four batched products, the two affine updates, each rectified. -/
abbrev opsC : List (HloOp τ sig (Elt F)) :=
  [ binary main_v48 main_v50 main_v51 (subf : (⟨S16x1024x1024, .f32⟩ : BufTy).Contents (Elt F) → (⟨S16x1024x1024, .f32⟩ : BufTy).Contents (Elt F) → (⟨S16x1024x1024, .f32⟩ : BufTy).Contents (Elt F)),
    nullary main_cst_8 (constant S_ .f32 0x00000000#32),
    unary main_cst_8 main_v52 (broadcastInDim S16x1024x1024 ![] bcast_S_S16x1024x1024 : (⟨S_, .f32⟩ : BufTy).Contents (Elt F) → (⟨S16x1024x1024, .f32⟩ : BufTy).Contents (Elt F)),
    binary main_v51 main_v52 main_v53 (maximumf : (⟨S16x1024x1024, .f32⟩ : BufTy).Contents (Elt F) → (⟨S16x1024x1024, .f32⟩ : BufTy).Contents (Elt F) → (⟨S16x1024x1024, .f32⟩ : BufTy).Contents (Elt F)),
    unary main_v53 main_v54 (Host.sqrt : (⟨S16x1024x1024, .f32⟩ : BufTy).Contents (Elt F) → (⟨S16x1024x1024, .f32⟩ : BufTy).Contents (Elt F)),
    unary main_v54 main_v55 ((transpose S16x1024x1024 [0, 2, 1] · transposes_S16x1024x1024_S16x1024x1024_0_2_1) : (⟨S16x1024x1024, .f32⟩ : BufTy).Contents (Elt F) → (⟨S16x1024x1024, .f32⟩ : BufTy).Contents (Elt F)),
    binary main_v54 main_v30 main_v56 ((fun l r => Host.dotGeneral dot_S16x1024x1024_S16x1024x300_S16x1024x300_2_1_1_2_0_0 none l r) : (⟨S16x1024x1024, .f32⟩ : BufTy).Contents (Elt F) → (⟨S16x1024x300, .f32⟩ : BufTy).Contents (Elt F) → (⟨S16x1024x300, .f32⟩ : BufTy).Contents (Elt F)),
    binary main_v55 main_v38 main_v57 ((fun l r => Host.dotGeneral dot_S16x1024x1024_S16x1024x300_S16x1024x300_2_1_1_2_0_0 none l r) : (⟨S16x1024x1024, .f32⟩ : BufTy).Contents (Elt F) → (⟨S16x1024x300, .f32⟩ : BufTy).Contents (Elt F) → (⟨S16x1024x300, .f32⟩ : BufTy).Contents (Elt F)),
    binary main_v56 main_v57 main_v58 (addf : (⟨S16x1024x300, .f32⟩ : BufTy).Contents (Elt F) → (⟨S16x1024x300, .f32⟩ : BufTy).Contents (Elt F) → (⟨S16x1024x300, .f32⟩ : BufTy).Contents (Elt F)),
    binary main_v55 main_v30 main_v59 ((fun l r => Host.dotGeneral dot_S16x1024x1024_S16x1024x300_S16x1024x300_2_1_1_2_0_0 none l r) : (⟨S16x1024x1024, .f32⟩ : BufTy).Contents (Elt F) → (⟨S16x1024x300, .f32⟩ : BufTy).Contents (Elt F) → (⟨S16x1024x300, .f32⟩ : BufTy).Contents (Elt F)),
    binary main_v54 main_v38 main_v60 ((fun l r => Host.dotGeneral dot_S16x1024x1024_S16x1024x300_S16x1024x300_2_1_1_2_0_0 none l r) : (⟨S16x1024x1024, .f32⟩ : BufTy).Contents (Elt F) → (⟨S16x1024x300, .f32⟩ : BufTy).Contents (Elt F) → (⟨S16x1024x300, .f32⟩ : BufTy).Contents (Elt F)),
    binary main_v59 main_v60 main_v61 (addf : (⟨S16x1024x300, .f32⟩ : BufTy).Contents (Elt F) → (⟨S16x1024x300, .f32⟩ : BufTy).Contents (Elt F) → (⟨S16x1024x300, .f32⟩ : BufTy).Contents (Elt F)),
    unary main_arg2 main_v62 (broadcastInDim S1x1024x300 ![1, 2] bcast_S1024x300_S1x1024x300_1_2 : (⟨S1024x300, .f32⟩ : BufTy).Contents (Elt F) → (⟨S1x1024x300, .f32⟩ : BufTy).Contents (Elt F)),
    unary main_v62 main_v63 (broadcastInDim S16x1024x300 ![0, 1, 2] bcast_S1x1024x300_S16x1024x300_0_1_2 : (⟨S1x1024x300, .f32⟩ : BufTy).Contents (Elt F) → (⟨S16x1024x300, .f32⟩ : BufTy).Contents (Elt F)),
    binary main_v63 main_v58 main_v64 (mulf : (⟨S16x1024x300, .f32⟩ : BufTy).Contents (Elt F) → (⟨S16x1024x300, .f32⟩ : BufTy).Contents (Elt F) → (⟨S16x1024x300, .f32⟩ : BufTy).Contents (Elt F)),
    unary main_arg4 main_v65 (broadcastInDim S1x1024x300 ![1, 2] bcast_S1024x300_S1x1024x300_1_2 : (⟨S1024x300, .f32⟩ : BufTy).Contents (Elt F) → (⟨S1x1024x300, .f32⟩ : BufTy).Contents (Elt F)),
    unary main_v65 main_v66 (broadcastInDim S16x1024x300 ![0, 1, 2] bcast_S1x1024x300_S16x1024x300_0_1_2 : (⟨S1x1024x300, .f32⟩ : BufTy).Contents (Elt F) → (⟨S16x1024x300, .f32⟩ : BufTy).Contents (Elt F)),
    binary main_v66 main_v30 main_v67 (mulf : (⟨S16x1024x300, .f32⟩ : BufTy).Contents (Elt F) → (⟨S16x1024x300, .f32⟩ : BufTy).Contents (Elt F) → (⟨S16x1024x300, .f32⟩ : BufTy).Contents (Elt F)),
    binary main_v64 main_v67 main_v68 (addf : (⟨S16x1024x300, .f32⟩ : BufTy).Contents (Elt F) → (⟨S16x1024x300, .f32⟩ : BufTy).Contents (Elt F) → (⟨S16x1024x300, .f32⟩ : BufTy).Contents (Elt F)),
    nullary main_cst_9 (constant S_ .f32 0x3C23D70A#32),
    TRef.nullary main_call2.cst (constant S_ .f32 0x00000000#32),
    TRef.unary main_call2.cst main_call2.v0 (broadcastInDim S16x1024x300 ![] bcast_S_S16x1024x300),
    TRef.binary (.of main_v68 : TRef sig ⟨S16x1024x300, .f32⟩) main_call2.v0 main_call2.v1 (cmpf .oge),
    TRef.unary (.of main_cst_9 : TRef sig ⟨S_, .f32⟩) main_call2.v2 id,
    TRef.unary main_call2.v2 main_call2.v3 (broadcastInDim S16x1024x300 ![] bcast_S_S16x1024x300),
    TRef.binary main_call2.v3 (.of main_v68 : TRef sig ⟨S16x1024x300, .f32⟩) main_call2.v4 mulf,
    TRef.ternary main_call2.v1 (.of main_v68 : TRef sig ⟨S16x1024x300, .f32⟩) main_call2.v4 main_call2.call0.v0 select,
    unary main_arg3 main_v70 (broadcastInDim S1x1024x300 ![1, 2] bcast_S1024x300_S1x1024x300_1_2 : (⟨S1024x300, .f32⟩ : BufTy).Contents (Elt F) → (⟨S1x1024x300, .f32⟩ : BufTy).Contents (Elt F)),
    unary main_v70 main_v71 (broadcastInDim S16x1024x300 ![0, 1, 2] bcast_S1x1024x300_S16x1024x300_0_1_2 : (⟨S1x1024x300, .f32⟩ : BufTy).Contents (Elt F) → (⟨S16x1024x300, .f32⟩ : BufTy).Contents (Elt F)),
    binary main_v71 main_v61 main_v72 (mulf : (⟨S16x1024x300, .f32⟩ : BufTy).Contents (Elt F) → (⟨S16x1024x300, .f32⟩ : BufTy).Contents (Elt F) → (⟨S16x1024x300, .f32⟩ : BufTy).Contents (Elt F)),
    unary main_arg5 main_v73 (broadcastInDim S1x1024x300 ![1, 2] bcast_S1024x300_S1x1024x300_1_2 : (⟨S1024x300, .f32⟩ : BufTy).Contents (Elt F) → (⟨S1x1024x300, .f32⟩ : BufTy).Contents (Elt F)),
    unary main_v73 main_v74 (broadcastInDim S16x1024x300 ![0, 1, 2] bcast_S1x1024x300_S16x1024x300_0_1_2 : (⟨S1x1024x300, .f32⟩ : BufTy).Contents (Elt F) → (⟨S16x1024x300, .f32⟩ : BufTy).Contents (Elt F)),
    binary main_v74 main_v38 main_v75 (mulf : (⟨S16x1024x300, .f32⟩ : BufTy).Contents (Elt F) → (⟨S16x1024x300, .f32⟩ : BufTy).Contents (Elt F) → (⟨S16x1024x300, .f32⟩ : BufTy).Contents (Elt F)),
    binary main_v72 main_v75 main_v76 (addf : (⟨S16x1024x300, .f32⟩ : BufTy).Contents (Elt F) → (⟨S16x1024x300, .f32⟩ : BufTy).Contents (Elt F) → (⟨S16x1024x300, .f32⟩ : BufTy).Contents (Elt F)),
    nullary main_cst_10 (constant S_ .f32 0x3C23D70A#32),
    TRef.nullary main_call3.cst (constant S_ .f32 0x00000000#32),
    TRef.unary main_call3.cst main_call3.v0 (broadcastInDim S16x1024x300 ![] bcast_S_S16x1024x300),
    TRef.binary (.of main_v76 : TRef sig ⟨S16x1024x300, .f32⟩) main_call3.v0 main_call3.v1 (cmpf .oge),
    TRef.unary (.of main_cst_10 : TRef sig ⟨S_, .f32⟩) main_call3.v2 id,
    TRef.unary main_call3.v2 main_call3.v3 (broadcastInDim S16x1024x300 ![] bcast_S_S16x1024x300),
    TRef.binary main_call3.v3 (.of main_v76 : TRef sig ⟨S16x1024x300, .f32⟩) main_call3.v4 mulf,
    TRef.ternary main_call3.v1 (.of main_v76 : TRef sig ⟨S16x1024x300, .f32⟩) main_call3.v4 main_call3.call0.v0 select ]

/-- Layer 3, first piece: the distances of layer 2's results, the batched products, and the first weighted sum. -/
abbrev opsD : List (HloOp τ sig (Elt F)) :=
  [ binary main_v69 main_v69 main_v78 (mulf : (⟨S16x1024x300, .f32⟩ : BufTy).Contents (Elt F) → (⟨S16x1024x300, .f32⟩ : BufTy).Contents (Elt F) → (⟨S16x1024x300, .f32⟩ : BufTy).Contents (Elt F)),
    nullary main_cst_11 (constant S_ .f32 0x00000000#32),
    binary main_v78 main_cst_11 main_v79 ((fun x v => Host.reduceAdd x v reducesTo_S16x1024x300_S16x1024_d2 h_S_) : (⟨S16x1024x300, .f32⟩ : BufTy).Contents (Elt F) → (⟨S_, .f32⟩ : BufTy).Contents (Elt F) → (⟨S16x1024, .f32⟩ : BufTy).Contents (Elt F)),
    binary main_v77 main_v77 main_v80 (mulf : (⟨S16x1024x300, .f32⟩ : BufTy).Contents (Elt F) → (⟨S16x1024x300, .f32⟩ : BufTy).Contents (Elt F) → (⟨S16x1024x300, .f32⟩ : BufTy).Contents (Elt F)),
    nullary main_cst_12 (constant S_ .f32 0x00000000#32),
    binary main_v80 main_cst_12 main_v81 ((fun x v => Host.reduceAdd x v reducesTo_S16x1024x300_S16x1024_d2 h_S_) : (⟨S16x1024x300, .f32⟩ : BufTy).Contents (Elt F) → (⟨S_, .f32⟩ : BufTy).Contents (Elt F) → (⟨S16x1024, .f32⟩ : BufTy).Contents (Elt F)),
    binary main_v69 main_v77 main_v82 ((fun l r => Host.dotGeneral dot_S16x1024x300_S16x1024x300_S16x1024x1024_2_2_1_1_0_0 none l r) : (⟨S16x1024x300, .f32⟩ : BufTy).Contents (Elt F) → (⟨S16x1024x300, .f32⟩ : BufTy).Contents (Elt F) → (⟨S16x1024x1024, .f32⟩ : BufTy).Contents (Elt F)),
    unary main_v79 main_v83 (broadcastInDim S16x1024x1 ![0, 1] bcast_S16x1024_S16x1024x1_0_1 : (⟨S16x1024, .f32⟩ : BufTy).Contents (Elt F) → (⟨S16x1024x1, .f32⟩ : BufTy).Contents (Elt F)),
    unary main_v81 main_v84 (broadcastInDim S16x1x1024 ![0, 2] bcast_S16x1024_S16x1x1024_0_2 : (⟨S16x1024, .f32⟩ : BufTy).Contents (Elt F) → (⟨S16x1x1024, .f32⟩ : BufTy).Contents (Elt F)),
    unary main_v83 main_v85 (broadcastInDim S16x1024x1024 ![0, 1, 2] bcast_S16x1024x1_S16x1024x1024_0_1_2 : (⟨S16x1024x1, .f32⟩ : BufTy).Contents (Elt F) → (⟨S16x1024x1024, .f32⟩ : BufTy).Contents (Elt F)),
    unary main_v84 main_v86 (broadcastInDim S16x1024x1024 ![0, 1, 2] bcast_S16x1x1024_S16x1024x1024_0_1_2 : (⟨S16x1x1024, .f32⟩ : BufTy).Contents (Elt F) → (⟨S16x1024x1024, .f32⟩ : BufTy).Contents (Elt F)),
    binary main_v85 main_v86 main_v87 (addf : (⟨S16x1024x1024, .f32⟩ : BufTy).Contents (Elt F) → (⟨S16x1024x1024, .f32⟩ : BufTy).Contents (Elt F) → (⟨S16x1024x1024, .f32⟩ : BufTy).Contents (Elt F)),
    nullary main_cst_13 (constant S_ .f32 0x40000000#32),
    unary main_cst_13 main_v88 (broadcastInDim S16x1024x1024 ![] bcast_S_S16x1024x1024 : (⟨S_, .f32⟩ : BufTy).Contents (Elt F) → (⟨S16x1024x1024, .f32⟩ : BufTy).Contents (Elt F)),
    binary main_v88 main_v82 main_v89 (mulf : (⟨S16x1024x1024, .f32⟩ : BufTy).Contents (Elt F) → (⟨S16x1024x1024, .f32⟩ : BufTy).Contents (Elt F) → (⟨S16x1024x1024, .f32⟩ : BufTy).Contents (Elt F)),
    binary main_v87 main_v89 main_v90 (subf : (⟨S16x1024x1024, .f32⟩ : BufTy).Contents (Elt F) → (⟨S16x1024x1024, .f32⟩ : BufTy).Contents (Elt F) → (⟨S16x1024x1024, .f32⟩ : BufTy).Contents (Elt F)),
    nullary main_cst_14 (constant S_ .f32 0x00000000#32),
    unary main_cst_14 main_v91 (broadcastInDim S16x1024x1024 ![] bcast_S_S16x1024x1024 : (⟨S_, .f32⟩ : BufTy).Contents (Elt F) → (⟨S16x1024x1024, .f32⟩ : BufTy).Contents (Elt F)),
    binary main_v90 main_v91 main_v92 (maximumf : (⟨S16x1024x1024, .f32⟩ : BufTy).Contents (Elt F) → (⟨S16x1024x1024, .f32⟩ : BufTy).Contents (Elt F) → (⟨S16x1024x1024, .f32⟩ : BufTy).Contents (Elt F)),
    unary main_v92 main_v93 (Host.sqrt : (⟨S16x1024x1024, .f32⟩ : BufTy).Contents (Elt F) → (⟨S16x1024x1024, .f32⟩ : BufTy).Contents (Elt F)),
    unary main_v93 main_v94 ((transpose S16x1024x1024 [0, 2, 1] · transposes_S16x1024x1024_S16x1024x1024_0_2_1) : (⟨S16x1024x1024, .f32⟩ : BufTy).Contents (Elt F) → (⟨S16x1024x1024, .f32⟩ : BufTy).Contents (Elt F)),
    binary main_v93 main_v69 main_v95 ((fun l r => Host.dotGeneral dot_S16x1024x1024_S16x1024x300_S16x1024x300_2_1_1_2_0_0 none l r) : (⟨S16x1024x1024, .f32⟩ : BufTy).Contents (Elt F) → (⟨S16x1024x300, .f32⟩ : BufTy).Contents (Elt F) → (⟨S16x1024x300, .f32⟩ : BufTy).Contents (Elt F)),
    binary main_v94 main_v77 main_v96 ((fun l r => Host.dotGeneral dot_S16x1024x1024_S16x1024x300_S16x1024x300_2_1_1_2_0_0 none l r) : (⟨S16x1024x1024, .f32⟩ : BufTy).Contents (Elt F) → (⟨S16x1024x300, .f32⟩ : BufTy).Contents (Elt F) → (⟨S16x1024x300, .f32⟩ : BufTy).Contents (Elt F)),
    binary main_v95 main_v96 main_v97 (addf : (⟨S16x1024x300, .f32⟩ : BufTy).Contents (Elt F) → (⟨S16x1024x300, .f32⟩ : BufTy).Contents (Elt F) → (⟨S16x1024x300, .f32⟩ : BufTy).Contents (Elt F)),
    binary main_v94 main_v69 main_v98 ((fun l r => Host.dotGeneral dot_S16x1024x1024_S16x1024x300_S16x1024x300_2_1_1_2_0_0 none l r) : (⟨S16x1024x1024, .f32⟩ : BufTy).Contents (Elt F) → (⟨S16x1024x300, .f32⟩ : BufTy).Contents (Elt F) → (⟨S16x1024x300, .f32⟩ : BufTy).Contents (Elt F)),
    binary main_v93 main_v77 main_v99 ((fun l r => Host.dotGeneral dot_S16x1024x1024_S16x1024x300_S16x1024x300_2_1_1_2_0_0 none l r) : (⟨S16x1024x1024, .f32⟩ : BufTy).Contents (Elt F) → (⟨S16x1024x300, .f32⟩ : BufTy).Contents (Elt F) → (⟨S16x1024x300, .f32⟩ : BufTy).Contents (Elt F)),
    binary main_v98 main_v99 main_v100 (addf : (⟨S16x1024x300, .f32⟩ : BufTy).Contents (Elt F) → (⟨S16x1024x300, .f32⟩ : BufTy).Contents (Elt F) → (⟨S16x1024x300, .f32⟩ : BufTy).Contents (Elt F)),
    unary main_arg2 main_v101 (broadcastInDim S1x1024x300 ![1, 2] bcast_S1024x300_S1x1024x300_1_2 : (⟨S1024x300, .f32⟩ : BufTy).Contents (Elt F) → (⟨S1x1024x300, .f32⟩ : BufTy).Contents (Elt F)),
    unary main_v101 main_v102 (broadcastInDim S16x1024x300 ![0, 1, 2] bcast_S1x1024x300_S16x1024x300_0_1_2 : (⟨S1x1024x300, .f32⟩ : BufTy).Contents (Elt F) → (⟨S16x1024x300, .f32⟩ : BufTy).Contents (Elt F)),
    binary main_v102 main_v97 main_v103 (mulf : (⟨S16x1024x300, .f32⟩ : BufTy).Contents (Elt F) → (⟨S16x1024x300, .f32⟩ : BufTy).Contents (Elt F) → (⟨S16x1024x300, .f32⟩ : BufTy).Contents (Elt F)) ]

/-- Layer 3, the rest: the two affine updates, each rectified. -/
abbrev opsE : List (HloOp τ sig (Elt F)) :=
  [ unary main_arg4 main_v104 (broadcastInDim S1x1024x300 ![1, 2] bcast_S1024x300_S1x1024x300_1_2 : (⟨S1024x300, .f32⟩ : BufTy).Contents (Elt F) → (⟨S1x1024x300, .f32⟩ : BufTy).Contents (Elt F)),
    unary main_v104 main_v105 (broadcastInDim S16x1024x300 ![0, 1, 2] bcast_S1x1024x300_S16x1024x300_0_1_2 : (⟨S1x1024x300, .f32⟩ : BufTy).Contents (Elt F) → (⟨S16x1024x300, .f32⟩ : BufTy).Contents (Elt F)),
    binary main_v105 main_v69 main_v106 (mulf : (⟨S16x1024x300, .f32⟩ : BufTy).Contents (Elt F) → (⟨S16x1024x300, .f32⟩ : BufTy).Contents (Elt F) → (⟨S16x1024x300, .f32⟩ : BufTy).Contents (Elt F)),
    binary main_v103 main_v106 main_v107 (addf : (⟨S16x1024x300, .f32⟩ : BufTy).Contents (Elt F) → (⟨S16x1024x300, .f32⟩ : BufTy).Contents (Elt F) → (⟨S16x1024x300, .f32⟩ : BufTy).Contents (Elt F)),
    nullary main_cst_15 (constant S_ .f32 0x3C23D70A#32),
    TRef.nullary main_call4.cst (constant S_ .f32 0x00000000#32),
    TRef.unary main_call4.cst main_call4.v0 (broadcastInDim S16x1024x300 ![] bcast_S_S16x1024x300),
    TRef.binary (.of main_v107 : TRef sig ⟨S16x1024x300, .f32⟩) main_call4.v0 main_call4.v1 (cmpf .oge),
    TRef.unary (.of main_cst_15 : TRef sig ⟨S_, .f32⟩) main_call4.v2 id,
    TRef.unary main_call4.v2 main_call4.v3 (broadcastInDim S16x1024x300 ![] bcast_S_S16x1024x300),
    TRef.binary main_call4.v3 (.of main_v107 : TRef sig ⟨S16x1024x300, .f32⟩) main_call4.v4 mulf,
    TRef.ternary main_call4.v1 (.of main_v107 : TRef sig ⟨S16x1024x300, .f32⟩) main_call4.v4 main_call4.call0.v0 select,
    unary main_arg3 main_v109 (broadcastInDim S1x1024x300 ![1, 2] bcast_S1024x300_S1x1024x300_1_2 : (⟨S1024x300, .f32⟩ : BufTy).Contents (Elt F) → (⟨S1x1024x300, .f32⟩ : BufTy).Contents (Elt F)),
    unary main_v109 main_v110 (broadcastInDim S16x1024x300 ![0, 1, 2] bcast_S1x1024x300_S16x1024x300_0_1_2 : (⟨S1x1024x300, .f32⟩ : BufTy).Contents (Elt F) → (⟨S16x1024x300, .f32⟩ : BufTy).Contents (Elt F)),
    binary main_v110 main_v100 main_v111 (mulf : (⟨S16x1024x300, .f32⟩ : BufTy).Contents (Elt F) → (⟨S16x1024x300, .f32⟩ : BufTy).Contents (Elt F) → (⟨S16x1024x300, .f32⟩ : BufTy).Contents (Elt F)),
    unary main_arg5 main_v112 (broadcastInDim S1x1024x300 ![1, 2] bcast_S1024x300_S1x1024x300_1_2 : (⟨S1024x300, .f32⟩ : BufTy).Contents (Elt F) → (⟨S1x1024x300, .f32⟩ : BufTy).Contents (Elt F)),
    unary main_v112 main_v113 (broadcastInDim S16x1024x300 ![0, 1, 2] bcast_S1x1024x300_S16x1024x300_0_1_2 : (⟨S1x1024x300, .f32⟩ : BufTy).Contents (Elt F) → (⟨S16x1024x300, .f32⟩ : BufTy).Contents (Elt F)),
    binary main_v113 main_v77 main_v114 (mulf : (⟨S16x1024x300, .f32⟩ : BufTy).Contents (Elt F) → (⟨S16x1024x300, .f32⟩ : BufTy).Contents (Elt F) → (⟨S16x1024x300, .f32⟩ : BufTy).Contents (Elt F)),
    binary main_v111 main_v114 main_v115 (addf : (⟨S16x1024x300, .f32⟩ : BufTy).Contents (Elt F) → (⟨S16x1024x300, .f32⟩ : BufTy).Contents (Elt F) → (⟨S16x1024x300, .f32⟩ : BufTy).Contents (Elt F)),
    nullary main_cst_16 (constant S_ .f32 0x3C23D70A#32),
    TRef.nullary main_call5.cst (constant S_ .f32 0x00000000#32),
    TRef.unary main_call5.cst main_call5.v0 (broadcastInDim S16x1024x300 ![] bcast_S_S16x1024x300),
    TRef.binary (.of main_v115 : TRef sig ⟨S16x1024x300, .f32⟩) main_call5.v0 main_call5.v1 (cmpf .oge),
    TRef.unary (.of main_cst_16 : TRef sig ⟨S_, .f32⟩) main_call5.v2 id,
    TRef.unary main_call5.v2 main_call5.v3 (broadcastInDim S16x1024x300 ![] bcast_S_S16x1024x300),
    TRef.binary main_call5.v3 (.of main_v115 : TRef sig ⟨S16x1024x300, .f32⟩) main_call5.v4 mulf,
    TRef.ternary main_call5.v1 (.of main_v115 : TRef sig ⟨S16x1024x300, .f32⟩) main_call5.v4 main_call5.call0.v0 select ]

/-- The closing distances of layer 3's two results. -/
abbrev opsF : List (HloOp τ sig (Elt F)) :=
  [ binary main_v108 main_v108 main_v117 (mulf : (⟨S16x1024x300, .f32⟩ : BufTy).Contents (Elt F) → (⟨S16x1024x300, .f32⟩ : BufTy).Contents (Elt F) → (⟨S16x1024x300, .f32⟩ : BufTy).Contents (Elt F)),
    nullary main_cst_17 (constant S_ .f32 0x00000000#32),
    binary main_v117 main_cst_17 main_v118 ((fun x v => Host.reduceAdd x v reducesTo_S16x1024x300_S16x1024_d2 h_S_) : (⟨S16x1024x300, .f32⟩ : BufTy).Contents (Elt F) → (⟨S_, .f32⟩ : BufTy).Contents (Elt F) → (⟨S16x1024, .f32⟩ : BufTy).Contents (Elt F)),
    binary main_v116 main_v116 main_v119 (mulf : (⟨S16x1024x300, .f32⟩ : BufTy).Contents (Elt F) → (⟨S16x1024x300, .f32⟩ : BufTy).Contents (Elt F) → (⟨S16x1024x300, .f32⟩ : BufTy).Contents (Elt F)),
    nullary main_cst_18 (constant S_ .f32 0x00000000#32),
    binary main_v119 main_cst_18 main_v120 ((fun x v => Host.reduceAdd x v reducesTo_S16x1024x300_S16x1024_d2 h_S_) : (⟨S16x1024x300, .f32⟩ : BufTy).Contents (Elt F) → (⟨S_, .f32⟩ : BufTy).Contents (Elt F) → (⟨S16x1024, .f32⟩ : BufTy).Contents (Elt F)),
    binary main_v108 main_v116 main_v121 ((fun l r => Host.dotGeneral dot_S16x1024x300_S16x1024x300_S16x1024x1024_2_2_1_1_0_0 none l r) : (⟨S16x1024x300, .f32⟩ : BufTy).Contents (Elt F) → (⟨S16x1024x300, .f32⟩ : BufTy).Contents (Elt F) → (⟨S16x1024x1024, .f32⟩ : BufTy).Contents (Elt F)),
    unary main_v118 main_v122 (broadcastInDim S16x1024x1 ![0, 1] bcast_S16x1024_S16x1024x1_0_1 : (⟨S16x1024, .f32⟩ : BufTy).Contents (Elt F) → (⟨S16x1024x1, .f32⟩ : BufTy).Contents (Elt F)),
    unary main_v120 main_v123 (broadcastInDim S16x1x1024 ![0, 2] bcast_S16x1024_S16x1x1024_0_2 : (⟨S16x1024, .f32⟩ : BufTy).Contents (Elt F) → (⟨S16x1x1024, .f32⟩ : BufTy).Contents (Elt F)),
    unary main_v122 main_v124 (broadcastInDim S16x1024x1024 ![0, 1, 2] bcast_S16x1024x1_S16x1024x1024_0_1_2 : (⟨S16x1024x1, .f32⟩ : BufTy).Contents (Elt F) → (⟨S16x1024x1024, .f32⟩ : BufTy).Contents (Elt F)),
    unary main_v123 main_v125 (broadcastInDim S16x1024x1024 ![0, 1, 2] bcast_S16x1x1024_S16x1024x1024_0_1_2 : (⟨S16x1x1024, .f32⟩ : BufTy).Contents (Elt F) → (⟨S16x1024x1024, .f32⟩ : BufTy).Contents (Elt F)),
    binary main_v124 main_v125 main_v126 (addf : (⟨S16x1024x1024, .f32⟩ : BufTy).Contents (Elt F) → (⟨S16x1024x1024, .f32⟩ : BufTy).Contents (Elt F) → (⟨S16x1024x1024, .f32⟩ : BufTy).Contents (Elt F)),
    nullary main_cst_19 (constant S_ .f32 0x40000000#32),
    unary main_cst_19 main_v127 (broadcastInDim S16x1024x1024 ![] bcast_S_S16x1024x1024 : (⟨S_, .f32⟩ : BufTy).Contents (Elt F) → (⟨S16x1024x1024, .f32⟩ : BufTy).Contents (Elt F)),
    binary main_v127 main_v121 main_v128 (mulf : (⟨S16x1024x1024, .f32⟩ : BufTy).Contents (Elt F) → (⟨S16x1024x1024, .f32⟩ : BufTy).Contents (Elt F) → (⟨S16x1024x1024, .f32⟩ : BufTy).Contents (Elt F)),
    binary main_v126 main_v128 main_v129 (subf : (⟨S16x1024x1024, .f32⟩ : BufTy).Contents (Elt F) → (⟨S16x1024x1024, .f32⟩ : BufTy).Contents (Elt F) → (⟨S16x1024x1024, .f32⟩ : BufTy).Contents (Elt F)),
    nullary main_cst_20 (constant S_ .f32 0x00000000#32),
    unary main_cst_20 main_v130 (broadcastInDim S16x1024x1024 ![] bcast_S_S16x1024x1024 : (⟨S_, .f32⟩ : BufTy).Contents (Elt F) → (⟨S16x1024x1024, .f32⟩ : BufTy).Contents (Elt F)),
    binary main_v129 main_v130 main_v131 (maximumf : (⟨S16x1024x1024, .f32⟩ : BufTy).Contents (Elt F) → (⟨S16x1024x1024, .f32⟩ : BufTy).Contents (Elt F) → (⟨S16x1024x1024, .f32⟩ : BufTy).Contents (Elt F)),
    unary main_v131 main_v132 (Host.sqrt : (⟨S16x1024x1024, .f32⟩ : BufTy).Contents (Elt F) → (⟨S16x1024x1024, .f32⟩ : BufTy).Contents (Elt F)) ]

/-- The whole line: the six pieces in order, 191 operations. -/
abbrev ops : List (HloOp τ sig (Elt F)) :=
  opsA ++ (opsB ++ (opsC ++ (opsD ++ (opsE ++ opsF))))

set_option maxRecDepth 8192 in
set_option maxHeartbeats 4000000 in
theorem main_part0_eq (c : Dev nD) : main_part0 (F := F) c = seq (opsA ++ opsB) := rfl
set_option maxRecDepth 8192 in
set_option maxHeartbeats 4000000 in
theorem main_part1_eq (c : Dev nD) : main_part1 (F := F) c = seq (opsC ++ opsD) := rfl
set_option maxRecDepth 8192 in
set_option maxHeartbeats 4000000 in
theorem main_part2_eq (c : Dev nD) : main_part2 (F := F) c = seq (opsE ++ opsF) := rfl

theorem ops_assoc : (ops : List (HloOp τ sig (Elt F))) = (opsA ++ opsB) ++ ((opsC ++ opsD) ++ (opsE ++ opsF)) := by
  simp only [ops, List.append_assoc]

set_option maxRecDepth 8192 in
theorem main_eq (c : Dev nD) : main (F := F) c = seq ops := by
  rw [ops_assoc, seq_append (opsA ++ opsB), seq_append (opsC ++ opsD), ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨binary_bufs_sub .., nullary_bufs_sub .., binary_bufs_sub .., binary_bufs_sub .., nullary_bufs_sub .., binary_bufs_sub ..,
    binary_bufs_sub .., unary_bufs_sub .., unary_bufs_sub .., unary_bufs_sub .., unary_bufs_sub .., binary_bufs_sub ..,
    nullary_bufs_sub .., unary_bufs_sub .., binary_bufs_sub .., binary_bufs_sub .., nullary_bufs_sub .., unary_bufs_sub ..,
    binary_bufs_sub .., unary_bufs_sub .., unary_bufs_sub .., binary_bufs_sub .., binary_bufs_sub .., binary_bufs_sub ..,
    binary_bufs_sub .., binary_bufs_sub .., binary_bufs_sub .., unary_bufs_sub .., unary_bufs_sub .., binary_bufs_sub ..,
    unary_bufs_sub .., unary_bufs_sub .., binary_bufs_sub .., binary_bufs_sub .., nullary_bufs_sub .., nullary_bufs_sub ..,
    unary_bufs_sub .., binary_bufs_sub .., unary_bufs_sub .., unary_bufs_sub .., binary_bufs_sub .., ternary_bufs_sub ..,
    unary_bufs_sub .., unary_bufs_sub .., binary_bufs_sub .., unary_bufs_sub .., unary_bufs_sub .., binary_bufs_sub ..,
    binary_bufs_sub .., nullary_bufs_sub .., nullary_bufs_sub .., unary_bufs_sub .., binary_bufs_sub .., unary_bufs_sub ..,
    unary_bufs_sub .., binary_bufs_sub .., ternary_bufs_sub ..⟩

theorem opsB_sub : (opsB : List (HloOp τ sig (Elt F))).Forall fun op => op.bufs ⊆ tcRefs τ sig :=
  ⟨binary_bufs_sub .., nullary_bufs_sub .., binary_bufs_sub .., binary_bufs_sub .., nullary_bufs_sub .., binary_bufs_sub ..,
    binary_bufs_sub .., unary_bufs_sub .., unary_bufs_sub .., unary_bufs_sub .., unary_bufs_sub .., binary_bufs_sub ..,
    nullary_bufs_sub .., unary_bufs_sub .., binary_bufs_sub ..⟩

theorem opsC_sub : (opsC : List (HloOp τ sig (Elt F))).Forall fun op => op.bufs ⊆ tcRefs τ sig :=
  ⟨binary_bufs_sub .., nullary_bufs_sub .., unary_bufs_sub .., binary_bufs_sub .., unary_bufs_sub .., unary_bufs_sub ..,
    binary_bufs_sub .., binary_bufs_sub .., binary_bufs_sub .., binary_bufs_sub .., binary_bufs_sub .., binary_bufs_sub ..,
    unary_bufs_sub .., unary_bufs_sub .., binary_bufs_sub .., unary_bufs_sub .., unary_bufs_sub .., binary_bufs_sub ..,
    binary_bufs_sub .., nullary_bufs_sub .., nullary_bufs_sub .., unary_bufs_sub .., binary_bufs_sub .., unary_bufs_sub ..,
    unary_bufs_sub .., binary_bufs_sub .., ternary_bufs_sub .., unary_bufs_sub .., unary_bufs_sub .., binary_bufs_sub ..,
    unary_bufs_sub .., unary_bufs_sub .., binary_bufs_sub .., binary_bufs_sub .., nullary_bufs_sub .., nullary_bufs_sub ..,
    unary_bufs_sub .., binary_bufs_sub .., unary_bufs_sub .., unary_bufs_sub .., binary_bufs_sub .., ternary_bufs_sub ..⟩

theorem opsD_sub : (opsD : List (HloOp τ sig (Elt F))).Forall fun op => op.bufs ⊆ tcRefs τ sig :=
  ⟨binary_bufs_sub .., nullary_bufs_sub .., binary_bufs_sub .., binary_bufs_sub .., nullary_bufs_sub .., binary_bufs_sub ..,
    binary_bufs_sub .., unary_bufs_sub .., unary_bufs_sub .., unary_bufs_sub .., unary_bufs_sub .., binary_bufs_sub ..,
    nullary_bufs_sub .., unary_bufs_sub .., binary_bufs_sub .., binary_bufs_sub .., nullary_bufs_sub .., unary_bufs_sub ..,
    binary_bufs_sub .., unary_bufs_sub .., unary_bufs_sub .., binary_bufs_sub .., binary_bufs_sub .., binary_bufs_sub ..,
    binary_bufs_sub .., binary_bufs_sub .., binary_bufs_sub .., unary_bufs_sub .., unary_bufs_sub .., binary_bufs_sub ..⟩

theorem opsE_sub : (opsE : List (HloOp τ sig (Elt F))).Forall fun op => op.bufs ⊆ tcRefs τ sig :=
  ⟨unary_bufs_sub .., unary_bufs_sub .., binary_bufs_sub .., binary_bufs_sub .., nullary_bufs_sub .., nullary_bufs_sub ..,
    unary_bufs_sub .., binary_bufs_sub .., unary_bufs_sub .., unary_bufs_sub .., binary_bufs_sub .., ternary_bufs_sub ..,
    unary_bufs_sub .., unary_bufs_sub .., binary_bufs_sub .., unary_bufs_sub .., unary_bufs_sub .., binary_bufs_sub ..,
    binary_bufs_sub .., nullary_bufs_sub .., nullary_bufs_sub .., unary_bufs_sub .., binary_bufs_sub .., unary_bufs_sub ..,
    unary_bufs_sub .., binary_bufs_sub .., ternary_bufs_sub ..⟩

theorem opsF_sub : (opsF : List (HloOp τ sig (Elt F))).Forall fun op => op.bufs ⊆ tcRefs τ sig :=
  ⟨binary_bufs_sub .., nullary_bufs_sub .., binary_bufs_sub .., binary_bufs_sub .., nullary_bufs_sub .., binary_bufs_sub ..,
    binary_bufs_sub .., unary_bufs_sub .., unary_bufs_sub .., unary_bufs_sub .., unary_bufs_sub .., binary_bufs_sub ..,
    nullary_bufs_sub .., unary_bufs_sub .., binary_bufs_sub .., binary_bufs_sub .., nullary_bufs_sub .., unary_bufs_sub ..,
    binary_bufs_sub .., unary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp opsA_sub op h, List.forall_iff_forall_mem.mp opsB_sub op h,
      List.forall_iff_forall_mem.mp opsC_sub op h, List.forall_iff_forall_mem.mp opsD_sub op h,
      List.forall_iff_forall_mem.mp opsE_sub op h, List.forall_iff_forall_mem.mp opsF_sub op h]

end Cert.ReferenceIdeal.RefRun

end
-- ==== Proof.RefTerm.lean ====
/-
  The reference's result as ONE term of its six arguments.  The host program applies the same
  three-stage pattern three times and then measures distances once more:

  * `dist h d`  — for every batch b, the matrix of Euclidean distances between the rows of h[b] and of
    d[b], computed from the expansion ‖hᵢ‖² + ‖dⱼ‖² − 2⟨hᵢ, dⱼ⟩, clamped below at 0, then a square root;
  * `lrelu x`   — x where x ≥ 0, and 0.01·x (the f32 nearest 0.01) elsewhere;
  * `layer`     — with s = dist h d:  h' = lrelu (W1 ⊙ (s·h + sᵀ·d) + B1 ⊙ h),
                                        d' = lrelu (W2 ⊙ (sᵀ·h + s·d) + B2 ⊙ d),
    the four weight matrices broadcast over the batch;
  * `out`       — dist after three layers.

  Every operation is spelt as the printed program spells it, so that the program's run reads back as
  `out` of the argument arrays.
-/
import proofs.«103367_j33517924778635_2_alg».proof.ReferenceIdeal

noncomputable section

namespace Cert.ReferenceIdeal.RefTerm

open Cert.ReferenceIdeal Cert.ReferenceIdeal.Facts₀ Idealize.ShloMosaic

variable {F : FTy → Type} [FloatOps F] [Facts]

/-- Row sums of squares of a batched matrix: [16,1024,300] → [16,1024]. -/
def sqnorm (h : FVec F S16x1024x300 .f32) : FVec F S16x1024 .f32 :=
  Host.reduceAdd (mulf h h) (constant S_ .f32 0x00000000#32) reducesTo_S16x1024x300_S16x1024_d2 h_S_

/-- Pairwise row distances, batch by batch: √(max(‖hᵢ‖² + ‖dⱼ‖² − 2⟨hᵢ,dⱼ⟩, 0)). -/
def dist (h d : FVec F S16x1024x300 .f32) : FVec F S16x1024x1024 .f32 :=
  Host.sqrt (maximumf
    (subf
      (addf
        (broadcastInDim S16x1024x1024 ![0, 1, 2] bcast_S16x1024x1_S16x1024x1024_0_1_2
          (broadcastInDim S16x1024x1 ![0, 1] bcast_S16x1024_S16x1024x1_0_1 (sqnorm h)))
        (broadcastInDim S16x1024x1024 ![0, 1, 2] bcast_S16x1x1024_S16x1024x1024_0_1_2
          (broadcastInDim S16x1x1024 ![0, 2] bcast_S16x1024_S16x1x1024_0_2 (sqnorm d))))
      (mulf (broadcastInDim S16x1024x1024 ![] bcast_S_S16x1024x1024 (constant S_ .f32 0x40000000#32))
        (Host.dotGeneral dot_S16x1024x300_S16x1024x300_S16x1024x1024_2_2_1_1_0_0 none h d)))
    (broadcastInDim S16x1024x1024 ![] bcast_S_S16x1024x1024 (constant S_ .f32 0x00000000#32)))

/-- x where x ≥ 0, slope·x elsewhere (slope the f32 word 0x3C23D70A). -/
def lrelu (x : FVec F S16x1024x300 .f32) : FVec F S16x1024x300 .f32 :=
  select (cmpf .oge x (broadcastInDim S16x1024x300 ![] bcast_S_S16x1024x300 (constant S_ .f32 0x00000000#32)))
    x
    (mulf (broadcastInDim S16x1024x300 ![] bcast_S_S16x1024x300 (id (constant S_ .f32 0x3C23D70A#32))) x)

/-- A [1024,300] weight matrix repeated over the 16 batches. -/
def overBatch (W : FVec F S1024x300 .f32) : FVec F S16x1024x300 .f32 :=
  broadcastInDim S16x1024x300 ![0, 1, 2] bcast_S1x1024x300_S16x1024x300_0_1_2
    (broadcastInDim S1x1024x300 ![1, 2] bcast_S1024x300_S1x1024x300_1_2 W)

/-- The batched product s·x: [16,1024,1024] × [16,1024,300] → [16,1024,300]. -/
def bmm (s : FVec F S16x1024x1024 .f32) (x : FVec F S16x1024x300 .f32) : FVec F S16x1024x300 .f32 :=
  Host.dotGeneral dot_S16x1024x1024_S16x1024x300_S16x1024x300_2_1_1_2_0_0 none s x

/-- One layer's new head matrix. -/
def layerH (W1 B1 : FVec F S1024x300 .f32) (h d : FVec F S16x1024x300 .f32) : FVec F S16x1024x300 .f32 :=
  lrelu (addf
    (mulf (overBatch W1)
      (addf (bmm (dist h d) h)
        (bmm (transpose S16x1024x1024 [0, 2, 1] (dist h d) transposes_S16x1024x1024_S16x1024x1024_0_2_1) d)))
    (mulf (overBatch B1) h))

/-- One layer's new dependent matrix. -/
def layerD (W2 B2 : FVec F S1024x300 .f32) (h d : FVec F S16x1024x300 .f32) : FVec F S16x1024x300 .f32 :=
  lrelu (addf
    (mulf (overBatch W2)
      (addf (bmm (transpose S16x1024x1024 [0, 2, 1] (dist h d) transposes_S16x1024x1024_S16x1024x1024_0_2_1) h)
        (bmm (dist h d) d)))
    (mulf (overBatch B2) d))

/-- The whole reference: three layers, then the distances. -/
def out (a0 a1 : FVec F S16x1024x300 .f32) (W1 W2 B1 B2 : FVec F S1024x300 .f32) : FVec F S16x1024x1024 .f32 :=
  dist
    (layerH W1 B1
      (layerH W1 B1 (layerH W1 B1 a0 a1) (layerD W2 B2 a0 a1))
      (layerD W2 B2 (layerH W1 B1 a0 a1) (layerD W2 B2 a0 a1)))
    (layerD W2 B2
      (layerH W1 B1 (layerH W1 B1 a0 a1) (layerD W2 B2 a0 a1))
      (layerD W2 B2 (layerH W1 B1 a0 a1) (layerD W2 B2 a0 a1)))

end Cert.ReferenceIdeal.RefTerm

end
-- ==== Proof.RefRun.lean ====
/-
  What the reference program leaves in its result buffer, read layer by layer.

  After the operations of one layer, run from ANY buffer contents `W`, the layer's two result buffers
  hold `layerH W₁ B₁ h d` and `layerD W₂ B₂ h d`, where `h`, `d` are what `W` holds at the layer's two
  input buffers and the four matrices what it holds at the weight and bias arguments; the six
  argument buffers are left as they were.  A layer never writes its own inputs or an argument, so the
  three layers and the closing distances compose: after the whole line the result buffer holds

      dist (layerH … (layer 2 of layer 1) …) (layerD … (layer 2 of layer 1) …)  =  RefTerm.out,

  each layer's statement being used at the contents the previous layers left.  Keeping every layer's
  inputs as variables is what keeps the terms small: written out, the third layer would repeat the
  second (and that the first) once for every use of its inputs.
-/
import proofs.«103367_j33517924778635_2_alg».proof.Proof.RefRunOps
import proofs.«103367_j33517924778635_2_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option pp.maxSteps 5000
set_option pp.deepTerms false

/-- Running two lines one after the other is running their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ### Layer 1 -/

/-- The buffers after layer 1's operations, from contents `W`. -/
def step1 (W : Valuation τ sig (Elt F)) : Valuation τ sig (Elt F) := after opsA W

set_option maxRecDepth 8192 in
set_option maxHeartbeats 4000000 in
/-- Layer 1's first result is `layerH` of the first weight, the first bias and the layer's two inputs. -/
theorem step1_H (W : Valuation τ sig (Elt F)) :
    step1 W (no_index (Proc.devRef .tc main_v30))
      = RefTerm.layerH (W (Proc.devRef .tc main_arg2)) (W (Proc.devRef .tc main_arg4)) (W (Proc.devRef .tc main_arg0)) (W (Proc.devRef .tc main_arg1)) := by
  conv_lhs =>
    unfold step1
    simp (disch := decide) only [opsA, after_cons, after_nil, nullary_result', unary_result', binary_result', ternary_result',
      nullary_result_ne', unary_result_ne', binary_result_ne', ternary_result_ne']
  rfl

set_option maxRecDepth 8192 in
set_option maxHeartbeats 4000000 in
/-- Layer 1's second result is `layerD` of the second weight, the second bias and the layer's two inputs. -/
theorem step1_D (W : Valuation τ sig (Elt F)) :
    step1 W (no_index (Proc.devRef .tc main_v38))
      = RefTerm.layerD (W (Proc.devRef .tc main_arg3)) (W (Proc.devRef .tc main_arg5)) (W (Proc.devRef .tc main_arg0)) (W (Proc.devRef .tc main_arg1)) := by
  conv_lhs =>
    unfold step1
    simp (disch := decide) only [opsA, after_cons, after_nil, nullary_result', unary_result', binary_result', ternary_result',
      nullary_result_ne', unary_result_ne', binary_result_ne', ternary_result_ne']
  rfl

set_option maxRecDepth 8192 in
set_option maxHeartbeats 4000000 in
theorem step1_arg0 (W : Valuation τ sig (Elt F)) : step1 W (no_index (Proc.devRef .tc main_arg0)) = W (Proc.devRef .tc main_arg0) := by
  unfold step1
  simp only [opsA]
  after_results_simp

set_option maxRecDepth 8192 in
set_option maxHeartbeats 4000000 in
theorem step1_arg1 (W : Valuation τ sig (Elt F)) : step1 W (no_index (Proc.devRef .tc main_arg1)) = W (Proc.devRef .tc main_arg1) := by
  unfold step1
  simp only [opsA]
  after_results_simp

set_option maxRecDepth 8192 in
set_option maxHeartbeats 4000000 in
theorem step1_arg2 (W : Valuation τ sig (Elt F)) : step1 W (no_index (Proc.devRef .tc main_arg2)) = W (Proc.devRef .tc main_arg2) := by
  unfold step1
  simp only [opsA]
  after_results_simp

set_option maxRecDepth 8192 in
set_option maxHeartbeats 4000000 in
theorem step1_arg3 (W : Valuation τ sig (Elt F)) : step1 W (no_index (Proc.devRef .tc main_arg3)) = W (Proc.devRef .tc main_arg3) := by
  unfold step1
  simp only [opsA]
  after_results_simp

set_option maxRecDepth 8192 in
set_option maxHeartbeats 4000000 in
theorem step1_arg4 (W : Valuation τ sig (Elt F)) : step1 W (no_index (Proc.devRef .tc main_arg4)) = W (Proc.devRef .tc main_arg4) := by
  unfold step1
  simp only [opsA]
  after_results_simp

set_option maxRecDepth 8192 in
set_option maxHeartbeats 4000000 in
theorem step1_arg5 (W : Valuation τ sig (Elt F)) : step1 W (no_index (Proc.devRef .tc main_arg5)) = W (Proc.devRef .tc main_arg5) := by
  unfold step1
  simp only [opsA]
  after_results_simp

/-! ### Layer 2 -/

/-- The buffers after layer 2's operations, from contents `W`. -/
def step2 (W : Valuation τ sig (Elt F)) : Valuation τ sig (Elt F) := after opsC (after opsB W)

set_option maxRecDepth 8192 in
set_option maxHeartbeats 4000000 in
/-- Layer 2's first result is `layerH` of the first weight, the first bias and the layer's two inputs. -/
theorem step2_H (W : Valuation τ sig (Elt F)) :
    step2 W (no_index (Proc.devRef .tc main_v69))
      = RefTerm.layerH (W (Proc.devRef .tc main_arg2)) (W (Proc.devRef .tc main_arg4)) (W (Proc.devRef .tc main_v30)) (W (Proc.devRef .tc main_v38)) := by
  conv_lhs =>
    unfold step2
    simp (disch := decide) only [opsB, opsC, after_cons, after_nil, nullary_result', unary_result', binary_result', ternary_result',
      nullary_result_ne', unary_result_ne', binary_result_ne', ternary_result_ne']
  rfl

set_option maxRecDepth 8192 in
set_option maxHeartbeats 4000000 in
/-- Layer 2's second result is `layerD` of the second weight, the second bias and the layer's two inputs. -/
theorem step2_D (W : Valuation τ sig (Elt F)) :
    step2 W (no_index (Proc.devRef .tc main_v77))
      = RefTerm.layerD (W (Proc.devRef .tc main_arg3)) (W (Proc.devRef .tc main_arg5)) (W (Proc.devRef .tc main_v30)) (W (Proc.devRef .tc main_v38)) := by
  conv_lhs =>
    unfold step2
    simp (disch := decide) only [opsB, opsC, after_cons, after_nil, nullary_result', unary_result', binary_result', ternary_result',
      nullary_result_ne', unary_result_ne', binary_result_ne', ternary_result_ne']
  rfl

set_option maxRecDepth 8192 in
set_option maxHeartbeats 4000000 in
theorem step2_arg0 (W : Valuation τ sig (Elt F)) : step2 W (no_index (Proc.devRef .tc main_arg0)) = W (Proc.devRef .tc main_arg0) := by
  unfold step2
  simp only [opsB, opsC]
  after_results_simp

set_option maxRecDepth 8192 in
set_option maxHeartbeats 4000000 in
theorem step2_arg1 (W : Valuation τ sig (Elt F)) : step2 W (no_index (Proc.devRef .tc main_arg1)) = W (Proc.devRef .tc main_arg1) := by
  unfold step2
  simp only [opsB, opsC]
  after_results_simp

set_option maxRecDepth 8192 in
set_option maxHeartbeats 4000000 in
theorem step2_arg2 (W : Valuation τ sig (Elt F)) : step2 W (no_index (Proc.devRef .tc main_arg2)) = W (Proc.devRef .tc main_arg2) := by
  unfold step2
  simp only [opsB, opsC]
  after_results_simp

set_option maxRecDepth 8192 in
set_option maxHeartbeats 4000000 in
theorem step2_arg3 (W : Valuation τ sig (Elt F)) : step2 W (no_index (Proc.devRef .tc main_arg3)) = W (Proc.devRef .tc main_arg3) := by
  unfold step2
  simp only [opsB, opsC]
  after_results_simp

set_option maxRecDepth 8192 in
set_option maxHeartbeats 4000000 in
theorem step2_arg4 (W : Valuation τ sig (Elt F)) : step2 W (no_index (Proc.devRef .tc main_arg4)) = W (Proc.devRef .tc main_arg4) := by
  unfold step2
  simp only [opsB, opsC]
  after_results_simp

set_option maxRecDepth 8192 in
set_option maxHeartbeats 4000000 in
theorem step2_arg5 (W : Valuation τ sig (Elt F)) : step2 W (no_index (Proc.devRef .tc main_arg5)) = W (Proc.devRef .tc main_arg5) := by
  unfold step2
  simp only [opsB, opsC]
  after_results_simp

/-! ### Layer 3 -/

/-- The buffers after layer 3's operations, from contents `W`. -/
def step3 (W : Valuation τ sig (Elt F)) : Valuation τ sig (Elt F) := after opsE (after opsD W)

set_option maxRecDepth 8192 in
set_option maxHeartbeats 4000000 in
/-- Layer 3's first result is `layerH` of the first weight, the first bias and the layer's two inputs. -/
theorem step3_H (W : Valuation τ sig (Elt F)) :
    step3 W (no_index (Proc.devRef .tc main_v108))
      = RefTerm.layerH (W (Proc.devRef .tc main_arg2)) (W (Proc.devRef .tc main_arg4)) (W (Proc.devRef .tc main_v69)) (W (Proc.devRef .tc main_v77)) := by
  conv_lhs =>
    unfold step3
    simp (disch := decide) only [opsD, opsE, after_cons, after_nil, nullary_result', unary_result', binary_result', ternary_result',
      nullary_result_ne', unary_result_ne', binary_result_ne', ternary_result_ne']
  rfl

set_option maxRecDepth 8192 in
set_option maxHeartbeats 4000000 in
/-- Layer 3's second result is `layerD` of the second weight, the second bias and the layer's two inputs. -/
theorem step3_D (W : Valuation τ sig (Elt F)) :
    step3 W (no_index (Proc.devRef .tc main_v116))
      = RefTerm.layerD (W (Proc.devRef .tc main_arg3)) (W (Proc.devRef .tc main_arg5)) (W (Proc.devRef .tc main_v69)) (W (Proc.devRef .tc main_v77)) := by
  conv_lhs =>
    unfold step3
    simp (disch := decide) only [opsD, opsE, after_cons, after_nil, nullary_result', unary_result', binary_result', ternary_result',
      nullary_result_ne', unary_result_ne', binary_result_ne', ternary_result_ne']
  rfl

set_option maxRecDepth 8192 in
set_option maxHeartbeats 4000000 in
theorem step3_arg0 (W : Valuation τ sig (Elt F)) : step3 W (no_index (Proc.devRef .tc main_arg0)) = W (Proc.devRef .tc main_arg0) := by
  unfold step3
  simp only [opsD, opsE]
  after_results_simp

set_option maxRecDepth 8192 in
set_option maxHeartbeats 4000000 in
theorem step3_arg1 (W : Valuation τ sig (Elt F)) : step3 W (no_index (Proc.devRef .tc main_arg1)) = W (Proc.devRef .tc main_arg1) := by
  unfold step3
  simp only [opsD, opsE]
  after_results_simp

set_option maxRecDepth 8192 in
set_option maxHeartbeats 4000000 in
theorem step3_arg2 (W : Valuation τ sig (Elt F)) : step3 W (no_index (Proc.devRef .tc main_arg2)) = W (Proc.devRef .tc main_arg2) := by
  unfold step3
  simp only [opsD, opsE]
  after_results_simp

set_option maxRecDepth 8192 in
set_option maxHeartbeats 4000000 in
theorem step3_arg3 (W : Valuation τ sig (Elt F)) : step3 W (no_index (Proc.devRef .tc main_arg3)) = W (Proc.devRef .tc main_arg3) := by
  unfold step3
  simp only [opsD, opsE]
  after_results_simp

set_option maxRecDepth 8192 in
set_option maxHeartbeats 4000000 in
theorem step3_arg4 (W : Valuation τ sig (Elt F)) : step3 W (no_index (Proc.devRef .tc main_arg4)) = W (Proc.devRef .tc main_arg4) := by
  unfold step3
  simp only [opsD, opsE]
  after_results_simp

set_option maxRecDepth 8192 in
set_option maxHeartbeats 4000000 in
theorem step3_arg5 (W : Valuation τ sig (Elt F)) : step3 W (no_index (Proc.devRef .tc main_arg5)) = W (Proc.devRef .tc main_arg5) := by
  unfold step3
  simp only [opsD, opsE]
  after_results_simp

/-! ### The closing distances -/

/-- The buffers after the last twenty operations, from contents `W`. -/
def step4 (W : Valuation τ sig (Elt F)) : Valuation τ sig (Elt F) := after opsF W

set_option maxRecDepth 8192 in
set_option maxHeartbeats 4000000 in
/-- The result buffer holds the distances between layer 3's two results. -/
theorem step4_out (W : Valuation τ sig (Elt F)) :
    step4 W (no_index (Proc.devRef .tc main_v132)) = RefTerm.dist (W (Proc.devRef .tc main_v108)) (W (Proc.devRef .tc main_v116)) := by
  conv_lhs =>
    unfold step4
    simp (disch := decide) only [opsF, after_cons, after_nil, nullary_result', unary_result', binary_result', ternary_result',
      nullary_result_ne', unary_result_ne', binary_result_ne', ternary_result_ne']
  rfl

set_option maxRecDepth 8192 in
set_option maxHeartbeats 4000000 in
theorem step4_arg0 (W : Valuation τ sig (Elt F)) : step4 W (no_index (Proc.devRef .tc main_arg0)) = W (Proc.devRef .tc main_arg0) := by
  unfold step4
  simp only [opsF]
  after_results_simp

set_option maxRecDepth 8192 in
set_option maxHeartbeats 4000000 in
theorem step4_arg1 (W : Valuation τ sig (Elt F)) : step4 W (no_index (Proc.devRef .tc main_arg1)) = W (Proc.devRef .tc main_arg1) := by
  unfold step4
  simp only [opsF]
  after_results_simp

set_option maxRecDepth 8192 in
set_option maxHeartbeats 4000000 in
theorem step4_arg2 (W : Valuation τ sig (Elt F)) : step4 W (no_index (Proc.devRef .tc main_arg2)) = W (Proc.devRef .tc main_arg2) := by
  unfold step4
  simp only [opsF]
  after_results_simp

set_option maxRecDepth 8192 in
set_option maxHeartbeats 4000000 in
theorem step4_arg3 (W : Valuation τ sig (Elt F)) : step4 W (no_index (Proc.devRef .tc main_arg3)) = W (Proc.devRef .tc main_arg3) := by
  unfold step4
  simp only [opsF]
  after_results_simp

set_option maxRecDepth 8192 in
set_option maxHeartbeats 4000000 in
theorem step4_arg4 (W : Valuation τ sig (Elt F)) : step4 W (no_index (Proc.devRef .tc main_arg4)) = W (Proc.devRef .tc main_arg4) := by
  unfold step4
  simp only [opsF]
  after_results_simp

set_option maxRecDepth 8192 in
set_option maxHeartbeats 4000000 in
theorem step4_arg5 (W : Valuation τ sig (Elt F)) : step4 W (no_index (Proc.devRef .tc main_arg5)) = W (Proc.devRef .tc main_arg5) := by
  unfold step4
  simp only [opsF]
  after_results_simp

/-! ### The whole line -/

/-- The whole line is the four stretches in order. -/
theorem after_ops (V : Valuation τ sig (Elt F)) : after ops V = step4 (step3 (step2 (step1 V))) := by
  simp only [ops, after_app]
  rfl

/-- The result buffer after the whole line: three layers, then the distances. -/
theorem out_eq (V : Valuation τ sig (Elt F)) :
    after ops V (Proc.devRef .tc main_v132)
      = RefTerm.out (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [after_ops, step4_out, step3_H, step3_D,
    step2_H, step2_D, step2_arg2, step2_arg3, step2_arg4, step2_arg5,
    step1_H, step1_D, step1_arg2, step1_arg3, step1_arg4, step1_arg5]
  rfl

theorem arg0_eq (V : Valuation τ sig (Elt F)) : after ops V (Proc.devRef .tc main_arg0) = V (Proc.devRef .tc main_arg0) := by
  rw [after_ops]
  simp only [step4_arg0, step3_arg0, step2_arg0, step1_arg0]

theorem arg1_eq (V : Valuation τ sig (Elt F)) : after ops V (Proc.devRef .tc main_arg1) = V (Proc.devRef .tc main_arg1) := by
  rw [after_ops]
  simp only [step4_arg1, step3_arg1, step2_arg1, step1_arg1]

theorem arg2_eq (V : Valuation τ sig (Elt F)) : after ops V (Proc.devRef .tc main_arg2) = V (Proc.devRef .tc main_arg2) := by
  rw [after_ops]
  simp only [step4_arg2, step3_arg2, step2_arg2, step1_arg2]

theorem arg3_eq (V : Valuation τ sig (Elt F)) : after ops V (Proc.devRef .tc main_arg3) = V (Proc.devRef .tc main_arg3) := by
  rw [after_ops]
  simp only [step4_arg3, step3_arg3, step2_arg3, step1_arg3]

theorem arg4_eq (V : Valuation τ sig (Elt F)) : after ops V (Proc.devRef .tc main_arg4) = V (Proc.devRef .tc main_arg4) := by
  rw [after_ops]
  simp only [step4_arg4, step3_arg4, step2_arg4, step1_arg4]

theorem arg5_eq (V : Valuation τ sig (Elt F)) : after ops V (Proc.devRef .tc main_arg5) = V (Proc.devRef .tc main_arg5) := by
  rw [after_ops]
  simp only [step4_arg5, step3_arg5, step2_arg5, step1_arg5]

/-! ### No operation leaves a buffer's contents open -/

set_option maxRecDepth 8192 in
theorem opsA_fresh : ∀ op ∈ (opsA : List (HloOp τ sig (Elt F))), op.fresh = ∅ := by
  intro _ h; (repeat (cases h with | head => rfl | tail _ h => ?_)); exact nomatch h
set_option maxRecDepth 8192 in
theorem opsB_fresh : ∀ op ∈ (opsB : List (HloOp τ sig (Elt F))), op.fresh = ∅ := by
  intro _ h; (repeat (cases h with | head => rfl | tail _ h => ?_)); exact nomatch h
set_option maxRecDepth 8192 in
theorem opsC_fresh : ∀ op ∈ (opsC : List (HloOp τ sig (Elt F))), op.fresh = ∅ := by
  intro _ h; (repeat (cases h with | head => rfl | tail _ h => ?_)); exact nomatch h
set_option maxRecDepth 8192 in
theorem opsD_fresh : ∀ op ∈ (opsD : List (HloOp τ sig (Elt F))), op.fresh = ∅ := by
  intro _ h; (repeat (cases h with | head => rfl | tail _ h => ?_)); exact nomatch h
set_option maxRecDepth 8192 in
theorem opsE_fresh : ∀ op ∈ (opsE : List (HloOp τ sig (Elt F))), op.fresh = ∅ := by
  intro _ h; (repeat (cases h with | head => rfl | tail _ h => ?_)); exact nomatch h
set_option maxRecDepth 8192 in
theorem opsF_fresh : ∀ op ∈ (opsF : List (HloOp τ sig (Elt F))), op.fresh = ∅ := by
  intro _ h; (repeat (cases h with | head => rfl | tail _ h => ?_)); exact nomatch h

theorem ops_fresh : ∀ op ∈ (ops : List (HloOp τ sig (Elt F))), op.fresh = ∅ := fun op h => by
  simp only [ops, List.mem_append] at h
  rcases h with h | h | h | h | h | h
  exacts [opsA_fresh op h, opsB_fresh op h, opsC_fresh op h, opsD_fresh op h, opsE_fresh op h, opsF_fresh op h]

/-! ### The run -/

/-- On every device, for any float values, from any memory with zero counters: every weakly fair execution of
    @main terminates with the result buffer at `RefTerm.out` of the six arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v132)
        = Cert.ReferenceIdeal.RefTerm.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v132).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c))⟩)
    (run_seq scopedRefs_eq scopedSems_eq defs main (fun _ => ops) main_eq (fun _ => ops_sub) m ρ (fun _ => ops_fresh))

end Cert.ReferenceIdeal.RefRun

end
-- ==== Proof.RefRead.lean ====
/-
  The reference's result read entry by entry.  Every stage of the reference's term is read at an index
  (b, i, j) or (b, i, k) written with literal coordinates:

  * a row sum of squares is the sum over the 300 columns of the squared entries;
  * the two batched products are sums over the contracted coordinate, ∑ₖ h(b,i,k)·d(b,j,k) and
    ∑ⱼ s(b,i,j)·x(b,j,k);
  * a [16,1024] array spread along a new axis reads its entry at the kept coordinates, a [1024,300] matrix
    repeated over the batches reads its own entry, and a transposed stack reads the swapped entry;

  so the distance array at (b, i, j) is the distance between row i and row j of batch b, one layer of the
  reference restricted to batch b is the layer of the two matrices of that batch, and the whole reference at
  (b, i, j) is three layers followed by the distances, on batch b.
-/
import proofs.«103367_j33517924778635_2_alg».proof.Proof.RefTerm
import proofs.«103367_j33517924778635_2_alg».proof.Proof.Gen.ReferenceIdeal
import proofs.«103367_j33517924778635_2_alg».proof.Proof.Spec
import proofs.«103367_j33517924778635_2_alg».proof.Proof.Arr
import proofs.«103367_j33517924778635_2_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefRead

open Cert.ReferenceIdeal Cert.ReferenceIdeal.Facts₀ Idealize.ShloMosaic Idealize.ShloMosaic.ValueIdx

variable [Facts]

/-! ### Row sums of squares -/

/-- The row sum of squares at (b, i) is the sum over the 300 columns of the squared entries. -/
theorem sqnorm_apply (h : FVec Ideal S16x1024x300 .f32) (b : Fin 16) (i : Fin 1024) :
    RefTerm.sqnorm h (ix2 b i) = ∑ k : Fin 300, h (ix3 b i k) * h (ix3 b i k) := by
  show Ideal.hostReduceAdd reducesTo_S16x1024x300_S16x1024_d2 (mulf h h) (Ideal.ofBits .f32 0x00000000#32) (ix2 b i) = _
  rw [Ideal.hostReduceAdd_single reducesTo_S16x1024x300_S16x1024_d2 (by decide), Cert.Gnn.ofBits_zero, zero_add]
  refine Finset.sum_congr rfl fun k _ => ?_
  exact congrArg (fun t => h t * h t) (funext fun a => Fin.ext (by
    match a with | ⟨0, _⟩ => rfl | ⟨1, _⟩ => rfl | ⟨2, _⟩ => rfl))

/-! ### The two batched products

For the product over the columns (contraction [2] × [2], batch [0] × [0]) and the product over the rows of the
right operand (contraction [2] × [1]), each operand index at result index (b, i, j) and contraction position k,
coordinate by coordinate: a batch axis reads b, a free axis its own result coordinate, the contracted axis k. -/

theorem lhsT_0 (i : S16x1024x1024.Idx) (q : dot_S16x1024x300_S16x1024x300_S16x1024x1024_2_2_1_1_0_0.contr.Idx) : (dot_S16x1024x300_S16x1024x300_S16x1024x1024_2_2_1_1_0_0.lhsIdx i q 0).val = (i 0).val := by
  unfold DotDims.lhsIdx
  rw [dif_pos (show (0 : Fin S16x1024x300.rank) ∈ dot_S16x1024x300_S16x1024x300_S16x1024x1024_2_2_1_1_0_0.lhsBatch by decide)]
  rfl
theorem lhsT_1 (i : S16x1024x1024.Idx) (q : dot_S16x1024x300_S16x1024x300_S16x1024x1024_2_2_1_1_0_0.contr.Idx) : (dot_S16x1024x300_S16x1024x300_S16x1024x1024_2_2_1_1_0_0.lhsIdx i q 1).val = (i 1).val := by
  unfold DotDims.lhsIdx
  rw [dif_neg (show ¬(1 : Fin S16x1024x300.rank) ∈ dot_S16x1024x300_S16x1024x300_S16x1024x1024_2_2_1_1_0_0.lhsBatch by decide),
    dif_pos (show (1 : Fin S16x1024x300.rank) ∈ dot_S16x1024x300_S16x1024x300_S16x1024x1024_2_2_1_1_0_0.lhsNonContracting by decide)]
  rfl
theorem lhsT_2 (i : S16x1024x1024.Idx) (q : dot_S16x1024x300_S16x1024x300_S16x1024x1024_2_2_1_1_0_0.contr.Idx) : (dot_S16x1024x300_S16x1024x300_S16x1024x1024_2_2_1_1_0_0.lhsIdx i q 2).val = (q ⟨0, by decide⟩).val :=
  dot_S16x1024x300_S16x1024x300_S16x1024x1024_2_2_1_1_0_0.lhsIdx_val_of_single rfl i q
theorem rhsT_0 (i : S16x1024x1024.Idx) (q : dot_S16x1024x300_S16x1024x300_S16x1024x1024_2_2_1_1_0_0.contr.Idx) : (dot_S16x1024x300_S16x1024x300_S16x1024x1024_2_2_1_1_0_0.rhsIdx i q 0).val = (i 0).val := by
  unfold DotDims.rhsIdx
  rw [dif_pos (show (0 : Fin S16x1024x300.rank) ∈ dot_S16x1024x300_S16x1024x300_S16x1024x1024_2_2_1_1_0_0.rhsBatch by decide)]
  rfl
theorem rhsT_1 (i : S16x1024x1024.Idx) (q : dot_S16x1024x300_S16x1024x300_S16x1024x1024_2_2_1_1_0_0.contr.Idx) : (dot_S16x1024x300_S16x1024x300_S16x1024x1024_2_2_1_1_0_0.rhsIdx i q 1).val = (i 2).val := by
  unfold DotDims.rhsIdx
  rw [dif_neg (show ¬(1 : Fin S16x1024x300.rank) ∈ dot_S16x1024x300_S16x1024x300_S16x1024x1024_2_2_1_1_0_0.rhsBatch by decide),
    dif_pos (show (1 : Fin S16x1024x300.rank) ∈ dot_S16x1024x300_S16x1024x300_S16x1024x1024_2_2_1_1_0_0.rhsNonContracting by decide)]
  rfl
theorem rhsT_2 (i : S16x1024x1024.Idx) (q : dot_S16x1024x300_S16x1024x300_S16x1024x1024_2_2_1_1_0_0.contr.Idx) : (dot_S16x1024x300_S16x1024x300_S16x1024x1024_2_2_1_1_0_0.rhsIdx i q 2).val = (q ⟨0, by decide⟩).val :=
  dot_S16x1024x300_S16x1024x300_S16x1024x1024_2_2_1_1_0_0.rhsIdx_val_of_single rfl i q

/-- The product over the columns at (b, i, j): ∑ₖ h(b,i,k) · d(b,j,k). -/
theorem dotT_apply (h d : FVec Ideal S16x1024x300 .f32) (b : Fin 16) (i j : Fin 1024) :
    Host.dotGeneral dot_S16x1024x300_S16x1024x300_S16x1024x1024_2_2_1_1_0_0 none h d (ix3 b i j) = ∑ k : Fin 300, h (ix3 b i k) * d (ix3 b j k) := by
  simp only [Host.dotGeneral]
  rw [Ideal.dotGeneral_apply, ← Equiv.sum_comp (ValueIdx.contrEquiv1 dot_S16x1024x300_S16x1024x300_S16x1024x1024_2_2_1_1_0_0 300 rfl rfl).symm]
  refine Finset.sum_congr rfl fun k _ => ?_
  have hk := ValueIdx.contrEquiv1_symm_val dot_S16x1024x300_S16x1024x300_S16x1024x1024_2_2_1_1_0_0 300 rfl rfl k
  have el : dot_S16x1024x300_S16x1024x300_S16x1024x1024_2_2_1_1_0_0.lhsIdx (ix3 b i j) ((ValueIdx.contrEquiv1 dot_S16x1024x300_S16x1024x300_S16x1024x1024_2_2_1_1_0_0 300 rfl rfl).symm k) = ix3 b i k :=
    funext fun a => Fin.ext (by
      match a with
      | ⟨0, _⟩ => exact lhsT_0 _ _
      | ⟨1, _⟩ => exact lhsT_1 _ _
      | ⟨2, _⟩ => exact (lhsT_2 _ _).trans hk)
  have er : dot_S16x1024x300_S16x1024x300_S16x1024x1024_2_2_1_1_0_0.rhsIdx (ix3 b i j) ((ValueIdx.contrEquiv1 dot_S16x1024x300_S16x1024x300_S16x1024x1024_2_2_1_1_0_0 300 rfl rfl).symm k) = ix3 b j k :=
    funext fun a => Fin.ext (by
      match a with
      | ⟨0, _⟩ => exact rhsT_0 _ _
      | ⟨1, _⟩ => exact rhsT_1 _ _
      | ⟨2, _⟩ => exact (rhsT_2 _ _).trans hk)
  rw [el, er]

theorem lhsM_0 (i : S16x1024x300.Idx) (q : dot_S16x1024x1024_S16x1024x300_S16x1024x300_2_1_1_2_0_0.contr.Idx) : (dot_S16x1024x1024_S16x1024x300_S16x1024x300_2_1_1_2_0_0.lhsIdx i q 0).val = (i 0).val := by
  unfold DotDims.lhsIdx
  rw [dif_pos (show (0 : Fin S16x1024x1024.rank) ∈ dot_S16x1024x1024_S16x1024x300_S16x1024x300_2_1_1_2_0_0.lhsBatch by decide)]
  rfl
theorem lhsM_1 (i : S16x1024x300.Idx) (q : dot_S16x1024x1024_S16x1024x300_S16x1024x300_2_1_1_2_0_0.contr.Idx) : (dot_S16x1024x1024_S16x1024x300_S16x1024x300_2_1_1_2_0_0.lhsIdx i q 1).val = (i 1).val := by
  unfold DotDims.lhsIdx
  rw [dif_neg (show ¬(1 : Fin S16x1024x1024.rank) ∈ dot_S16x1024x1024_S16x1024x300_S16x1024x300_2_1_1_2_0_0.lhsBatch by decide),
    dif_pos (show (1 : Fin S16x1024x1024.rank) ∈ dot_S16x1024x1024_S16x1024x300_S16x1024x300_2_1_1_2_0_0.lhsNonContracting by decide)]
  rfl
theorem lhsM_2 (i : S16x1024x300.Idx) (q : dot_S16x1024x1024_S16x1024x300_S16x1024x300_2_1_1_2_0_0.contr.Idx) : (dot_S16x1024x1024_S16x1024x300_S16x1024x300_2_1_1_2_0_0.lhsIdx i q 2).val = (q ⟨0, by decide⟩).val :=
  dot_S16x1024x1024_S16x1024x300_S16x1024x300_2_1_1_2_0_0.lhsIdx_val_of_single rfl i q
theorem rhsM_0 (i : S16x1024x300.Idx) (q : dot_S16x1024x1024_S16x1024x300_S16x1024x300_2_1_1_2_0_0.contr.Idx) : (dot_S16x1024x1024_S16x1024x300_S16x1024x300_2_1_1_2_0_0.rhsIdx i q 0).val = (i 0).val := by
  unfold DotDims.rhsIdx
  rw [dif_pos (show (0 : Fin S16x1024x300.rank) ∈ dot_S16x1024x1024_S16x1024x300_S16x1024x300_2_1_1_2_0_0.rhsBatch by decide)]
  rfl
theorem rhsM_1 (i : S16x1024x300.Idx) (q : dot_S16x1024x1024_S16x1024x300_S16x1024x300_2_1_1_2_0_0.contr.Idx) : (dot_S16x1024x1024_S16x1024x300_S16x1024x300_2_1_1_2_0_0.rhsIdx i q 1).val = (q ⟨0, by decide⟩).val :=
  dot_S16x1024x1024_S16x1024x300_S16x1024x300_2_1_1_2_0_0.rhsIdx_val_of_single rfl i q
theorem rhsM_2 (i : S16x1024x300.Idx) (q : dot_S16x1024x1024_S16x1024x300_S16x1024x300_2_1_1_2_0_0.contr.Idx) : (dot_S16x1024x1024_S16x1024x300_S16x1024x300_2_1_1_2_0_0.rhsIdx i q 2).val = (i 2).val := by
  unfold DotDims.rhsIdx
  rw [dif_neg (show ¬(2 : Fin S16x1024x300.rank) ∈ dot_S16x1024x1024_S16x1024x300_S16x1024x300_2_1_1_2_0_0.rhsBatch by decide),
    dif_pos (show (2 : Fin S16x1024x300.rank) ∈ dot_S16x1024x1024_S16x1024x300_S16x1024x300_2_1_1_2_0_0.rhsNonContracting by decide)]
  rfl

/-- The batched matrix product at (b, i, k): ∑ⱼ s(b,i,j) · x(b,j,k). -/
theorem bmm_apply (s : FVec Ideal S16x1024x1024 .f32) (x : FVec Ideal S16x1024x300 .f32)
    (b : Fin 16) (i : Fin 1024) (k : Fin 300) :
    RefTerm.bmm s x (ix3 b i k) = ∑ j : Fin 1024, s (ix3 b i j) * x (ix3 b j k) := by
  unfold RefTerm.bmm
  simp only [Host.dotGeneral]
  rw [Ideal.dotGeneral_apply, ← Equiv.sum_comp (ValueIdx.contrEquiv1 dot_S16x1024x1024_S16x1024x300_S16x1024x300_2_1_1_2_0_0 1024 rfl rfl).symm]
  refine Finset.sum_congr rfl fun j _ => ?_
  have hj := ValueIdx.contrEquiv1_symm_val dot_S16x1024x1024_S16x1024x300_S16x1024x300_2_1_1_2_0_0 1024 rfl rfl j
  have el : dot_S16x1024x1024_S16x1024x300_S16x1024x300_2_1_1_2_0_0.lhsIdx (ix3 b i k) ((ValueIdx.contrEquiv1 dot_S16x1024x1024_S16x1024x300_S16x1024x300_2_1_1_2_0_0 1024 rfl rfl).symm j) = ix3 b i j :=
    funext fun a => Fin.ext (by
      match a with
      | ⟨0, _⟩ => exact lhsM_0 _ _
      | ⟨1, _⟩ => exact lhsM_1 _ _
      | ⟨2, _⟩ => exact (lhsM_2 _ _).trans hj)
  have er : dot_S16x1024x1024_S16x1024x300_S16x1024x300_2_1_1_2_0_0.rhsIdx (ix3 b i k) ((ValueIdx.contrEquiv1 dot_S16x1024x1024_S16x1024x300_S16x1024x300_2_1_1_2_0_0 1024 rfl rfl).symm j) = ix3 b j k :=
    funext fun a => Fin.ext (by
      match a with
      | ⟨0, _⟩ => exact rhsM_0 _ _
      | ⟨1, _⟩ => exact (rhsM_1 _ _).trans hj
      | ⟨2, _⟩ => exact rhsM_2 _ _)
  rw [el, er]

/-! ### The layout operations -/

/-- A [16,1024] array spread along a new last axis reads, at (b, i, j), its entry (b, i). -/
theorem rowB_apply (v : FVec Ideal S16x1024 .f32) (b : Fin 16) (i j : Fin 1024) :
    broadcastInDim S16x1024x1024 ![0, 1, 2] bcast_S16x1024x1_S16x1024x1024_0_1_2
        (broadcastInDim S16x1024x1 ![0, 1] bcast_S16x1024_S16x1024x1_0_1 v) (ix3 b i j) = v (ix2 b i) := by
  refine (broadcastInDim_apply _ _ _ _ (ix3 b i (0 : Fin 1)) fun a => ?_).trans
    (broadcastInDim_apply _ _ _ _ (ix2 b i) fun a => ?_)
  · match a with | ⟨0, _⟩ => rfl | ⟨1, _⟩ => rfl | ⟨2, _⟩ => rfl
  · match a with | ⟨0, _⟩ => rfl | ⟨1, _⟩ => rfl

/-- A [16,1024] array spread along a new middle axis reads, at (b, i, j), its entry (b, j). -/
theorem colB_apply (v : FVec Ideal S16x1024 .f32) (b : Fin 16) (i j : Fin 1024) :
    broadcastInDim S16x1024x1024 ![0, 1, 2] bcast_S16x1x1024_S16x1024x1024_0_1_2
        (broadcastInDim S16x1x1024 ![0, 2] bcast_S16x1024_S16x1x1024_0_2 v) (ix3 b i j) = v (ix2 b j) := by
  refine (broadcastInDim_apply _ _ _ _ (ix3 b (0 : Fin 1) j) fun a => ?_).trans
    (broadcastInDim_apply _ _ _ _ (ix2 b j) fun a => ?_)
  · match a with | ⟨0, _⟩ => rfl | ⟨1, _⟩ => rfl | ⟨2, _⟩ => rfl
  · match a with | ⟨0, _⟩ => rfl | ⟨1, _⟩ => rfl

/-- A [1024,300] matrix repeated over the batches reads, at (b, i, k), its entry (i, k). -/
theorem overBatch_apply (W : FVec Ideal S1024x300 .f32) (b : Fin 16) (i : Fin 1024) (k : Fin 300) :
    RefTerm.overBatch W (ix3 b i k) = W (ix2 i k) := by
  unfold RefTerm.overBatch
  refine (broadcastInDim_apply _ _ _ _ (ix3 (0 : Fin 1) i k) fun a => ?_).trans
    (broadcastInDim_apply _ _ _ _ (ix2 i k) fun a => ?_)
  · match a with | ⟨0, _⟩ => rfl | ⟨1, _⟩ => rfl | ⟨2, _⟩ => rfl
  · match a with | ⟨0, _⟩ => rfl | ⟨1, _⟩ => rfl

/-! ### The distances -/

/-- The reference's distance array at (b, i, j) is the distance between row i of batch b of h and row j of
    batch b of d. -/
theorem dist_apply (h d : FVec Ideal S16x1024x300 .f32) (b : Fin 16) (i j : Fin 1024) :
    RefTerm.dist h d (ix3 b i j) = Cert.Gnn.dist (Cert.Gnn.slab h b) (Cert.Gnn.slab d b) i j := by
  unfold RefTerm.dist
  show Ideal.sqrt (max
      ((broadcastInDim S16x1024x1024 ![0, 1, 2] bcast_S16x1024x1_S16x1024x1024_0_1_2
            (broadcastInDim S16x1024x1 ![0, 1] bcast_S16x1024_S16x1024x1_0_1 (RefTerm.sqnorm h)) (ix3 b i j)
          + broadcastInDim S16x1024x1024 ![0, 1, 2] bcast_S16x1x1024_S16x1024x1024_0_1_2
            (broadcastInDim S16x1x1024 ![0, 2] bcast_S16x1024_S16x1x1024_0_2 (RefTerm.sqnorm d)) (ix3 b i j))
        - Ideal.ofBits .f32 0x40000000#32
            * Host.dotGeneral dot_S16x1024x300_S16x1024x300_S16x1024x1024_2_2_1_1_0_0 none h d (ix3 b i j))
      (Ideal.ofBits .f32 0x00000000#32)) = _
  rw [rowB_apply, colB_apply, dotT_apply, sqnorm_apply, sqnorm_apply, Cert.Gnn.ofBits_two, Cert.Gnn.ofBits_zero]
  rfl

/-- The transposed distance array at (b, i, j) is the distance between row j of h and row i of d. -/
theorem distT_apply (h d : FVec Ideal S16x1024x300 .f32) (b : Fin 16) (i j : Fin 1024) :
    transpose S16x1024x1024 [0, 2, 1] (RefTerm.dist h d) transposes_S16x1024x1024_S16x1024x1024_0_2_1 (ix3 b i j)
      = Cert.Gnn.dist (Cert.Gnn.slab h b) (Cert.Gnn.slab d b) j i :=
  (transpose_ix3_021_apply (RefTerm.dist h d) transposes_S16x1024x1024_S16x1024x1024_0_2_1 b i j).trans
    (dist_apply h d b j i)

/-- The batched product with the distances as left factor. -/
theorem bmm_dist_apply (h d x : FVec Ideal S16x1024x300 .f32) (b : Fin 16) (i : Fin 1024) (k : Fin 300) :
    RefTerm.bmm (RefTerm.dist h d) x (ix3 b i k)
      = ∑ j : Fin 1024, Cert.Gnn.dist (Cert.Gnn.slab h b) (Cert.Gnn.slab d b) i j * x (ix3 b j k) :=
  (bmm_apply _ x b i k).trans (Finset.sum_congr rfl fun j _ => by rw [dist_apply])

/-- The batched product with the transposed distances as left factor. -/
theorem bmm_distT_apply (h d x : FVec Ideal S16x1024x300 .f32) (b : Fin 16) (i : Fin 1024) (k : Fin 300) :
    RefTerm.bmm (transpose S16x1024x1024 [0, 2, 1] (RefTerm.dist h d) transposes_S16x1024x1024_S16x1024x1024_0_2_1)
        x (ix3 b i k)
      = ∑ j : Fin 1024, Cert.Gnn.dist (Cert.Gnn.slab h b) (Cert.Gnn.slab d b) j i * x (ix3 b j k) :=
  (bmm_apply _ x b i k).trans (Finset.sum_congr rfl fun j _ => by rw [distT_apply])

/-! ### The rectifier and the layers -/

/-- The reference's rectifier at an index is the rectifier of the entry, with the slope word's value. -/
theorem lrelu_apply (x : FVec Ideal S16x1024x300 .f32) (j : S16x1024x300.Idx) :
    RefTerm.lrelu x j = Cert.Gnn.lrelu (Ideal.ofBits .f32 0x3C23D70A#32) (x j) := by
  unfold RefTerm.lrelu
  show Scalar.select (Ideal.cmp .oge (x j) (Ideal.ofBits .f32 0x00000000#32)) (x j)
      (Ideal.ofBits .f32 0x3C23D70A#32 * x j) = _
  rw [Cert.Gnn.ofBits_zero]
  rfl

local notation "slope" => Ideal.ofBits FTy.f32 0x3C23D70A#32

/-- The new head matrix, batch b, is the first component of the layer on batch b of the pair. -/
theorem layerH_apply (W1 W2 B1 B2 : FVec Ideal S1024x300 .f32) (h d : FVec Ideal S16x1024x300 .f32)
    (b : Fin 16) (i : Fin 1024) (k : Fin 300) :
    RefTerm.layerH W1 B1 h d (ix3 b i k)
      = (Cert.Gnn.layer slope (Cert.Gnn.mat W1) (Cert.Gnn.mat W2) (Cert.Gnn.mat B1) (Cert.Gnn.mat B2)
          (Cert.Gnn.slab h b, Cert.Gnn.slab d b)).1 i k := by
  unfold RefTerm.layerH
  rw [lrelu_apply]
  show Cert.Gnn.lrelu slope
      (RefTerm.overBatch W1 (ix3 b i k)
          * (RefTerm.bmm (RefTerm.dist h d) h (ix3 b i k)
              + RefTerm.bmm (transpose S16x1024x1024 [0, 2, 1] (RefTerm.dist h d)
                  transposes_S16x1024x1024_S16x1024x1024_0_2_1) d (ix3 b i k))
        + RefTerm.overBatch B1 (ix3 b i k) * h (ix3 b i k)) = _
  rw [overBatch_apply, overBatch_apply, bmm_dist_apply, bmm_distT_apply]
  rfl

/-- The new dependent matrix, batch b, is the second component of the layer on batch b of the pair. -/
theorem layerD_apply (W1 W2 B1 B2 : FVec Ideal S1024x300 .f32) (h d : FVec Ideal S16x1024x300 .f32)
    (b : Fin 16) (i : Fin 1024) (k : Fin 300) :
    RefTerm.layerD W2 B2 h d (ix3 b i k)
      = (Cert.Gnn.layer slope (Cert.Gnn.mat W1) (Cert.Gnn.mat W2) (Cert.Gnn.mat B1) (Cert.Gnn.mat B2)
          (Cert.Gnn.slab h b, Cert.Gnn.slab d b)).2 i k := by
  unfold RefTerm.layerD
  rw [lrelu_apply]
  show Cert.Gnn.lrelu slope
      (RefTerm.overBatch W2 (ix3 b i k)
          * (RefTerm.bmm (transpose S16x1024x1024 [0, 2, 1] (RefTerm.dist h d)
                  transposes_S16x1024x1024_S16x1024x1024_0_2_1) h (ix3 b i k)
              + RefTerm.bmm (RefTerm.dist h d) d (ix3 b i k))
        + RefTerm.overBatch B2 (ix3 b i k) * d (ix3 b i k)) = _
  rw [overBatch_apply, overBatch_apply, bmm_distT_apply, bmm_dist_apply]
  rfl

/-- One layer of the reference, batch b, is the layer on batch b of the pair. -/
theorem layer_slab (W1 W2 B1 B2 : FVec Ideal S1024x300 .f32) (h d : FVec Ideal S16x1024x300 .f32) (b : Fin 16) :
    (Cert.Gnn.slab (RefTerm.layerH W1 B1 h d) b, Cert.Gnn.slab (RefTerm.layerD W2 B2 h d) b)
      = Cert.Gnn.layer slope (Cert.Gnn.mat W1) (Cert.Gnn.mat W2) (Cert.Gnn.mat B1) (Cert.Gnn.mat B2)
          (Cert.Gnn.slab h b, Cert.Gnn.slab d b) :=
  Prod.ext (funext fun i => funext fun k => layerH_apply W1 W2 B1 B2 h d b i k)
    (funext fun i => funext fun k => layerD_apply W1 W2 B1 B2 h d b i k)

/-! ### The whole reference -/

/-- The reference's result at (b, i, j): three layers on batch b of the two inputs, then the distance between
    row i of the first and row j of the second. -/
theorem out_apply
    (a0 a1 : FVec Ideal Cert.ReferenceIdeal.S16x1024x300 .f32) (W1 W2 B1 B2 : FVec Ideal Cert.ReferenceIdeal.S1024x300 .f32)
    (b : Fin 16) (i j : Fin 1024) :
    Cert.ReferenceIdeal.RefTerm.out a0 a1 W1 W2 B1 B2 (ValueIdx.ix3 b i j)
      = Cert.Gnn.out (Ideal.ofBits .f32 0x3C23D70A#32) (Cert.Gnn.mat W1) (Cert.Gnn.mat W2) (Cert.Gnn.mat B1) (Cert.Gnn.mat B2)
          (Cert.Gnn.slab a0 b, Cert.Gnn.slab a1 b) i j := by
  have e1 := layer_slab W1 W2 B1 B2 a0 a1 b
  have e2 := layer_slab W1 W2 B1 B2 (RefTerm.layerH W1 B1 a0 a1) (RefTerm.layerD W2 B2 a0 a1) b
  have e3 := layer_slab W1 W2 B1 B2
    (RefTerm.layerH W1 B1 (RefTerm.layerH W1 B1 a0 a1) (RefTerm.layerD W2 B2 a0 a1))
    (RefTerm.layerD W2 B2 (RefTerm.layerH W1 B1 a0 a1) (RefTerm.layerD W2 B2 a0 a1)) b
  rw [e1] at e2
  rw [e2] at e3
  unfold RefTerm.out Cert.Gnn.out
  rw [dist_apply, ← e3]

end Cert.ReferenceIdeal.RefRead

end
-- ==== Proof.SpecLaws.lean ====
/-
  The law that makes the two programs agree: distances between the rows of two real matrices do not change
  when both matrices are translated by one vector,

      ‖(hᵢ − c)‖² + ‖(dⱼ − c)‖² − 2⟨hᵢ − c, dⱼ − c⟩ = ∑ₖ (hᵢₖ − dⱼₖ)² = ‖hᵢ‖² + ‖dⱼ‖² − 2⟨hᵢ, dⱼ⟩.

  On the extended reals the ring laws used here hold only away from the infinities, so the law is stated
  for matrices all of whose entries are real numbers, and that property is carried through every layer:
  sums, products, the centre, the distances and the leaky rectifier of real numbers are real numbers.
-/
import proofs.«103367_j33517924778635_2_alg».proof.Proof.Spec

noncomputable section

namespace Cert.Gnn

open Idealize.ShloMosaic

variable {ι κ : Type} [Fintype ι] [Fintype κ]

/-! ### Real numbers inside the extended reals -/

/-- The cast of a finite sum of reals is the sum of the casts. -/
theorem coe_sum {α : Type} (s : Finset α) (f : α → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The maximum of two casts is the cast of the maximum. -/
theorem coe_max (r s : ℝ) : max (r : EReal) (s : EReal) = ((max r s : ℝ) : EReal) := by
  rcases le_total r s with h | h
  · rw [max_eq_right h, max_eq_right (EReal.coe_le_coe_iff.mpr h)]
  · rw [max_eq_left h, max_eq_left (EReal.coe_le_coe_iff.mpr h)]

theorem isReal_coe (r : ℝ) : IsReal (r : EReal) := ⟨r, rfl⟩

theorem isReal_two : IsReal (2 : EReal) := ⟨2, rfl⟩

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.sub {x y : EReal} (hx : IsReal x) (hy : IsReal y) : IsReal (x - y) := by
  obtain ⟨r, rfl⟩ := hx
  obtain ⟨s, rfl⟩ := hy
  exact ⟨r - s, (EReal.coe_sub r s).symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.sum {α : Type} (s : Finset α) {f : α → EReal} (hf : ∀ k, IsReal (f k)) :
    IsReal (∑ k ∈ s, f k) := by
  choose g hg using hf
  exact ⟨∑ k ∈ s, g k, by rw [coe_sum]; exact Finset.sum_congr rfl fun k _ => hg k⟩

/-- The quotient of a real by a nonzero real is real. -/
theorem IsReal.div {x n : EReal} (hx : IsReal x) (hn : ∃ r : ℝ, r ≠ 0 ∧ n = (r : EReal)) :
    IsReal (Ideal.div x n) := by
  obtain ⟨r, hr, rfl⟩ := hn
  rw [Ideal.div_coe hr]
  exact hx.mul (isReal_coe _)

/-- The root of the positive part of a real is real. -/
theorem IsReal.sqrt_max {x : EReal} (hx : IsReal x) : IsReal (Ideal.sqrt (max x 0)) := by
  obtain ⟨r, rfl⟩ := hx
  rw [← EReal.coe_zero, coe_max, Ideal.sqrt_coe, if_neg (not_lt.mpr (le_max_right _ _))]
  exact isReal_coe _

/-- The leaky rectifier of a real, with a real slope, is real: each branch is. -/
theorem IsReal.lrelu {a x : EReal} (ha : IsReal a) (hx : IsReal x) : IsReal (lrelu a x) := by
  unfold Cert.Gnn.lrelu Scalar.select
  split_ifs
  · exact hx
  · exact ha.mul hx

/-! ### The distance and its invariance under a common translation -/

/-- Over the reals the expansion is the sum of the squared differences of the entries. -/
theorem real_expansion (h d : ι → κ → ℝ) (i j : ι) :
    ((∑ k, h i k * h i k) + ∑ k, d j k * d j k) - 2 * ∑ k, h i k * d j k = ∑ k, (h i k - d j k) ^ 2 := by
  rw [Finset.mul_sum, ← Finset.sum_add_distrib, ← Finset.sum_sub_distrib]
  exact Finset.sum_congr rfl fun k _ => by ring

/-- `sqdist` of two matrices of casts is the cast of the sum of the squared differences. -/
theorem sqdist_coe (h d : ι → κ → ℝ) (i j : ι) :
    sqdist (fun i k => (h i k : EReal)) (fun i k => (d i k : EReal)) i j
      = ((∑ k, (h i k - d j k) ^ 2 : ℝ) : EReal) := by
  rw [← real_expansion]
  simp only [sqdist, EReal.coe_sub, EReal.coe_add, EReal.coe_mul, coe_sum]
  rfl

theorem sqdist_real {h d : ι → κ → EReal} (hh : ∀ i k, IsReal (h i k)) (hd : ∀ i k, IsReal (d i k)) (i j : ι) :
    IsReal (sqdist h d i j) :=
  ((IsReal.sum _ fun k => (hh i k).mul (hh i k)).add (IsReal.sum _ fun k => (hd j k).mul (hd j k))).sub
    (isReal_two.mul (IsReal.sum _ fun k => (hh i k).mul (hd j k)))

/-- Translating both matrices by one real vector changes no squared distance. -/
theorem sqdist_shift {c : κ → EReal} {h d : ι → κ → EReal} (hc : ∀ k, IsReal (c k))
    (hh : ∀ i k, IsReal (h i k)) (hd : ∀ i k, IsReal (d i k)) (i j : ι) :
    sqdist (shift c h) (shift c d) i j = sqdist h d i j := by
  choose c' hc' using hc
  choose h' hh' using hh
  choose d' hd' using hd
  obtain rfl : c = fun k => (c' k : EReal) := funext hc'
  obtain rfl : h = fun i k => (h' i k : EReal) := funext fun i => funext (hh' i)
  obtain rfl : d = fun i k => (d' i k : EReal) := funext fun i => funext (hd' i)
  have hs : ∀ m : ι → κ → ℝ, shift (fun k => (c' k : EReal)) (fun i k => (m i k : EReal))
      = fun i k => ((m i k - c' k : ℝ) : EReal) := fun m => by
    funext i k; simp only [shift, EReal.coe_sub]
  rw [hs, hs, sqdist_coe, sqdist_coe]
  congr 1
  exact Finset.sum_congr rfl fun k _ => by ring

theorem dist_real {h d : ι → κ → EReal} (hh : ∀ i k, IsReal (h i k)) (hd : ∀ i k, IsReal (d i k)) (i j : ι) :
    IsReal (dist h d i j) :=
  (sqdist_real hh hd i j).sqrt_max

/-- Translating both matrices by one real vector changes no distance. -/
theorem dist_shift {c : κ → EReal} {h d : ι → κ → EReal} (hc : ∀ k, IsReal (c k))
    (hh : ∀ i k, IsReal (h i k)) (hd : ∀ i k, IsReal (d i k)) :
    dist (shift c h) (shift c d) = dist h d := by
  funext i j
  simp only [dist, sqdist_shift hc hh hd]

/-- The centre of two real matrices is a real vector. -/
theorem centre_real {half n : EReal} (hhalf : IsReal half) (hn : ∃ r : ℝ, r ≠ 0 ∧ n = (r : EReal))
    {h d : ι → κ → EReal} (hh : ∀ i k, IsReal (h i k)) (hd : ∀ i k, IsReal (d i k)) (k : κ) :
    IsReal (centre half n h d k) :=
  hhalf.mul (((IsReal.sum _ fun i => hh i k).div hn).add ((IsReal.sum _ fun i => hd i k).div hn))

/-! ### The layers -/

/-- One update keeps both matrices real when the slope, the weights and the pair weights are real. -/
theorem step_real {a : EReal} (ha : IsReal a) {W1 W2 B1 B2 : ι → κ → EReal}
    (hW1 : ∀ i k, IsReal (W1 i k)) (hW2 : ∀ i k, IsReal (W2 i k))
    (hB1 : ∀ i k, IsReal (B1 i k)) (hB2 : ∀ i k, IsReal (B2 i k))
    {s : ι → ι → EReal} (hs : ∀ i j, IsReal (s i j))
    {h d : ι → κ → EReal} (hh : ∀ i k, IsReal (h i k)) (hd : ∀ i k, IsReal (d i k)) :
    (∀ i k, IsReal ((step a W1 W2 B1 B2 s h d).1 i k)) ∧ (∀ i k, IsReal ((step a W1 W2 B1 B2 s h d).2 i k)) :=
  ⟨fun i k => ha.lrelu (((hW1 i k).mul ((IsReal.sum _ fun j => (hs i j).mul (hh j k)).add
      (IsReal.sum _ fun j => (hs j i).mul (hd j k)))).add ((hB1 i k).mul (hh i k))),
   fun i k => ha.lrelu (((hW2 i k).mul ((IsReal.sum _ fun j => (hs j i).mul (hh j k)).add
      (IsReal.sum _ fun j => (hs i j).mul (hd j k)))).add ((hB2 i k).mul (hd i k)))⟩

/-- A layer keeps a real pair real. -/
theorem layer_real {a : EReal} (ha : IsReal a) {W1 W2 B1 B2 : ι → κ → EReal}
    (hW1 : ∀ i k, IsReal (W1 i k)) (hW2 : ∀ i k, IsReal (W2 i k))
    (hB1 : ∀ i k, IsReal (B1 i k)) (hB2 : ∀ i k, IsReal (B2 i k))
    {p : (ι → κ → EReal) × (ι → κ → EReal)} (h1 : ∀ i k, IsReal (p.1 i k)) (h2 : ∀ i k, IsReal (p.2 i k)) :
    (∀ i k, IsReal ((layer a W1 W2 B1 B2 p).1 i k)) ∧ (∀ i k, IsReal ((layer a W1 W2 B1 B2 p).2 i k)) :=
  step_real ha hW1 hW2 hB1 hB2 (dist_real h1 h2) h1 h2

/-- On a real pair the centred layer is the layer: its pair weights are the same distances. -/
theorem layerC_eq_layer {half n : EReal} (hhalf : IsReal half) (hn : ∃ r : ℝ, r ≠ 0 ∧ n = (r : EReal))
    (a : EReal) (W1 W2 B1 B2 : ι → κ → EReal)
    {p : (ι → κ → EReal) × (ι → κ → EReal)} (h1 : ∀ i k, IsReal (p.1 i k)) (h2 : ∀ i k, IsReal (p.2 i k)) :
    layerC half n a W1 W2 B1 B2 p = layer a W1 W2 B1 B2 p := by
  unfold layerC layer
  rw [dist_shift (centre_real hhalf hn h1 h2) h1 h2]

/-- Three centred layers and the centred distances are three layers and the distances, on real data. -/
theorem outC_eq_out {half n a : EReal} (hhalf : IsReal half) (hn : ∃ r : ℝ, r ≠ 0 ∧ n = (r : EReal)) (ha : IsReal a)
    {W1 W2 B1 B2 h d : ι → κ → EReal}
    (hW1 : ∀ i k, IsReal (W1 i k)) (hW2 : ∀ i k, IsReal (W2 i k)) (hB1 : ∀ i k, IsReal (B1 i k)) (hB2 : ∀ i k, IsReal (B2 i k))
    (hh : ∀ i k, IsReal (h i k)) (hd : ∀ i k, IsReal (d i k)) :
    outC half n a W1 W2 B1 B2 (h, d) = out a W1 W2 B1 B2 (h, d) := by
  have r1 := layer_real ha hW1 hW2 hB1 hB2 (p := (h, d)) hh hd
  have e1 := layerC_eq_layer hhalf hn a W1 W2 B1 B2 (p := (h, d)) hh hd
  have r2 := layer_real ha hW1 hW2 hB1 hB2 r1.1 r1.2
  have e2 := layerC_eq_layer hhalf hn a W1 W2 B1 B2 r1.1 r1.2
  have r3 := layer_real ha hW1 hW2 hB1 hB2 r2.1 r2.2
  have e3 := layerC_eq_layer hhalf hn a W1 W2 B1 B2 r2.1 r2.2
  unfold outC out
  rw [e1, e2, e3]
  exact dist_shift (centre_real hhalf hn r3.1 r3.2) r3.1 r3.2

end Cert.Gnn

end
-- ==== Proof.Finite.lean ====
/-
  What the precondition says: each of the six input arrays passes `all (|x| < +∞)`, and the six answers
  are and-ed into one bit.  An extended real whose absolute value is below +∞ is neither infinity, that is,
  it is a real number; so the bit being 1 makes every entry of every array a real number.
-/
import proofs.«103367_j33517924778635_2_alg».proof.Pre_finite_inputs
import proofs.«103367_j33517924778635_2_alg».proof.Proof.Gen.Pre_finite_inputs
import proofs.«103367_j33517924778635_2_alg».proof.Proof.Spec
import Idealize.ShloMosaic.Lib.ReduceAll

noncomputable section

namespace Cert.Gnn

open Idealize.ShloMosaic
open Cert.Pre_finite_inputs (S_ S1024x300 S16x1024x300)

/-- The scalar shape has one index. -/
instance : Subsingleton S_.Idx := ⟨fun a b => funext fun d => d.elim0⟩

/-- The pattern 0x7F800000 denotes +∞. -/
theorem ofBits_inf : Ideal.ofBits .f32 0x7F800000#32 = ⊤ := by
  simp [Ideal.ofBits, Ideal.ieee]

/-- An extended real with |x| < +∞ is a real number: at either infinity |x| = +∞. -/
theorem isReal_of_abs_lt_inf (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact ⟨r, rfl⟩
  | top => simp [Ideal.cmp] at h

/-- The precondition's bit is 1 only if every entry of the six arrays is a real number. -/
theorem real_of_pre [Cert.Pre_finite_inputs.Facts]
    (a0 a1 : FVec Ideal Cert.Pre_finite_inputs.S16x1024x300 .f32) (a2 a3 a4 a5 : FVec Ideal Cert.Pre_finite_inputs.S1024x300 .f32)
    (h : Cert.Pre_finite_inputs.fn (F := Ideal) a0 a1 a2 a3 a4 a5 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) := by
  have e := congrFun h (fun a => a.elim0)
  dsimp only [Cert.Pre_finite_inputs.fn, Cert.Pre_finite_inputs.fn_part1] at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => isReal_of_abs_lt_inf _ (Host.reduce_andi_all _ _ _ _ _ e0 i),
    fun i => isReal_of_abs_lt_inf _ (Host.reduce_andi_all _ _ _ _ _ e1 i),
    fun i => isReal_of_abs_lt_inf _ (Host.reduce_andi_all _ _ _ _ _ e2 i),
    fun i => isReal_of_abs_lt_inf _ (Host.reduce_andi_all _ _ _ _ _ e3 i),
    fun i => isReal_of_abs_lt_inf _ (Host.reduce_andi_all _ _ _ _ _ e4 i),
    fun i => isReal_of_abs_lt_inf _ (Host.reduce_andi_all _ _ _ _ _ e5 i)⟩

end Cert.Gnn

end
-- ==== Proof.lean ====
/-
  The claim: the kernel and its idealization run to the end leaving their arguments untouched, the reference
  does too, and at the extended reals the idealized kernel and the reference end with the same result array
  whenever every input entry is finite.

  Both programs compute, for each of the sixteen batches, three rounds of a two-matrix update driven by the
  matrix of pairwise Euclidean distances between the rows of the two matrices, and return the distances once
  more.  They differ in one thing: before every distance the kernel subtracts from every row of both matrices
  the same vector (half the sum of their column means).  A distance does not change when both points are
  moved by the same vector; in the expansion ‖x‖² + ‖y‖² − 2⟨x,y⟩ that both programs use this is the identity
  ‖x−c‖² + ‖y−c‖² − 2⟨x−c,y−c⟩ = ‖x‖² + ‖y‖² − 2⟨x,y⟩, which holds for real numbers.  Every entry stays a real
  number through the three rounds because the inputs are finite, so the two results agree entry by entry.
-/
import proofs.«103367_j33517924778635_2_alg».proof.Defs
import proofs.«103367_j33517924778635_2_alg».proof.Proof.Gen.Kernel
import proofs.«103367_j33517924778635_2_alg».proof.Proof.Gen.KernelIdeal
import proofs.«103367_j33517924778635_2_alg».proof.Proof.Gen.ReferenceIdeal
import proofs.«103367_j33517924778635_2_alg».proof.Proof.Gen.Pre_finite_inputs
import proofs.«103367_j33517924778635_2_alg».proof.Proof.KFrame
import proofs.«103367_j33517924778635_2_alg».proof.Proof.KIFrame
import proofs.«103367_j33517924778635_2_alg».proof.Proof.KIValue
import proofs.«103367_j33517924778635_2_alg».proof.Proof.KIRead
import proofs.«103367_j33517924778635_2_alg».proof.Proof.RefRun
import proofs.«103367_j33517924778635_2_alg».proof.Proof.RefRead
import proofs.«103367_j33517924778635_2_alg».proof.Proof.SpecLaws
import proofs.«103367_j33517924778635_2_alg».proof.Proof.Consts
import proofs.«103367_j33517924778635_2_alg».proof.Proof.Finite

noncomputable section

namespace Cert.Proof

open Idealize.ShloMosaic Idealize.ShloMosaic.TcCoe Idealize.ShloMosaic.ValueIdx Idealize.SL.Sem
open Cert.Gnn (mat slab IsReal)

/-- With every entry of the six arrays a real number, the kernel's result function and the reference's result
    term are the same array. -/
theorem result_eq
    (a0 a1 : (⟨3, ![16, 1024, 300]⟩ : Shape).Idx → EReal) (a2 a3 a4 a5 : (⟨2, ![1024, 300]⟩ : Shape).Idx → EReal)
    (h0 : ∀ x, IsReal (a0 x)) (h1 : ∀ x, IsReal (a1 x)) (h2 : ∀ x, IsReal (a2 x)) (h3 : ∀ x, IsReal (a3 x))
    (h4 : ∀ x, IsReal (a4 x)) (h5 : ∀ x, IsReal (a5 x)) :
    Cert.ReferenceIdeal.RefTerm.out (F := Ideal) a0 a1 a2 a3 a4 a5
      = Cert.Proof.KI.G (F := Ideal) a0 a1 a2 a3 a4 a5 := by
  funext q
  have hq : q = ix3 (⟨(q 0).val, (q 0).isLt⟩ : Fin 16) (⟨(q 1).val, (q 1).isLt⟩ : Fin 1024) (⟨(q 2).val, (q 2).isLt⟩ : Fin 1024) := by
    funext a
    apply Fin.ext
    match a with
    | ⟨0, _⟩ => rfl
    | ⟨1, _⟩ => rfl
    | ⟨2, _⟩ => rfl
  refine Eq.trans (congrArg (Cert.ReferenceIdeal.RefTerm.out (F := Ideal) a0 a1 a2 a3 a4 a5) hq) ?_
  refine Eq.trans (Cert.ReferenceIdeal.RefRead.out_apply a0 a1 a2 a3 a4 a5 _ _ _) ?_
  refine Eq.trans ?_ (Cert.Proof.KI.G_apply a0 a1 a2 a3 a4 a5 q).symm
  exact (congrFun (congrFun
    (Cert.Gnn.outC_eq_out Cert.Gnn.ofBits_half_real Cert.Gnn.ofBits_1024 Cert.Gnn.ofBits_slope_real
      (fun i k => h2 _) (fun i k => h3 _) (fun i k => h4 _) (fun i k => h5 _) (fun i k => h0 _) (fun i k => h1 _)) _) _).symm

theorem frame_k : Cert.frame_Kernel (hKernel := Cert.Kernel.Gen.facts) (hPre_finite_inputs := Cert.Pre_finite_inputs.Gen.facts) :=
  fun m ρ _ => Cert.Proof.K.frame m ρ

theorem frame_ki : Cert.frame_KernelIdeal (hKernelIdeal := Cert.KernelIdeal.Gen.facts) (hPre_finite_inputs := Cert.Pre_finite_inputs.Gen.facts) :=
  fun m ρ _ => Cert.Proof.KI.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- From memories agreeing on the arguments, with finite inputs, both runs end at the same result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.Proof.KI.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2]
  obtain ⟨h0, h1, h2, h3, h4, h5⟩ := Cert.Gnn.real_of_pre _ _ _ _ _ _ (hpre c)
  exact result_eq _ _ _ _ _ _ h0 h1 h2 h3 h4 h5

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
